-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v113_0)) (v1 : (c : Dev Cert.KernelIdeal.nD) → Buf (Elt Ideal) ((c.tc : Thread Cert.KernelIdeal.nD Cert.KernelIdeal.τ).loc Cert.KernelIdeal.main_v113_1)) (v2 : (c : Dev Cert.KernelIdeal.nD) → Buf (Elt Ideal) ((c.tc : Thread Cert.KernelIdeal.nD Cert.KernelIdeal.τ).loc Cert.KernelIdeal.main_v113_2)) (v3 : (c : Dev Cert.KernelIdeal.nD) → Buf (Elt Ideal) ((c.tc : Thread Cert.KernelIdeal.nD Cert.KernelIdeal.τ).loc Cert.KernelIdeal.main_v113_3)) (v4 : (c : Dev Cert.KernelIdeal.nD) → Buf (Elt Ideal) ((c.tc : Thread Cert.KernelIdeal.nD Cert.KernelIdeal.τ).loc Cert.KernelIdeal.main_v113_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113_0) = v0 c
          ∧ r.2.mem ((c.tc : Thread Cert.KernelIdeal.nD Cert.KernelIdeal.τ).loc Cert.KernelIdeal.main_v113_1) = v1 c
          ∧ r.2.mem ((c.tc : Thread Cert.KernelIdeal.nD Cert.KernelIdeal.τ).loc Cert.KernelIdeal.main_v113_2) = v2 c
          ∧ r.2.mem ((c.tc : Thread Cert.KernelIdeal.nD Cert.KernelIdeal.τ).loc Cert.KernelIdeal.main_v113_3) = v3 c
          ∧ r.2.mem ((c.tc : Thread Cert.KernelIdeal.nD Cert.KernelIdeal.τ).loc Cert.KernelIdeal.main_v113_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v134) = v3 c
          ∧ r.2.mem ((c.tc : Thread Cert.ReferenceIdeal.nD Cert.ReferenceIdeal.τ).loc Cert.ReferenceIdeal.main_v146) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S10368 : Shape := ⟨1, ![10368]⟩
abbrev S3x3x128x128 : Shape := ⟨4, ![3, 3, 128, 128]⟩
abbrev S3x3x128 : Shape := ⟨3, ![3, 3, 128]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel
  bcast_S_S10368 : S_.BroadcastsInDim S10368 (![] : Fin 0 → Fin S10368.rank)
  reducesTo_S10368_S_d0 : S10368.ReducesTo [0] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x3x128 : S_.BroadcastsInDim S3x3x128 (![] : Fin 0 → Fin S3x3x128.rank)
  reducesTo_S3x3x128_S_d0_1_2 : S3x3x128.ReducesTo [0, 1, 2] S_

variable [Facts]

def fn_part1 {F : FTy → Type} [FloatOps F] (main_arg4 : FVec F S3x3x128 .f32) (main_v13 : IVec S_ 1) (main_v16 : IVec S3x3x128x128 1) : IVec S_ 1 :=
  let main_c_5 : IVec S_ 1 := constantI S_ 1 1#1
  let main_v17 : IVec S_ 1 := (fun x v => Host.reduce IntOp.andi x v reducesTo_S3x3x128x128_S_d0_1_2_3 h_S_) main_v16 main_c_5
  let main_v18 : IVec S_ 1 := andi main_v13 main_v17
  let main_v19 : FVec F S3x3x128 .f32 := Host.absf main_arg4
  let main_cst_6 : FVec F S_ .f32 := constant S_ .f32 0x7F800000#32
  let main_v20 : FVec F S3x3x128 .f32 := broadcastInDim S3x3x128 ![] bcast_S_S3x3x128 main_cst_6
  let main_v21 : IVec S3x3x128 1 := cmpf .olt main_v19 main_v20
  let main_c_7 : IVec S_ 1 := constantI S_ 1 1#1
  let main_v22 : IVec S_ 1 := (fun x v => Host.reduce IntOp.andi x v reducesTo_S3x3x128_S_d0_1_2 h_S_) main_v21 main_c_7
  let main_v23 : IVec S_ 1 := andi main_v18 main_v22
  main_v23

def fn {F : FTy → Type} [FloatOps F] (main_arg0 : FVec F S8x128x128x128 .f32) (main_arg1 : FVec F S10368 .f32) (main_arg2 : FVec F S10368 .f32) (main_arg3 : FVec F S3x3x128x128 .f32) (main_arg4 : FVec F S3x3x128 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S10368 .f32 := Host.absf main_arg1
  let main_cst_0 : FVec F S_ .f32 := constant S_ .f32 0x7F800000#32
  let main_v5 : FVec F S10368 .f32 := broadcastInDim S10368 ![] bcast_S_S10368 main_cst_0
  let main_v6 : IVec S10368 1 := cmpf .olt main_v4 main_v5
  let main_c_1 : IVec S_ 1 := constantI S_ 1 1#1
  let main_v7 : IVec S_ 1 := (fun x v => Host.reduce IntOp.andi x v reducesTo_S10368_S_d0 h_S_) main_v6 main_c_1
  let main_v8 : IVec S_ 1 := andi main_v3 main_v7
  let main_v9 : FVec F S10368 .f32 := Host.absf main_arg2
  let main_cst_2 : FVec F S_ .f32 := constant S_ .f32 0x7F800000#32
  let main_v10 : FVec F S10368 .f32 := broadcastInDim S10368 ![] bcast_S_S10368 main_cst_2
  let main_v11 : IVec S10368 1 := cmpf .olt main_v9 main_v10
  let main_c_3 : IVec S_ 1 := constantI S_ 1 1#1
  let main_v12 : IVec S_ 1 := (fun x v => Host.reduce IntOp.andi x v reducesTo_S10368_S_d0 h_S_) main_v11 main_c_3
  let main_v13 : IVec S_ 1 := andi main_v8 main_v12
  let main_v14 : FVec F S3x3x128x128 .f32 := Host.absf main_arg3
  let main_cst_4 : FVec F S_ .f32 := constant S_ .f32 0x7F800000#32
  let main_v15 : FVec F S3x3x128x128 .f32 := broadcastInDim S3x3x128x128 ![] bcast_S_S3x3x128x128 main_cst_4
  let main_v16 : IVec S3x3x128x128 1 := cmpf .olt main_v14 main_v15
  fn_part1 (F := F) main_arg4 main_v13 main_v16
-- ==== Kernel.lean ====
abbrev S8x128x128x128 : Shape := ⟨4, ![8, 128, 128, 128]⟩
abbrev S10368 : Shape := ⟨1, ![10368]⟩
abbrev S3x3x128x128 : Shape := ⟨4, ![3, 3, 128, 128]⟩
abbrev S3x3x128 : Shape := ⟨3, ![3, 3, 128]⟩
abbrev S81x1x128 : Shape := ⟨3, ![81, 1, 128]⟩
abbrev S_ : Shape := ⟨0, ![]⟩
abbrev S81x1 : Shape := ⟨2, ![81, 1]⟩
abbrev S81x1x1 : Shape := ⟨3, ![81, 1, 1]⟩
abbrev S81x128 : Shape := ⟨2, ![81, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S81x3x128 : Shape := ⟨3, ![81, 3, 128]⟩
abbrev S81x3 : Shape := ⟨2, ![81, 3]⟩
abbrev S81x3x1 : Shape := ⟨3, ![81, 3, 1]⟩
abbrev S128x81 : Shape := ⟨2, ![128, 81]⟩
abbrev S3x128x81 : Shape := ⟨3, ![3, 128, 81]⟩
abbrev S8x81x128x128 : Shape := ⟨4, ![8, 81, 128, 128]⟩
abbrev S8x81x1x128x128 : Shape := ⟨5, ![8, 81, 1, 128, 128]⟩
abbrev S8x81x3x128x128 : Shape := ⟨5, ![8, 81, 3, 128, 128]⟩
abbrev S1x128x16x128 : Shape := ⟨4, ![1, 128, 16, 128]⟩
abbrev S1x81x16x128 : Shape := ⟨4, ![1, 81, 16, 128]⟩
abbrev S1x81x1x16x128 : Shape := ⟨5, ![1, 81, 1, 16, 128]⟩
abbrev S1x81x3x16x128 : Shape := ⟨5, ![1, 81, 3, 16, 128]⟩
abbrev S128x16x128 : Shape := ⟨3, ![128, 16, 128]⟩
abbrev S16x128 : Shape := ⟨2, ![16, 128]⟩
abbrev S1x16x128 : Shape := ⟨3, ![1, 16, 128]⟩
abbrev S16x128x128 : Shape := ⟨3, ![16, 128, 128]⟩
abbrev S2048x128 : Shape := ⟨2, ![2048, 128]⟩
abbrev S2048x81 : Shape := ⟨2, ![2048, 81]⟩
abbrev S16x128x81 : Shape := ⟨3, ![16, 128, 81]⟩
abbrev S81x16x128 : Shape := ⟨3, ![81, 16, 128]⟩
abbrev S1x128x81 : Shape := ⟨3, ![1, 128, 81]⟩

abbrev nBuf : Space → Nat
  | .hbm => 139
  | .vmem => 14
  | .smem => 0
  | _ => 0

abbrev hbmTy0_0 (i : Nat) : BufTy := match i % 128 with
  | 0 => ⟨S8x128x128x128, .f32⟩
  | 1 => ⟨S10368, .f32⟩
  | 2 => ⟨S10368, .f32⟩
  | 3 => ⟨S3x3x128x128, .f32⟩
  | 4 => ⟨S3x3x128, .f32⟩
  | 5 => ⟨S10368, .f32⟩
  | 6 => ⟨S81x1x128, .f32⟩
  | 7 => ⟨S81x1x128, .f32⟩
  | 8 => ⟨S_, .f32⟩
  | 9 => ⟨S81x1, .f32⟩
  | 10 => ⟨S81x1x1, .f32⟩
  | 11 => ⟨S81x1x1, .f32⟩
  | 12 => ⟨S_, .f32⟩
  | 13 => ⟨S81x1x1, .f32⟩
  | 14 => ⟨S81x1x1, .f32⟩
  | 15 => ⟨S81x1x128, .f32⟩
  | 16 => ⟨S81x1x128, .f32⟩
  | 17 => ⟨S81x128, .f32⟩
  | 18 => ⟨S1x1x128x128, .f32⟩
  | 19 => ⟨S128x128, .f32⟩
  | 20 => ⟨S128x128, .f32⟩
  | 21 => ⟨S81x128, .f32⟩
  | 22 => ⟨S1x1x128, .f32⟩
  | 23 => ⟨S128, .f32⟩
  | 24 => ⟨S1x128, .f32⟩
  | 25 => ⟨S81x128, .f32⟩
  | 26 => ⟨S81x128, .f32⟩
  | 27 => ⟨S_, .f32⟩
  | 28 => ⟨S81x128, .f32⟩
  | 29 => ⟨S81x128, .f32⟩
  | 30 => ⟨S1x1x128x128, .f32⟩
  | 31 => ⟨S128x128, .f32⟩
  | 32 => ⟨S128x128, .f32⟩
  | 33 => ⟨S81x128, .f32⟩
  | 34 => ⟨S1x1x128, .f32⟩
  | 35 => ⟨S128, .f32⟩
  | 36 => ⟨S1x128, .f32⟩
  | 37 => ⟨S81x128, .f32⟩
  | 38 => ⟨S81x128, .f32⟩
  | 39 => ⟨S_, .f32⟩
  | 40 => ⟨S81x128, .f32⟩
  | 41 => ⟨S81x128, .f32⟩
  | 42 => ⟨S1x1x128x128, .f32⟩
  | 43 => ⟨S128x128, .f32⟩
  | 44 => ⟨S128x128, .f32⟩
  | 45 => ⟨S81x128, .f32⟩
  | 46 => ⟨S1x1x128, .f32⟩
  | 47 => ⟨S128, .f32⟩
  | 48 => ⟨S1x128, .f32⟩
  | 49 => ⟨S81x128, .f32⟩
  | 50 => ⟨S81x128, .f32⟩
  | 51 => ⟨S1x1x128x128, .f32⟩
  | 52 => ⟨S128x128, .f32⟩
  | 53 => ⟨S128x128, .f32⟩
  | 54 => ⟨S81x128, .f32⟩
  | 55 => ⟨S1x1x128, .f32⟩
  | 56 => ⟨S128, .f32⟩
  | 57 => ⟨S1x128, .f32⟩
  | 58 => ⟨S81x128, .f32⟩
  | 59 => ⟨S81x128, .f32⟩
  | 60 => ⟨S_, .f32⟩
  | 61 => ⟨S81x128, .f32⟩
  | 62 => ⟨S81x128, .f32⟩
  | 63 => ⟨S1x1x128x128, .f32⟩
  | 64 => ⟨S128x128, .f32⟩
  | 65 => ⟨S128x128, .f32⟩
  | 66 => ⟨S81x128, .f32⟩
  | 67 => ⟨S1x1x128, .f32⟩
  | 68 => ⟨S128, .f32⟩
  | 69 => ⟨S1x128, .f32⟩
  | 70 => ⟨S81x128, .f32⟩
  | 71 => ⟨S81x128, .f32⟩
  | 72 => ⟨S_, .f32⟩
  | 73 => ⟨S81x128, .f32⟩
  | 74 => ⟨S81x128, .f32⟩
  | 75 => ⟨S1x1x128x128, .f32⟩
  | 76 => ⟨S128x128, .f32⟩
  | 77 => ⟨S128x128, .f32⟩
  | 78 => ⟨S81x128, .f32⟩
  | 79 => ⟨S1x1x128, .f32⟩
  | 80 => ⟨S128, .f32⟩
  | 81 => ⟨S1x128, .f32⟩
  | 82 => ⟨S81x128, .f32⟩
  | 83 => ⟨S81x128, .f32⟩
  | 84 => ⟨S1x1x128x128, .f32⟩
  | 85 => ⟨S128x128, .f32⟩
  | 86 => ⟨S128x128, .f32⟩
  | 87 => ⟨S81x128, .f32⟩
  | 88 => ⟨S1x1x128, .f32⟩
  | 89 => ⟨S128, .f32⟩
  | 90 => ⟨S1x128, .f32⟩
  | 91 => ⟨S81x128, .f32⟩
  | 92 => ⟨S81x128, .f32⟩
  | 93 => ⟨S_, .f32⟩
  | 94 => ⟨S81x128, .f32⟩
  | 95 => ⟨S81x128, .f32⟩
  | 96 => ⟨S1x1x128x128, .f32⟩
  | 97 => ⟨S128x128, .f32⟩
  | 98 => ⟨S128x128, .f32⟩
  | 99 => ⟨S81x128, .f32⟩
  | 100 => ⟨S1x1x128, .f32⟩
  | 101 => ⟨S128, .f32⟩
  | 102 => ⟨S1x128, .f32⟩
  | 103 => ⟨S81x128, .f32⟩
  | 104 => ⟨S81x128, .f32⟩
  | 105 => ⟨S_, .f32⟩
  | 106 => ⟨S81x128, .f32⟩
  | 107 => ⟨S81x128, .f32⟩
  | 108 => ⟨S1x1x128x128, .f32⟩
  | 109 => ⟨S128x128, .f32⟩
  | 110 => ⟨S128x128, .f32⟩
  | 111 => ⟨S81x128, .f32⟩
  | 112 => ⟨S1x1x128, .f32⟩
  | 113 => ⟨S128, .f32⟩
  | 114 => ⟨S1x128, .f32⟩
  | 115 => ⟨S81x128, .f32⟩
  | 116 => ⟨S81x128, .f32⟩
  | 117 => ⟨S81x1x128, .f32⟩
  | 118 => ⟨S81x1x128, .f32⟩
  | 119 => ⟨S81x1x128, .f32⟩
  | 120 => ⟨S81x3x128, .f32⟩
  | 121 => ⟨S81x3x128, .f32⟩
  | 122 => ⟨S_, .f32⟩
  | 123 => ⟨S81x3, .f32⟩
  | 124 => ⟨S81x3x1, .f32⟩
  | 125 => ⟨S81x3x1, .f32⟩
  | 126 => ⟨S_, .f32⟩
  | 127 => ⟨S81x3x1, .f32⟩
  | _ => ⟨S8x128x128x128, .f32⟩

abbrev hbmTy0_1 (i : Nat) : BufTy := match i % 128 with
  | 0 => ⟨S81x3x1, .f32⟩
  | 1 => ⟨S81x3x128, .f32⟩
  | 2 => ⟨S81x3x128, .f32⟩
  | 3 => ⟨S81x128, .f32⟩
  | 4 => ⟨S128x81, .f32⟩
  | 5 => ⟨S3x128x81, .f32⟩
  | 6 => ⟨S8x81x128x128, .f32⟩
  | 7 => ⟨S8x81x128x128, .f32⟩
  | 8 => ⟨S8x81x1x128x128, .f32⟩
  | 9 => ⟨S8x81x3x128x128, .f32⟩
  | 10 => ⟨S8x81x128x128, .f32⟩
  | _ => ⟨S8x128x128x128, .f32⟩

abbrev hbmTy (i : Nat) : BufTy := match i / 128 with
  | 0 => hbmTy0_0 i
  | 1 => hbmTy0_1 i
  | _ => ⟨S8x128x128x128, .f32⟩

abbrev bufTy : (tb : Table) → Fin (tcTables nBuf tb) → BufTy
  | .hbm, ⟨i, _⟩ => hbmTy i
  | .local _ .vmem, ⟨0, _⟩ => ⟨S1x128x16x128, .f32⟩
  | .local _ .vmem, ⟨1, _⟩ => ⟨S1x128x16x128, .f32⟩
  | .local _ .vmem, ⟨2, _⟩ => ⟨S128x81, .f32⟩
  | .local _ .vmem, ⟨3, _⟩ => ⟨S3x128x81, .f32⟩
  | .local _ .vmem, ⟨4, _⟩ => ⟨S1x81x16x128, .f32⟩
  | .local _ .vmem, ⟨5, _⟩ => ⟨S1x81x16x128, .f32⟩
  | .local _ .vmem, ⟨6, _⟩ => ⟨S1x81x16x128, .f32⟩
  | .local _ .vmem, ⟨7, _⟩ => ⟨S1x81x16x128, .f32⟩
  | .local _ .vmem, ⟨8, _⟩ => ⟨S1x81x1x16x128, .f32⟩
  | .local _ .vmem, ⟨9, _⟩ => ⟨S1x81x1x16x128, .f32⟩
  | .local _ .vmem, ⟨10, _⟩ => ⟨S1x81x3x16x128, .f32⟩
  | .local _ .vmem, ⟨11, _⟩ => ⟨S1x81x3x16x128, .f32⟩
  | .local _ .vmem, ⟨12, _⟩ => ⟨S1x81x16x128, .f32⟩
  | .local _ .vmem, ⟨13, _⟩ => ⟨S1x81x16x128, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call1_cst : Ref sig .tc := ⟨.hbm, 39, rfl⟩
abbrev main_call1_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_call2_cst : Ref sig .tc := ⟨.hbm, 60, rfl⟩
abbrev main_call2_v0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call3_cst : Ref sig .tc := ⟨.hbm, 72, rfl⟩
abbrev main_call3_v0 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_call4_cst : Ref sig .tc := ⟨.hbm, 93, rfl⟩
abbrev main_call4_v0 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_call5_cst : Ref sig .tc := ⟨.hbm, 105, rfl⟩
abbrev main_call5_v0 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_1 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_2 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113_0 : Ref sig .tc := ⟨.hbm, 134, rfl⟩
abbrev main_v113_1 : Ref sig .tc := ⟨.hbm, 135, rfl⟩
abbrev main_v113_2 : Ref sig .tc := ⟨.hbm, 136, rfl⟩
abbrev main_v113_3 : Ref sig .tc := ⟨.hbm, 137, rfl⟩
abbrev main_v113_4 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x81 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x128x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x81x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x81x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x81x1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x81x3x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x81x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S10368_S81x1x128 : S10368.ShapeCasts S81x1x128
  reducesTo_S81x1x128_S81x1_d2 : S81x1x128.ReducesTo [2] S81x1
  h_S_ : 0 < S_.numel
  bcast_S81x1_S81x1x1_0_1 : S81x1.BroadcastsInDim S81x1x1 (![0, 1] : Fin 2 → Fin S81x1x1.rank)
  bcast_S_S81x1x1 : S_.BroadcastsInDim S81x1x1 (![] : Fin 0 → Fin S81x1x1.rank)
  bcast_S81x1x1_S81x1x128_0_1_2 : S81x1x1.BroadcastsInDim S81x1x128 (![0, 1, 2] : Fin 3 → Fin S81x1x128.rank)
  shapeCasts_S81x1x128_S81x128 : S81x1x128.ShapeCasts S81x128
  slices_S3x3x128x128_S1x1x128x128_0_0_0_0 : S3x3x128x128.Slices ![0, 0, 0, 0] S1x1x128x128
  shapeCasts_S1x1x128x128_S128x128 : S1x1x128x128.ShapeCasts S128x128
  transposes_S128x128_S128x128_1_0 : S128x128.Transposes [1, 0] S128x128
  slices_S3x3x128_S1x1x128_0_0_0 : S3x3x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S81x128_0_1 : S1x128.BroadcastsInDim S81x128 (![0, 1] : Fin 2 → Fin S81x128.rank)
  bcast_S_S81x128 : S_.BroadcastsInDim S81x128 (![] : Fin 0 → Fin S81x128.rank)
  slices_S3x3x128x128_S1x1x128x128_0_1_0_0 : S3x3x128x128.Slices ![0, 1, 0, 0] S1x1x128x128
  slices_S3x3x128_S1x1x128_0_1_0 : S3x3x128.Slices ![0, 1, 0] S1x1x128
  slices_S3x3x128x128_S1x1x128x128_0_2_0_0 : S3x3x128x128.Slices ![0, 2, 0, 0] S1x1x128x128
  slices_S3x3x128_S1x1x128_0_2_0 : S3x3x128.Slices ![0, 2, 0] S1x1x128
  slices_S3x3x128x128_S1x1x128x128_1_0_0_0 : S3x3x128x128.Slices ![1, 0, 0, 0] S1x1x128x128
  slices_S3x3x128_S1x1x128_1_0_0 : S3x3x128.Slices ![1, 0, 0] S1x1x128
  slices_S3x3x128x128_S1x1x128x128_1_1_0_0 : S3x3x128x128.Slices ![1, 1, 0, 0] S1x1x128x128
  slices_S3x3x128_S1x1x128_1_1_0 : S3x3x128.Slices ![1, 1, 0] S1x1x128
  slices_S3x3x128x128_S1x1x128x128_1_2_0_0 : S3x3x128x128.Slices ![1, 2, 0, 0] S1x1x128x128
  slices_S3x3x128_S1x1x128_1_2_0 : S3x3x128.Slices ![1, 2, 0] S1x1x128
  slices_S3x3x128x128_S1x1x128x128_2_0_0_0 : S3x3x128x128.Slices ![2, 0, 0, 0] S1x1x128x128
  slices_S3x3x128_S1x1x128_2_0_0 : S3x3x128.Slices ![2, 0, 0] S1x1x128
  slices_S3x3x128x128_S1x1x128x128_2_1_0_0 : S3x3x128x128.Slices ![2, 1, 0, 0] S1x1x128x128
  slices_S3x3x128_S1x1x128_2_1_0 : S3x3x128.Slices ![2, 1, 0] S1x1x128
  slices_S3x3x128x128_S1x1x128x128_2_2_0_0 : S3x3x128x128.Slices ![2, 2, 0, 0] S1x1x128x128
  slices_S3x3x128_S1x1x128_2_2_0 : S3x3x128.Slices ![2, 2, 0] S1x1x128
  bcast_S81x128_S81x1x128_0_2 : S81x128.BroadcastsInDim S81x1x128 (![0, 2] : Fin 2 → Fin S81x1x128.rank)
  concatenates_S81x1x128_S81x1x128_S81x1x128_S81x3x128_d1 : Shape.Concatenates [S81x1x128, S81x1x128, S81x1x128] S81x3x128 1
  reducesTo_S81x3x128_S81x3_d2 : S81x3x128.ReducesTo [2] S81x3
  bcast_S81x3_S81x3x1_0_1 : S81x3.BroadcastsInDim S81x3x1 (![0, 1] : Fin 2 → Fin S81x3x1.rank)
  bcast_S_S81x3x1 : S_.BroadcastsInDim S81x3x1 (![] : Fin 0 → Fin S81x3x1.rank)
  bcast_S81x3x1_S81x3x128_0_1_2 : S81x3x1.BroadcastsInDim S81x3x128 (![0, 1, 2] : Fin 3 → Fin S81x3x128.rank)
  transposes_S81x128_S128x81_1_0 : S81x128.Transposes [1, 0] S128x81
  transposes_S81x3x128_S3x128x81_1_2_0 : S81x3x128.Transposes [1, 2, 0] S3x128x81
  inb_S1x128x16x128_S1x128x16x128_0_0_0_0 : ∀ a, (![0, 0, 0, 0] : Fin 4 → Nat) a + S1x128x16x128.size a ≤ S1x128x16x128.size a
  h_S1x128x16x128 : 0 < S1x128x16x128.numel
  shapeCasts_S1x128x16x128_S128x16x128 : S1x128x16x128.ShapeCasts S128x16x128
  reduces_S128x16x128_S16x128 : S128x16x128.Reduces [0] S16x128
  shapeCasts_S16x128_S1x16x128 : S16x128.ShapeCasts S1x16x128
  broadcasts_S1x16x128_S128x16x128 : S1x16x128.Broadcasts S128x16x128
  bitsLt_bf16_f32 : FTy.bits .bf16 < FTy.bits .f32
  transposes_S128x16x128_p1_2_0_S16x128x128 : S128x16x128.Transposes [1, 2, 0] S16x128x128
  shapeCasts_S16x128x128_S2048x128 : S16x128x128.ShapeCasts S2048x128
  inb_S128x81_S128x81_0_0 : ∀ a, (![0, 0] : Fin 2 → Nat) a + S128x81.size a ≤ S128x81.size a
  h_S128x81 : 0 < S128x81.numel
  shapeCasts_S128x81_S128x81 : S128x81.ShapeCasts S128x81
  shapeCasts_S2048x81_S16x128x81 : S2048x81.ShapeCasts S16x128x81
  transposes_S16x128x81_p2_0_1_S81x16x128 : S16x128x81.Transposes [2, 0, 1] S81x16x128
  inb_S1x81x1x16x128_S1x81x1x16x128_0_0_0_0_0 : ∀ a, (![0, 0, 0, 0, 0] : Fin 5 → Nat) a + S1x81x1x16x128.size a ≤ S1x81x1x16x128.size a
  h_S1x81x1x16x128 : 0 < S1x81x1x16x128.numel
  shapeCasts_S1x81x1x16x128_S81x16x128 : S1x81x1x16x128.ShapeCasts S81x16x128
  shapeCasts_S81x16x128_S1x81x1x16x128 : S81x16x128.ShapeCasts S1x81x1x16x128
  inb_S1x81x16x128_S1x81x16x128_0_0_0_0 : ∀ a, (![0, 0, 0, 0] : Fin 4 → Nat) a + S1x81x16x128.size a ≤ S1x81x16x128.size a
  h_S1x81x16x128 : 0 < S1x81x16x128.numel
  shapeCasts_S1x81x16x128_S81x16x128 : S1x81x16x128.ShapeCasts S81x16x128
  shapeCasts_S81x16x128_S1x81x16x128 : S81x16x128.ShapeCasts S1x81x16x128
  inb_S3x128x81_S1x128x81_0_0_0 : ∀ a, (![0, 0, 0] : Fin 3 → Nat) a + S1x128x81.size a ≤ S3x128x81.size a
  h_S1x128x81 : 0 < S1x128x81.numel
  shapeCasts_S1x128x81_S128x81 : S1x128x81.ShapeCasts S128x81
  inb_S1x81x3x16x128_S1x81x1x16x128_0_0_0_0_0 : ∀ a, (![0, 0, 0, 0, 0] : Fin 5 → Nat) a + S1x81x1x16x128.size a ≤ S1x81x3x16x128.size a
  inb_S3x128x81_S1x128x81_1_0_0 : ∀ a, (![1, 0, 0] : Fin 3 → Nat) a + S1x128x81.size a ≤ S3x128x81.size a
  inb_S1x81x3x16x128_S1x81x1x16x128_0_0_1_0_0 : ∀ a, (![0, 0, 1, 0, 0] : Fin 5 → Nat) a + S1x81x1x16x128.size a ≤ S1x81x3x16x128.size a
  inb_S3x128x81_S1x128x81_2_0_0 : ∀ a, (![2, 0, 0] : Fin 3 → Nat) a + S1x128x81.size a ≤ S3x128x81.size a
  inb_S1x81x3x16x128_S1x81x1x16x128_0_0_2_0_0 : ∀ a, (![0, 0, 2, 0, 0] : Fin 5 → Nat) a + S1x81x1x16x128.size a ≤ S1x81x3x16x128.size a
  reduces_S81x16x128_S16x128 : S81x16x128.Reduces [0] S16x128
  broadcasts_S1x16x128_S81x16x128 : S1x16x128.Broadcasts S81x16x128
  dot_S81x128_S128x128_S81x128_1_0_0_1_n_n_wf : DotDims.WF S81x128 S128x128 S81x128 [1] [0] [0] [1] [] []
  dot_S2048x128_S128x81_S2048x81_1_0_0_1_n_n_wf : DotDims.WF S2048x128 S128x81 S2048x81 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16x128.size a ≤ S8x128x128x128.size a
  hwx0_0 : ∀ i : grid0.Coords, EltTy.bits .f32 = 32 ∨ (Rect.block (s := S8x128x128x128) S1x128x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x81.size a ≤ S128x81.size a
  hwx0_1 : ∀ i : grid0.Coords, EltTy.bits .f32 = 32 ∨ (Rect.block (s := S128x81) S128x81.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x81.size a ≤ S3x128x81.size a
  hwx0_2 : ∀ i : grid0.Coords, EltTy.bits .f32 = 32 ∨ (Rect.block (s := S3x128x81) S3x128x81.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x81x16x128.size a ≤ S8x81x128x128.size a
  hwx0_3 : ∀ i : grid0.Coords, EltTy.bits .f32 = 32 ∨ (Rect.block (s := S8x81x128x128) S1x81x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x81x16x128.size a ≤ S8x81x128x128.size a
  hwx0_4 : ∀ i : grid0.Coords, EltTy.bits .f32 = 32 ∨ (Rect.block (s := S8x81x128x128) S1x81x16x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x81x1x16x128.size a ≤ S8x81x1x128x128.size a
  hwx0_5 : ∀ i : grid0.Coords, EltTy.bits .f32 = 32 ∨ (Rect.block (s := S8x81x1x128x128) S1x81x1x16x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x81x3x16x128.size a ≤ S8x81x3x128x128.size a
  hwx0_6 : ∀ i : grid0.Coords, EltTy.bits .f32 = 32 ∨ (Rect.block (s := S8x81x3x128x128) S1x81x3x16x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x81x16x128.size a ≤ S8x81x128x128.size a
  hwx0_7 : ∀ i : grid0.Coords, EltTy.bits .f32 = 32 ∨ (Rect.block (s := S8x81x128x128) S1x81x16x128.size (cc0_transform_7 i) (hinb0_7 i)).WholeWords (EltTy.packing .f32)

variable [Facts₀]

def dot_S81x128_S128x128_S81x128_1_0_0_1_n_n : DotDims S81x128 S128x128 S81x128 where
  lhsContracting := [1]
  rhsContracting := [0]
  lhsNonContracting := [0]
  rhsNonContracting := [1]
  lhsBatch := []
  rhsBatch := []
  wf := dot_S81x128_S128x128_S81x128_1_0_0_1_n_n_wf
def dot_S2048x128_S128x81_S2048x81_1_0_0_1_n_n : DotDims S2048x128 S128x81 S2048x81 where
  lhsContracting := [1]
  rhsContracting := [0]
  lhsNonContracting := [0]
  rhsNonContracting := [1]
  lhsBatch := []
  rhsBatch := []
  wf := dot_S2048x128_S128x81_S2048x81_1_0_0_1_n_n_wf

abbrev win0_0 : Pipeline.Window sig grid0 :=
  Pipeline.Window.ofSpec (Memref.whole main_arg0) S1x128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v111) S128x81.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v112) S3x128x81.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v113_0) S1x81x16x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v113_1) S1x81x16x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v113_2) S1x81x1x16x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v113_3) S1x81x3x16x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v113_4) S1x81x16x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x128x128x128 : Shape := ⟨4, ![8, 128, 128, 128]⟩
abbrev S10368 : Shape := ⟨1, ![10368]⟩
abbrev S3x3x128x128 : Shape := ⟨4, ![3, 3, 128, 128]⟩
abbrev S3x3x128 : Shape := ⟨3, ![3, 3, 128]⟩
abbrev S_ : Shape := ⟨0, ![]⟩
abbrev S8x128x128 : Shape := ⟨3, ![8, 128, 128]⟩
abbrev S8x1x128x128 : Shape := ⟨4, ![8, 1, 128, 128]⟩
abbrev S81x1x128 : Shape := ⟨3, ![81, 1, 128]⟩
abbrev S81x1 : Shape := ⟨2, ![81, 1]⟩
abbrev S81x1x1 : Shape := ⟨3, ![81, 1, 1]⟩
abbrev S81x128 : Shape := ⟨2, ![81, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S81x3x128 : Shape := ⟨3, ![81, 3, 128]⟩
abbrev S81x3 : Shape := ⟨2, ![81, 3]⟩
abbrev S81x3x1 : Shape := ⟨3, ![81, 3, 1]⟩
abbrev S81x1x8x128x128 : Shape := ⟨5, ![81, 1, 8, 128, 128]⟩
abbrev S8x81x1x128x128 : Shape := ⟨5, ![8, 81, 1, 128, 128]⟩
abbrev S81x3x8x128x128 : Shape := ⟨5, ![81, 3, 8, 128, 128]⟩
abbrev S8x81x3x128x128 : Shape := ⟨5, ![8, 81, 3, 128, 128]⟩
abbrev S8x81x128x128 : Shape := ⟨4, ![8, 81, 128, 128]⟩

abbrev nBuf : Space → Nat
  | .hbm => 208
  | .vmem => 0
  | .smem => 0
  | _ => 0

abbrev hbmTy0_0 (i : Nat) : BufTy := match i % 128 with
  | 0 => ⟨S8x128x128x128, .f32⟩
  | 1 => ⟨S10368, .f32⟩
  | 2 => ⟨S10368, .f32⟩
  | 3 => ⟨S3x3x128x128, .f32⟩
  | 4 => ⟨S3x3x128, .f32⟩
  | 5 => ⟨S8x128x128x128, .f32⟩
  | 6 => ⟨S_, .f32⟩
  | 7 => ⟨S8x128x128, .f32⟩
  | 8 => ⟨S8x1x128x128, .f32⟩
  | 9 => ⟨S8x1x128x128, .f32⟩
  | 10 => ⟨S_, .f32⟩
  | 11 => ⟨S8x1x128x128, .f32⟩
  | 12 => ⟨S8x1x128x128, .f32⟩
  | 13 => ⟨S8x128x128x128, .f32⟩
  | 14 => ⟨S8x128x128x128, .f32⟩
  | 15 => ⟨S8x128x128x128, .f32⟩
  | 16 => ⟨S10368, .f32⟩
  | 17 => ⟨S81x1x128, .f32⟩
  | 18 => ⟨S81x1x128, .f32⟩
  | 19 => ⟨S_, .f32⟩
  | 20 => ⟨S81x1, .f32⟩
  | 21 => ⟨S81x1x1, .f32⟩
  | 22 => ⟨S81x1x1, .f32⟩
  | 23 => ⟨S_, .f32⟩
  | 24 => ⟨S81x1x1, .f32⟩
  | 25 => ⟨S81x1x1, .f32⟩
  | 26 => ⟨S81x1x128, .f32⟩
  | 27 => ⟨S81x1x128, .f32⟩
  | 28 => ⟨S81x128, .f32⟩
  | 29 => ⟨S1x1x128x128, .f32⟩
  | 30 => ⟨S128x128, .f32⟩
  | 31 => ⟨S128x128, .f32⟩
  | 32 => ⟨S81x128, .f32⟩
  | 33 => ⟨S1x1x128, .f32⟩
  | 34 => ⟨S128, .f32⟩
  | 35 => ⟨S1x128, .f32⟩
  | 36 => ⟨S81x128, .f32⟩
  | 37 => ⟨S81x128, .f32⟩
  | 38 => ⟨S_, .f32⟩
  | 39 => ⟨S81x128, .f32⟩
  | 40 => ⟨S81x128, .f32⟩
  | 41 => ⟨S1x1x128x128, .f32⟩
  | 42 => ⟨S128x128, .f32⟩
  | 43 => ⟨S128x128, .f32⟩
  | 44 => ⟨S81x128, .f32⟩
  | 45 => ⟨S1x1x128, .f32⟩
  | 46 => ⟨S128, .f32⟩
  | 47 => ⟨S1x128, .f32⟩
  | 48 => ⟨S81x128, .f32⟩
  | 49 => ⟨S81x128, .f32⟩
  | 50 => ⟨S_, .f32⟩
  | 51 => ⟨S81x128, .f32⟩
  | 52 => ⟨S81x128, .f32⟩
  | 53 => ⟨S1x1x128x128, .f32⟩
  | 54 => ⟨S128x128, .f32⟩
  | 55 => ⟨S128x128, .f32⟩
  | 56 => ⟨S81x128, .f32⟩
  | 57 => ⟨S1x1x128, .f32⟩
  | 58 => ⟨S128, .f32⟩
  | 59 => ⟨S1x128, .f32⟩
  | 60 => ⟨S81x128, .f32⟩
  | 61 => ⟨S81x128, .f32⟩
  | 62 => ⟨S1x1x128x128, .f32⟩
  | 63 => ⟨S128x128, .f32⟩
  | 64 => ⟨S128x128, .f32⟩
  | 65 => ⟨S81x128, .f32⟩
  | 66 => ⟨S1x1x128, .f32⟩
  | 67 => ⟨S128, .f32⟩
  | 68 => ⟨S1x128, .f32⟩
  | 69 => ⟨S81x128, .f32⟩
  | 70 => ⟨S81x128, .f32⟩
  | 71 => ⟨S_, .f32⟩
  | 72 => ⟨S81x128, .f32⟩
  | 73 => ⟨S81x128, .f32⟩
  | 74 => ⟨S1x1x128x128, .f32⟩
  | 75 => ⟨S128x128, .f32⟩
  | 76 => ⟨S128x128, .f32⟩
  | 77 => ⟨S81x128, .f32⟩
  | 78 => ⟨S1x1x128, .f32⟩
  | 79 => ⟨S128, .f32⟩
  | 80 => ⟨S1x128, .f32⟩
  | 81 => ⟨S81x128, .f32⟩
  | 82 => ⟨S81x128, .f32⟩
  | 83 => ⟨S_, .f32⟩
  | 84 => ⟨S81x128, .f32⟩
  | 85 => ⟨S81x128, .f32⟩
  | 86 => ⟨S1x1x128x128, .f32⟩
  | 87 => ⟨S128x128, .f32⟩
  | 88 => ⟨S128x128, .f32⟩
  | 89 => ⟨S81x128, .f32⟩
  | 90 => ⟨S1x1x128, .f32⟩
  | 91 => ⟨S128, .f32⟩
  | 92 => ⟨S1x128, .f32⟩
  | 93 => ⟨S81x128, .f32⟩
  | 94 => ⟨S81x128, .f32⟩
  | 95 => ⟨S1x1x128x128, .f32⟩
  | 96 => ⟨S128x128, .f32⟩
  | 97 => ⟨S128x128, .f32⟩
  | 98 => ⟨S81x128, .f32⟩
  | 99 => ⟨S1x1x128, .f32⟩
  | 100 => ⟨S128, .f32⟩
  | 101 => ⟨S1x128, .f32⟩
  | 102 => ⟨S81x128, .f32⟩
  | 103 => ⟨S81x128, .f32⟩
  | 104 => ⟨S_, .f32⟩
  | 105 => ⟨S81x128, .f32⟩
  | 106 => ⟨S81x128, .f32⟩
  | 107 => ⟨S1x1x128x128, .f32⟩
  | 108 => ⟨S128x128, .f32⟩
  | 109 => ⟨S128x128, .f32⟩
  | 110 => ⟨S81x128, .f32⟩
  | 111 => ⟨S1x1x128, .f32⟩
  | 112 => ⟨S128, .f32⟩
  | 113 => ⟨S1x128, .f32⟩
  | 114 => ⟨S81x128, .f32⟩
  | 115 => ⟨S81x128, .f32⟩
  | 116 => ⟨S_, .f32⟩
  | 117 => ⟨S81x128, .f32⟩
  | 118 => ⟨S81x128, .f32⟩
  | 119 => ⟨S1x1x128x128, .f32⟩
  | 120 => ⟨S128x128, .f32⟩
  | 121 => ⟨S128x128, .f32⟩
  | 122 => ⟨S81x128, .f32⟩
  | 123 => ⟨S1x1x128, .f32⟩
  | 124 => ⟨S128, .f32⟩
  | 125 => ⟨S1x128, .f32⟩
  | 126 => ⟨S81x128, .f32⟩
  | 127 => ⟨S81x128, .f32⟩
  | _ => ⟨S8x128x128x128, .f32⟩

abbrev hbmTy0_1 (i : Nat) : BufTy := match i % 128 with
  | 0 => ⟨S81x1x128, .f32⟩
  | 1 => ⟨S81x1x128, .f32⟩
  | 2 => ⟨S81x1x128, .f32⟩
  | 3 => ⟨S81x3x128, .f32⟩
  | 4 => ⟨S81x3x128, .f32⟩
  | 5 => ⟨S_, .f32⟩
  | 6 => ⟨S81x3, .f32⟩
  | 7 => ⟨S81x3x1, .f32⟩
  | 8 => ⟨S81x3x1, .f32⟩
  | 9 => ⟨S_, .f32⟩
  | 10 => ⟨S81x3x1, .f32⟩
  | 11 => ⟨S81x3x1, .f32⟩
  | 12 => ⟨S81x3x128, .f32⟩
  | 13 => ⟨S81x3x128, .f32⟩
  | 14 => ⟨S81x1x8x128x128, .f32⟩
  | 15 => ⟨S8x81x1x128x128, .f32⟩
  | 16 => ⟨S_, .f32⟩
  | 17 => ⟨S8x81x1x128x128, .f32⟩
  | 18 => ⟨S8x81x1x128x128, .f32⟩
  | 19 => ⟨S_, .f32⟩
  | 20 => ⟨S8x81x1x128x128, .f32⟩
  | 21 => ⟨S8x81x1x128x128, .f32⟩
  | 22 => ⟨S_, .f32⟩
  | 23 => ⟨S8x81x1x128x128, .f32⟩
  | 24 => ⟨S8x81x1x128x128, .f32⟩
  | 25 => ⟨S8x81x1x128x128, .f32⟩
  | 26 => ⟨S81x3x8x128x128, .f32⟩
  | 27 => ⟨S8x81x3x128x128, .f32⟩
  | 28 => ⟨S_, .f32⟩
  | 29 => ⟨S8x81x3x128x128, .f32⟩
  | 30 => ⟨S8x81x3x128x128, .f32⟩
  | 31 => ⟨S_, .f32⟩
  | 32 => ⟨S8x81x3x128x128, .f32⟩
  | 33 => ⟨S8x81x3x128x128, .f32⟩
  | 34 => ⟨S_, .f32⟩
  | 35 => ⟨S8x81x3x128x128, .f32⟩
  | 36 => ⟨S8x81x3x128x128, .f32⟩
  | 37 => ⟨S8x81x3x128x128, .f32⟩
  | 38 => ⟨S8x81x3x128x128, .f32⟩
  | 39 => ⟨S8x81x3x128x128, .f32⟩
  | 40 => ⟨S_, .f32⟩
  | 41 => ⟨S8x81x3x128x128, .f32⟩
  | 42 => ⟨S8x81x3x128x128, .f32⟩
  | 43 => ⟨S8x81x3x128x128, .f32⟩
  | 44 => ⟨S_, .f32⟩
  | 45 => ⟨S8x81x128x128, .f32⟩
  | 46 => ⟨S8x81x1x128x128, .f32⟩
  | 47 => ⟨S8x81x1x128x128, .f32⟩
  | 48 => ⟨S_, .f32⟩
  | 49 => ⟨S8x81x1x128x128, .f32⟩
  | 50 => ⟨S8x81x1x128x128, .f32⟩
  | 51 => ⟨S8x81x1x128x128, .f32⟩
  | 52 => ⟨S_, .f32⟩
  | 53 => ⟨S8x81x128x128, .f32⟩
  | 54 => ⟨S_, .f32⟩
  | 55 => ⟨S8x81x128x128, .f32⟩
  | 56 => ⟨S8x81x1x128x128, .f32⟩
  | 57 => ⟨S_, .f32⟩
  | 58 => ⟨S8x81x1x128x128, .f32⟩
  | 59 => ⟨S8x81x1x128x128, .f32⟩
  | 60 => ⟨S_, .f32⟩
  | 61 => ⟨S8x81x1x128x128, .f32⟩
  | 62 => ⟨S8x81x1x128x128, .f32⟩
  | 63 => ⟨S_, .f32⟩
  | 64 => ⟨S8x81x1x128x128, .f32⟩
  | 65 => ⟨S8x81x1x128x128, .f32⟩
  | 66 => ⟨S8x81x1x128x128, .f32⟩
  | 67 => ⟨S8x81x1x128x128, .f32⟩
  | 68 => ⟨S8x81x1x128x128, .f32⟩
  | 69 => ⟨S_, .f32⟩
  | 70 => ⟨S8x81x1x128x128, .f32⟩
  | 71 => ⟨S8x81x1x128x128, .f32⟩
  | 72 => ⟨S8x81x1x128x128, .f32⟩
  | 73 => ⟨S_, .f32⟩
  | 74 => ⟨S8x81x128x128, .f32⟩
  | 75 => ⟨S_, .f32⟩
  | 76 => ⟨S8x128x128, .f32⟩
  | 77 => ⟨S8x1x128x128, .f32⟩
  | 78 => ⟨S8x81x128x128, .f32⟩
  | 79 => ⟨S8x81x128x128, .f32⟩
  | _ => ⟨S8x128x128x128, .f32⟩

abbrev hbmTy (i : Nat) : BufTy := match i / 128 with
  | 0 => hbmTy0_0 i
  | 1 => hbmTy0_1 i
  | _ => ⟨S8x128x128x128, .f32⟩

abbrev bufTy : (tb : Table) → Fin (tcTables nBuf tb) → BufTy
  | .hbm, ⟨i, _⟩ => hbmTy i
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_cst : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call1_cst : Ref sig .tc := ⟨.hbm, 50, rfl⟩
abbrev main_call1_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_call2_cst : Ref sig .tc := ⟨.hbm, 71, rfl⟩
abbrev main_call2_v0 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call3_cst : Ref sig .tc := ⟨.hbm, 83, rfl⟩
abbrev main_call3_v0 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_call4_cst : Ref sig .tc := ⟨.hbm, 104, rfl⟩
abbrev main_call4_v0 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_call5_cst : Ref sig .tc := ⟨.hbm, 116, rfl⟩
abbrev main_call5_v0 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_3 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_4 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_5 : Ref sig .tc := ⟨.hbm, 144, rfl⟩
abbrev main_v121 : Ref sig .tc := ⟨.hbm, 145, rfl⟩
abbrev main_v122 : Ref sig .tc := ⟨.hbm, 146, rfl⟩
abbrev main_cst_6 : Ref sig .tc := ⟨.hbm, 147, rfl⟩
abbrev main_v123 : Ref sig .tc := ⟨.hbm, 148, rfl⟩
abbrev main_v124 : Ref sig .tc := ⟨.hbm, 149, rfl⟩
abbrev main_call6_cst : Ref sig .tc := ⟨.hbm, 150, rfl⟩
abbrev main_call6_v0 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_7 : Ref sig .tc := ⟨.hbm, 156, rfl⟩
abbrev main_v129 : Ref sig .tc := ⟨.hbm, 157, rfl⟩
abbrev main_v130 : Ref sig .tc := ⟨.hbm, 158, rfl⟩
abbrev main_cst_8 : Ref sig .tc := ⟨.hbm, 159, rfl⟩
abbrev main_v131 : Ref sig .tc := ⟨.hbm, 160, rfl⟩
abbrev main_v132 : Ref sig .tc := ⟨.hbm, 161, rfl⟩
abbrev main_call7_cst : Ref sig .tc := ⟨.hbm, 162, rfl⟩
abbrev main_call7_v0 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_9 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_10 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_11 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_12 : Ref sig .tc := ⟨.hbm, 180, rfl⟩
abbrev main_v146 : Ref sig .tc := ⟨.hbm, 181, rfl⟩
abbrev main_cst_13 : Ref sig .tc := ⟨.hbm, 182, rfl⟩
abbrev main_v147 : Ref sig .tc := ⟨.hbm, 183, rfl⟩
abbrev main_v148 : Ref sig .tc := ⟨.hbm, 184, rfl⟩
abbrev main_cst_14 : Ref sig .tc := ⟨.hbm, 185, rfl⟩
abbrev main_v149 : Ref sig .tc := ⟨.hbm, 186, rfl⟩
abbrev main_v150 : Ref sig .tc := ⟨.hbm, 187, rfl⟩
abbrev main_call8_cst : Ref sig .tc := ⟨.hbm, 188, rfl⟩
abbrev main_call8_v0 : Ref sig .tc := ⟨.hbm, 189, rfl⟩
abbrev main_v151 : Ref sig .tc := ⟨.hbm, 190, rfl⟩
abbrev main_cst_15 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_cst_16 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_17 : Ref sig .tc := ⟨.hbm, 201, rfl⟩
abbrev main_v160 : Ref sig .tc := ⟨.hbm, 202, rfl⟩
abbrev main_cst_18 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩

abbrev nD : Nat := 1
abbrev τ : Topo := Topo.v7x

variable {F : FTy → Type} [FloatOps F]

class Facts₀ : Prop where
  reducesTo_S8x128x128x128_S8x128x128_d1 : S8x128x128x128.ReducesTo [1] S8x128x128
  h_S_ : 0 < S_.numel
  bcast_S8x128x128_S8x1x128x128_0_2_3 : S8x128x128.BroadcastsInDim S8x1x128x128 (![0, 2, 3] : Fin 3 → Fin S8x1x128x128.rank)
  bcast_S_S8x1x128x128 : S_.BroadcastsInDim S8x1x128x128 (![] : Fin 0 → Fin S8x1x128x128.rank)
  bcast_S8x1x128x128_S8x128x128x128_0_1_2_3 : S8x1x128x128.BroadcastsInDim S8x128x128x128 (![0, 1, 2, 3] : Fin 4 → Fin S8x128x128x128.rank)
  transposes_S8x128x128x128_S8x128x128x128_0_2_3_1 : S8x128x128x128.Transposes [0, 2, 3, 1] S8x128x128x128
  shapeCasts_S10368_S81x1x128 : S10368.ShapeCasts S81x1x128
  reducesTo_S81x1x128_S81x1_d2 : S81x1x128.ReducesTo [2] S81x1
  bcast_S81x1_S81x1x1_0_1 : S81x1.BroadcastsInDim S81x1x1 (![0, 1] : Fin 2 → Fin S81x1x1.rank)
  bcast_S_S81x1x1 : S_.BroadcastsInDim S81x1x1 (![] : Fin 0 → Fin S81x1x1.rank)
  bcast_S81x1x1_S81x1x128_0_1_2 : S81x1x1.BroadcastsInDim S81x1x128 (![0, 1, 2] : Fin 3 → Fin S81x1x128.rank)
  shapeCasts_S81x1x128_S81x128 : S81x1x128.ShapeCasts S81x128
  slices_S3x3x128x128_S1x1x128x128_0_0_0_0 : S3x3x128x128.Slices ![0, 0, 0, 0] S1x1x128x128
  shapeCasts_S1x1x128x128_S128x128 : S1x1x128x128.ShapeCasts S128x128
  transposes_S128x128_S128x128_1_0 : S128x128.Transposes [1, 0] S128x128
  slices_S3x3x128_S1x1x128_0_0_0 : S3x3x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S81x128_0_1 : S1x128.BroadcastsInDim S81x128 (![0, 1] : Fin 2 → Fin S81x128.rank)
  bcast_S_S81x128 : S_.BroadcastsInDim S81x128 (![] : Fin 0 → Fin S81x128.rank)
  slices_S3x3x128x128_S1x1x128x128_0_1_0_0 : S3x3x128x128.Slices ![0, 1, 0, 0] S1x1x128x128
  slices_S3x3x128_S1x1x128_0_1_0 : S3x3x128.Slices ![0, 1, 0] S1x1x128
  slices_S3x3x128x128_S1x1x128x128_0_2_0_0 : S3x3x128x128.Slices ![0, 2, 0, 0] S1x1x128x128
  slices_S3x3x128_S1x1x128_0_2_0 : S3x3x128.Slices ![0, 2, 0] S1x1x128
  slices_S3x3x128x128_S1x1x128x128_1_0_0_0 : S3x3x128x128.Slices ![1, 0, 0, 0] S1x1x128x128
  slices_S3x3x128_S1x1x128_1_0_0 : S3x3x128.Slices ![1, 0, 0] S1x1x128
  slices_S3x3x128x128_S1x1x128x128_1_1_0_0 : S3x3x128x128.Slices ![1, 1, 0, 0] S1x1x128x128
  slices_S3x3x128_S1x1x128_1_1_0 : S3x3x128.Slices ![1, 1, 0] S1x1x128
  slices_S3x3x128x128_S1x1x128x128_1_2_0_0 : S3x3x128x128.Slices ![1, 2, 0, 0] S1x1x128x128
  slices_S3x3x128_S1x1x128_1_2_0 : S3x3x128.Slices ![1, 2, 0] S1x1x128
  slices_S3x3x128x128_S1x1x128x128_2_0_0_0 : S3x3x128x128.Slices ![2, 0, 0, 0] S1x1x128x128
  slices_S3x3x128_S1x1x128_2_0_0 : S3x3x128.Slices ![2, 0, 0] S1x1x128
  slices_S3x3x128x128_S1x1x128x128_2_1_0_0 : S3x3x128x128.Slices ![2, 1, 0, 0] S1x1x128x128
  slices_S3x3x128_S1x1x128_2_1_0 : S3x3x128.Slices ![2, 1, 0] S1x1x128
  slices_S3x3x128x128_S1x1x128x128_2_2_0_0 : S3x3x128x128.Slices ![2, 2, 0, 0] S1x1x128x128
  slices_S3x3x128_S1x1x128_2_2_0 : S3x3x128.Slices ![2, 2, 0] S1x1x128
  bcast_S81x128_S81x1x128_0_2 : S81x128.BroadcastsInDim S81x1x128 (![0, 2] : Fin 2 → Fin S81x1x128.rank)
  concatenates_S81x1x128_S81x1x128_S81x1x128_S81x3x128_d1 : Shape.Concatenates [S81x1x128, S81x1x128, S81x1x128] S81x3x128 1
  reducesTo_S81x3x128_S81x3_d2 : S81x3x128.ReducesTo [2] S81x3
  bcast_S81x3_S81x3x1_0_1 : S81x3.BroadcastsInDim S81x3x1 (![0, 1] : Fin 2 → Fin S81x3x1.rank)
  bcast_S_S81x3x1 : S_.BroadcastsInDim S81x3x1 (![] : Fin 0 → Fin S81x3x1.rank)
  bcast_S81x3x1_S81x3x128_0_1_2 : S81x3x1.BroadcastsInDim S81x3x128 (![0, 1, 2] : Fin 3 → Fin S81x3x128.rank)
  transposes_S81x1x8x128x128_S8x81x1x128x128_2_0_1_3_4 : S81x1x8x128x128.Transposes [2, 0, 1, 3, 4] S8x81x1x128x128
  bcast_S_S8x81x1x128x128 : S_.BroadcastsInDim S8x81x1x128x128 (![] : Fin 0 → Fin S8x81x1x128x128.rank)
  transposes_S81x3x8x128x128_S8x81x3x128x128_2_0_1_3_4 : S81x3x8x128x128.Transposes [2, 0, 1, 3, 4] S8x81x3x128x128
  bcast_S_S8x81x3x128x128 : S_.BroadcastsInDim S8x81x3x128x128 (![] : Fin 0 → Fin S8x81x3x128x128.rank)
  reducesTo_S8x81x3x128x128_S8x81x128x128_d2 : S8x81x3x128x128.ReducesTo [2] S8x81x128x128
  reducesTo_S8x81x1x128x128_S8x81x128x128_d2 : S8x81x1x128x128.ReducesTo [2] S8x81x128x128
  bcast_S8x81x128x128_S8x81x1x128x128_0_1_3_4 : S8x81x128x128.BroadcastsInDim S8x81x1x128x128 (![0, 1, 3, 4] : Fin 4 → Fin S8x81x1x128x128.rank)
  reducesTo_S8x81x128x128_S8x128x128_d1 : S8x81x128x128.ReducesTo [1] S8x128x128
  bcast_S8x1x128x128_S8x81x128x128_0_1_2_3 : S8x1x128x128.BroadcastsInDim S8x81x128x128 (![0, 1, 2, 3] : Fin 4 → Fin S8x81x128x128.rank)
  dot_S81x128_S128x128_S81x128_1_0_0_1_n_n_wf : DotDims.WF S81x128 S128x128 S81x128 [1] [0] [0] [1] [] []
  dot_S81x1x128_S8x128x128x128_S81x1x8x128x128_2_3_01_012_n_n_wf : DotDims.WF S81x1x128 S8x128x128x128 S81x1x8x128x128 [2] [3] [0, 1] [0, 1, 2] [] []
  dot_S81x3x128_S8x128x128x128_S81x3x8x128x128_2_3_01_012_n_n_wf : DotDims.WF S81x3x128 S8x128x128x128 S81x3x8x128x128 [2] [3] [0, 1] [0, 1, 2] [] []

variable [Facts₀]

def dot_S81x128_S128x128_S81x128_1_0_0_1_n_n : DotDims S81x128 S128x128 S81x128 where
  lhsContracting := [1]
  rhsContracting := [0]
  lhsNonContracting := [0]
  rhsNonContracting := [1]
  lhsBatch := []
  rhsBatch := []
  wf := dot_S81x128_S128x128_S81x128_1_0_0_1_n_n_wf
def dot_S81x1x128_S8x128x128x128_S81x1x8x128x128_2_3_01_012_n_n : DotDims S81x1x128 S8x128x128x128 S81x1x8x128x128 where
  lhsContracting := [2]
  rhsContracting := [3]
  lhsNonContracting := [0, 1]
  rhsNonContracting := [0, 1, 2]
  lhsBatch := []
  rhsBatch := []
  wf := dot_S81x1x128_S8x128x128x128_S81x1x8x128x128_2_3_01_012_n_n_wf
def dot_S81x3x128_S8x128x128x128_S81x3x8x128x128_2_3_01_012_n_n : DotDims S81x3x128 S8x128x128x128 S81x3x8x128x128 where
  lhsContracting := [2]
  rhsContracting := [3]
  lhsNonContracting := [0, 1]
  rhsNonContracting := [0, 1, 2]
  lhsBatch := []
  rhsBatch := []
  wf := dot_S81x3x128_S8x128x128x128_S81x3x8x128x128_2_3_01_012_n_n_wf

class Facts : Prop extends Facts₀ where

variable [Facts]
-- ==== Proof.BitsEntry.lean ====
/-
  The program up to its one grid of kernel calls. The main function is thirteen stretches of host operations — the
  class representatives normalised, the nine small dense layers with their activations, the three negative
  representatives joined and normalised, the two transposes — and then the grid. This module names what every buffer
  holds when the grid is entered (the host operations applied, in order, to the launch contents), shows that no host
  operation writes an argument array, names the block of each input array that a grid point reads, and derives the
  frame statement (the program runs to the end and leaves its five arguments unchanged) from any run of the grid
  that is stated through the pipeline's proof data.
-/
import proofs.«137945_j73349451481901_1_alg».proof.Proof.Gen.Kernel.Launch
import proofs.«137945_j73349451481901_1_alg».proof.Proof.Gen.Kernel.Skeleton
import proofs.«137945_j73349451481901_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Grid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The buffers when the grid is entered -/

/-- The thirteen stretches of host operations before the grid, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12]

/-- What core `c`'s buffers hold when the grid is entered: the host operations applied to the launch contents. -/
abbrev entry (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- The main function is the host stretches and then the grid. -/
theorem main_upto (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main (stretches (F := F)) (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The blocks the grid points read -/

/-- Window `w`'s block at grid point `t`, read off its array as the grid finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, whether the point fetched it or an
    earlier one did and the block index has not moved since. -/
theorem held0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, whether the point fetched it or an
    earlier one did and the block index has not moved since. -/
theorem held1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, whether the point fetched it or an
    earlier one did and the block index has not moved since. -/
theorem held2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The frame statement from a run of the grid -/

/-- For any proof data whose arrays are the entry contents, a run of the program to the pipeline's post — every window's
    array at what the proof data computes, every other buffer as the grid found it — leaves the five arguments at their
    launch contents: the input's array is an input window's (its contents never change), the four parameter arrays are
    no window's. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).1 0).trans (((dats 0 c).arrAt_in 0 rfl _).trans (hA c 0))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c)⟩) h

end Cert.Kernel.Grid

end
-- ==== Proof.BitsBody.lean ====
/-
  One call of the kernel body, on whole staging buffers. The body reads the input block x (one image, all 128 channels,
  16 rows), the transposed class representatives r and the three slices of the transposed negative representatives n;
  it loads each output buffer once before storing into it (the loaded values are unused) and stores: the distances block
  whole, the scores-of-distances block whole, the negative distances block as three slices along the mode axis, the best
  negative score block whole, the normalised class score block whole. Each output buffer therefore ends at the pieces
  stored into it, whatever it held before, because the pieces cover it. This module names those contents as functions of
  the three input blocks and proves the body's triple.
-/
import proofs.«137945_j73349451481901_1_alg».proof.Proof.BitsEntry

set_option maxRecDepth 16384

noncomputable section

namespace Cert.Kernel.Grid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes -/

/-- The input block, whole. -/
abbrev boxX : Rect S1x128x16x128 := Rect.unit (s := S1x128x16x128) ![0, 0, 0, 0] S1x128x16x128.size inb_S1x128x16x128_S1x128x16x128_0_0_0_0
/-- The transposed class representatives, whole. -/
abbrev boxR : Rect S128x81 := Rect.unit (s := S128x81) ![0, 0] S128x81.size inb_S128x81_S128x81_0_0
/-- Slice k of the transposed negative representatives. -/
abbrev boxN0 : Rect S3x128x81 := Rect.unit (s := S3x128x81) ![0, 0, 0] S1x128x81.size inb_S3x128x81_S1x128x81_0_0_0
abbrev boxN1 : Rect S3x128x81 := Rect.unit (s := S3x128x81) ![1, 0, 0] S1x128x81.size inb_S3x128x81_S1x128x81_1_0_0
abbrev boxN2 : Rect S3x128x81 := Rect.unit (s := S3x128x81) ![2, 0, 0] S1x128x81.size inb_S3x128x81_S1x128x81_2_0_0
/-- A [1, 81, 16, 128] output block, whole. -/
abbrev boxS : Rect S1x81x16x128 := Rect.unit (s := S1x81x16x128) ![0, 0, 0, 0] S1x81x16x128.size inb_S1x81x16x128_S1x81x16x128_0_0_0_0
/-- The distances block [1, 81, 1, 16, 128], whole. -/
abbrev boxD : Rect S1x81x1x16x128 := Rect.unit (s := S1x81x1x16x128) ![0, 0, 0, 0, 0] S1x81x1x16x128.size inb_S1x81x1x16x128_S1x81x1x16x128_0_0_0_0_0
/-- Slice k, along the mode axis, of the negative distances block [1, 81, 3, 16, 128]. -/
abbrev boxE0 : Rect S1x81x3x16x128 := Rect.unit (s := S1x81x3x16x128) ![0, 0, 0, 0, 0] S1x81x1x16x128.size inb_S1x81x3x16x128_S1x81x1x16x128_0_0_0_0_0
abbrev boxE1 : Rect S1x81x3x16x128 := Rect.unit (s := S1x81x3x16x128) ![0, 0, 1, 0, 0] S1x81x1x16x128.size inb_S1x81x3x16x128_S1x81x1x16x128_0_0_1_0_0
abbrev boxE2 : Rect S1x81x3x16x128 := Rect.unit (s := S1x81x3x16x128) ![0, 0, 2, 0, 0] S1x81x1x16x128.size inb_S1x81x3x16x128_S1x81x1x16x128_0_0_2_0_0

/-! ## What the body leaves in each output buffer -/

/-- The unit vectors of the block's pixels as a (16·128) × 128 matrix: the left factor of all four matrix products. -/
def unitRows (x : Vec F S1x128x16x128 .f32) : FVec F S2048x128 .bf16 := k0_pay3 (View.ld x boxX)

/-- The normalised class scores' block. -/
def left3 (x : Vec F S1x128x16x128 .f32) (r : Vec F S128x81 .f32) (n : Vec F S3x128x81 .f32) : Vec F S1x81x16x128 .f32 :=
  View.canon [⟨boxS, k0_pay2 (k0_pay4 (View.ld x boxX) (View.ld r boxR))
    (k0_pay18 (unitRows x) (k0_pay8 (unitRows x) (View.ld n boxN0)) (k0_pay11 (unitRows x) (View.ld n boxN1)) k0_pay12 (View.ld n boxN2))⟩]

/-- The best negative scores' block. -/
def left4 (x : Vec F S1x128x16x128 .f32) (n : Vec F S3x128x81 .f32) : Vec F S1x81x16x128 .f32 :=
  View.canon [⟨boxS, k0_pay1 (k0_pay17 (unitRows x) (k0_pay10 (unitRows x) (View.ld n boxN0)) (k0_pay11 (unitRows x) (View.ld n boxN1)) k0_pay12 (View.ld n boxN2))⟩]

/-- The distances' block. -/
def left5 (x : Vec F S1x128x16x128 .f32) (r : Vec F S128x81 .f32) : Vec F S1x81x1x16x128 .f32 :=
  View.canon [⟨boxD, k0_pay6 (View.ld x boxX) (View.ld r boxR)⟩]

/-- The negative distances' block: three slices along the mode axis, the last stored first in the list. -/
def left6 (x : Vec F S1x128x16x128 .f32) (n : Vec F S3x128x81 .f32) : Vec F S1x81x3x16x128 .f32 :=
  View.canon [⟨boxE2, k0_pay16 (unitRows x) (View.ld n boxN2)⟩,
    ⟨boxE1, k0_pay14 (k0_pay11 (unitRows x) (View.ld n boxN1)) k0_pay12⟩,
    ⟨boxE0, k0_pay9 (unitRows x) (View.ld n boxN0)⟩]

/-- The scores of the distances' block. -/
def left7 (x : Vec F S1x128x16x128 .f32) (r : Vec F S128x81 .f32) : Vec F S1x81x16x128 .f32 :=
  View.canon [⟨boxS, k0_pay7 (k0_pay5 (View.ld x boxX) (View.ld r boxR))⟩]

/-- One whole-block store covers a [1, 81, 16, 128] buffer. -/
theorem coverS (p : Vec F S1x81x16x128 .f32) (y : S1x81x16x128.Idx) :
    ∃ pc ∈ ([⟨boxS, p⟩] : List (View.Piece (Elt F) S1x81x16x128 .f32)), y ∈ pc.1.set :=
  View.cover_of_tiled [⟨boxS, p⟩] S1x81x16x128.size (by rfl) y

/-- One whole-block store covers the distances' buffer. -/
theorem coverD (p : Vec F S1x81x1x16x128 .f32) (y : S1x81x1x16x128.Idx) :
    ∃ pc ∈ ([⟨boxD, p⟩] : List (View.Piece (Elt F) S1x81x1x16x128 .f32)), y ∈ pc.1.set :=
  View.cover_of_tiled [⟨boxD, p⟩] S1x81x1x16x128.size (by rfl) y

/-- The three slices along the mode axis tile the negative distances' buffer. -/
theorem coverE (p0 p1 p2 : Vec F S1x81x1x16x128 .f32) (y : S1x81x3x16x128.Idx) :
    ∃ pc ∈ ([⟨boxE2, p2⟩, ⟨boxE1, p1⟩, ⟨boxE0, p0⟩] : List (View.Piece (Elt F) S1x81x3x16x128 .f32)), y ∈ pc.1.set :=
  View.cover_of_tiled [⟨boxE2, p2⟩, ⟨boxE1, p1⟩, ⟨boxE0, p0⟩] S1x81x1x16x128.size (by rfl) y

/-! ## The body's triple -/

set_option maxHeartbeats 4000000 in
/-- The body on whole staging buffers — the three inputs' at contents x, r, n, the five outputs' at anything — runs to
    the continuation with the inputs' as they were and each output's at the pieces stored into it. -/
theorem body_runs (c : Dev nD) (E : Set ℕ) (i : grid0.Coords)
    (a2 : Memref sig .tc .vmem S1x128x16x128 .f32) (h2 : a2.IsWhole) (a3 : Memref sig .tc .vmem S128x81 .f32) (h3 : a3.IsWhole)
    (a4 : Memref sig .tc .vmem S3x128x81 .f32) (h4 : a4.IsWhole) (a5 : Memref sig .tc .vmem S1x81x16x128 .f32) (h5 : a5.IsWhole)
    (a6 : Memref sig .tc .vmem S1x81x16x128 .f32) (h6 : a6.IsWhole) (a7 : Memref sig .tc .vmem S1x81x1x16x128 .f32) (h7 : a7.IsWhole)
    (a8 : Memref sig .tc .vmem S1x81x3x16x128 .f32) (h8 : a8.IsWhole) (a9 : Memref sig .tc .vmem S1x81x16x128 .f32) (h9 : a9.IsWhole)
    (x : Vec F S1x128x16x128 .f32) (r : Vec F S128x81 .f32) (n : Vec F S3x128x81 .f32) (K : PUnit → sProp 𝕄) :
    iprop(owns (c : Thread nD τ) a2 fullShare x ∗ owns (c : Thread nD τ) a3 fullShare r ∗ owns (c : Thread nD τ) a4 fullShare n
        ∗ (∃ d, owns (c : Thread nD τ) a5 fullShare d) ∗ (∃ d, owns (c : Thread nD τ) a6 fullShare d)
        ∗ (∃ d, owns (c : Thread nD τ) a7 fullShare d) ∗ (∃ d, owns (c : Thread nD τ) a8 fullShare d)
        ∗ (∃ d, owns (c : Thread nD τ) a9 fullShare d)
        ∗ (iprop(owns (c : Thread nD τ) a2 fullShare x ∗ owns (c : Thread nD τ) a3 fullShare r ∗ owns (c : Thread nD τ) a4 fullShare n
            ∗ owns (c : Thread nD τ) a5 fullShare (left3 x r n) ∗ owns (c : Thread nD τ) a6 fullShare (left4 x n)
            ∗ owns (c : Thread nD τ) a7 fullShare (left5 x r) ∗ owns (c : Thread nD τ) a8 fullShare (left6 x n)
            ∗ owns (c : Thread nD τ) a9 fullShare (left7 x r)) -∗ K ⟨⟩))
      ⊢ wp frame (wpE (defs₀ (F := F)) Variants.none c none) E (cc0__dml_kernel i a2 h2 a3 h3 a4 h4 a5 h5 a6 h6 a7 h7 a8 h8 a9 h9) K := by
  simp only [cc0__dml_kernel_eq_skeleton]; unfold cc0__dml_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS _)
  isplitl [H6]
  · iexists _; isplitr
    swap; · iexact H6
    ipureintro
    exact View.read_writes_eq_canon _ _ _ (coverS _)
  isplitl [H7]
  · iexists _; isplitr
    swap; · iexact H7
    ipureintro
    exact View.read_writes_eq_canon _ _ _ (coverD _)
  isplitl [H8]
  · iexists _; isplitr
    swap; · iexact H8
    ipureintro
    exact View.read_writes_eq_canon _ _ _ (coverE _ _ _)
  iexists _; isplitr
  swap; · iexact H9
  ipureintro
  exact View.read_writes_eq_canon _ _ _ (coverS _)

end Cert.Kernel.Grid

end
-- ==== Proof.BitsRun.lean ====
/-
  The whole grid. At every grid point each input window's buffer holds its block of the array the grid found, and the
  body leaves in each output window's buffer the pieces it stored, computed from those blocks; nothing is carried from
  one point to the next. With that as the pipeline's proof data the body's triple is the obligation at every point, the
  pipeline runs the 64 points, and the program runs to the end with its arguments unchanged.
-/
import proofs.«137945_j73349451481901_1_alg».proof.Proof.BitsBody

set_option maxRecDepth 16384

noncomputable section

namespace Cert.Kernel.Grid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the grid finds them; after the body at point `t` each input's buffer at its block and each
    output's at the pieces stored from the three input blocks; the scoped rest and the generator register untouched;
    nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => left3 (blockAt m c 0 t) (blockAt m c 1 t) (blockAt m c 2 t)
    | ⟨4, _⟩ => left4 (blockAt m c 0 t) (blockAt m c 2 t)
    | ⟨5, _⟩ => left5 (blockAt m c 0 t) (blockAt m c 1 t)
    | ⟨6, _⟩ => left6 (blockAt m c 0 t) (blockAt m c 2 t)
    | ⟨7, _⟩ => left7 (blockAt m c 0 t) (blockAt m c 1 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = left3 (blockAt m c 0 t) (blockAt m c 1 t) (blockAt m c 2 t) := by dsimp only [dats]
theorem after4 (c : Dev nD) (t : Fin cfg0.N) : (dats m 0 c).after 4 t = left4 (blockAt m c 0 t) (blockAt m c 2 t) := by dsimp only [dats]
theorem after5 (c : Dev nD) (t : Fin cfg0.N) : (dats m 0 c).after 5 t = left5 (blockAt m c 0 t) (blockAt m c 1 t) := by dsimp only [dats]
theorem after6 (c : Dev nD) (t : Fin cfg0.N) : (dats m 0 c).after 6 t = left6 (blockAt m c 0 t) (blockAt m c 2 t) := by dsimp only [dats]
theorem after7 (c : Dev nD) (t : Fin cfg0.N) : (dats m 0 c).after 7 t = left7 (blockAt m c 0 t) (blockAt m c 1 t) := by dsimp only [dats]

theorem held0 (c : Dev nD) (t : Fin cfg0.N) (d) : (dats m 0 c).before 0 t d = blockAt m c 0 t :=
  held0_of m (dats m 0 c) (arrays_eq m c 0) (after0 m c) t d
theorem held1 (c : Dev nD) (t : Fin cfg0.N) (d) : (dats m 0 c).before 1 t d = blockAt m c 1 t :=
  held1_of m (dats m 0 c) (arrays_eq m c 1) (after1 m c) t d
theorem held2 (c : Dev nD) (t : Fin cfg0.N) (d) : (dats m 0 c).before 2 t d = blockAt m c 2 t :=
  held2_of m (dats m 0 c) (arrays_eq m c 2) (after2 m c) t d

/-! ## The obligation at a grid point -/

/-- What the body is called with at point `t`: the invariant, what is owed, and the eight windows' current buffers. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what is
    owed pass through unread. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [held0, held1, held2]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ _ _ _ _ _ _ _ _ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem obligation (c : Dev nD) : BodyObligation (dats (F := F) m 0 c) (defs₀ (F := F)) Variants.none () Set.univ := fun t => by
  rw [bigSep_W0, bigSep_W0]
  exact point_runs m c t

/-! ## The run and the frame -/

set_option backward.isDefEq.respectTransparency.types false in
/-- From any memory with zero counters every weakly fair execution of the program terminates, and in every final state every
    window's array holds what the proof data computes and every other unscoped buffer what the grid found. -/
theorem grid_run : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (obligation m c).loose) (hshare := fun c => (dats m 0 c).share_full fun _ => rfl)
    (howed := fun _ _ => rfl) (V := entry m) (hmain := main_upto m Variants.none) (hA := arrays_eq m) (hΦ := fun _ _ => rfl)

/-- The frame: the program runs to the end and its five arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (arrays_eq m) (grid_run m ρ)

end Cert.Kernel.Grid

end
-- ==== Proof.IdealEntry.lean ====
/-
  The program up to its one grid of kernel calls. The main function is thirteen stretches of host operations — the
  class representatives normalised, the nine small dense layers with their activations, the three negative
  representatives joined and normalised, the two transposes — and then the grid. This module names what every buffer
  holds when the grid is entered (the host operations applied, in order, to the launch contents), shows that no host
  operation writes an argument array, names the block of each input array that a grid point reads, and derives the
  frame statement (the program runs to the end and leaves its five arguments unchanged) from any run of the grid
  that is stated through the pipeline's proof data.
-/
import proofs.«137945_j73349451481901_1_alg».proof.Proof.Gen.KernelIdeal.Launch
import proofs.«137945_j73349451481901_1_alg».proof.Proof.Gen.KernelIdeal.Skeleton
import proofs.«137945_j73349451481901_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Grid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The buffers when the grid is entered -/

/-- The thirteen stretches of host operations before the grid, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12]

/-- What core `c`'s buffers hold when the grid is entered: the host operations applied to the launch contents. -/
abbrev entry (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- The main function is the host stretches and then the grid. -/
theorem main_upto (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main (stretches (F := F)) (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The blocks the grid points read -/

/-- Window `w`'s block at grid point `t`, read off its array as the grid finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, whether the point fetched it or an
    earlier one did and the block index has not moved since. -/
theorem held0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, whether the point fetched it or an
    earlier one did and the block index has not moved since. -/
theorem held1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, whether the point fetched it or an
    earlier one did and the block index has not moved since. -/
theorem held2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The frame statement from a run of the grid -/

/-- For any proof data whose arrays are the entry contents, a run of the program to the pipeline's post — every window's
    array at what the proof data computes, every other buffer as the grid found it — leaves the five arguments at their
    launch contents: the input's array is an input window's (its contents never change), the four parameter arrays are
    no window's. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).1 0).trans (((dats 0 c).arrAt_in 0 rfl _).trans (hA c 0))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c)⟩) h

end Cert.KernelIdeal.Grid

end
-- ==== Proof.IdealBody.lean ====
/-
  One call of the kernel body, on whole staging buffers. The body reads the input block x (one image, all 128 channels,
  16 rows), the transposed class representatives r and the three slices of the transposed negative representatives n;
  it loads each output buffer once before storing into it (the loaded values are unused) and stores: the distances block
  whole, the scores-of-distances block whole, the negative distances block as three slices along the mode axis, the best
  negative score block whole, the normalised class score block whole. Each output buffer therefore ends at the pieces
  stored into it, whatever it held before, because the pieces cover it. This module names those contents as functions of
  the three input blocks and proves the body's triple.
-/
import proofs.«137945_j73349451481901_1_alg».proof.Proof.IdealEntry

set_option maxRecDepth 16384

noncomputable section

namespace Cert.KernelIdeal.Grid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes -/

/-- The input block, whole. -/
abbrev boxX : Rect S1x128x16x128 := Rect.unit (s := S1x128x16x128) ![0, 0, 0, 0] S1x128x16x128.size inb_S1x128x16x128_S1x128x16x128_0_0_0_0
/-- The transposed class representatives, whole. -/
abbrev boxR : Rect S128x81 := Rect.unit (s := S128x81) ![0, 0] S128x81.size inb_S128x81_S128x81_0_0
/-- Slice k of the transposed negative representatives. -/
abbrev boxN0 : Rect S3x128x81 := Rect.unit (s := S3x128x81) ![0, 0, 0] S1x128x81.size inb_S3x128x81_S1x128x81_0_0_0
abbrev boxN1 : Rect S3x128x81 := Rect.unit (s := S3x128x81) ![1, 0, 0] S1x128x81.size inb_S3x128x81_S1x128x81_1_0_0
abbrev boxN2 : Rect S3x128x81 := Rect.unit (s := S3x128x81) ![2, 0, 0] S1x128x81.size inb_S3x128x81_S1x128x81_2_0_0
/-- A [1, 81, 16, 128] output block, whole. -/
abbrev boxS : Rect S1x81x16x128 := Rect.unit (s := S1x81x16x128) ![0, 0, 0, 0] S1x81x16x128.size inb_S1x81x16x128_S1x81x16x128_0_0_0_0
/-- The distances block [1, 81, 1, 16, 128], whole. -/
abbrev boxD : Rect S1x81x1x16x128 := Rect.unit (s := S1x81x1x16x128) ![0, 0, 0, 0, 0] S1x81x1x16x128.size inb_S1x81x1x16x128_S1x81x1x16x128_0_0_0_0_0
/-- Slice k, along the mode axis, of the negative distances block [1, 81, 3, 16, 128]. -/
abbrev boxE0 : Rect S1x81x3x16x128 := Rect.unit (s := S1x81x3x16x128) ![0, 0, 0, 0, 0] S1x81x1x16x128.size inb_S1x81x3x16x128_S1x81x1x16x128_0_0_0_0_0
abbrev boxE1 : Rect S1x81x3x16x128 := Rect.unit (s := S1x81x3x16x128) ![0, 0, 1, 0, 0] S1x81x1x16x128.size inb_S1x81x3x16x128_S1x81x1x16x128_0_0_1_0_0
abbrev boxE2 : Rect S1x81x3x16x128 := Rect.unit (s := S1x81x3x16x128) ![0, 0, 2, 0, 0] S1x81x1x16x128.size inb_S1x81x3x16x128_S1x81x1x16x128_0_0_2_0_0

/-! ## What the body leaves in each output buffer -/

/-- The unit vectors of the block's pixels as a (16·128) × 128 matrix: the left factor of all four matrix products. -/
def unitRows (x : Vec F S1x128x16x128 .f32) : FVec F S2048x128 .bf16 := k0_pay3 (View.ld x boxX)

/-- The normalised class scores' block. -/
def left3 (x : Vec F S1x128x16x128 .f32) (r : Vec F S128x81 .f32) (n : Vec F S3x128x81 .f32) : Vec F S1x81x16x128 .f32 :=
  View.canon [⟨boxS, k0_pay2 (k0_pay4 (View.ld x boxX) (View.ld r boxR))
    (k0_pay18 (unitRows x) (k0_pay8 (unitRows x) (View.ld n boxN0)) (k0_pay11 (unitRows x) (View.ld n boxN1)) k0_pay12 (View.ld n boxN2))⟩]

/-- The best negative scores' block. -/
def left4 (x : Vec F S1x128x16x128 .f32) (n : Vec F S3x128x81 .f32) : Vec F S1x81x16x128 .f32 :=
  View.canon [⟨boxS, k0_pay1 (k0_pay17 (unitRows x) (k0_pay10 (unitRows x) (View.ld n boxN0)) (k0_pay11 (unitRows x) (View.ld n boxN1)) k0_pay12 (View.ld n boxN2))⟩]

/-- The distances' block. -/
def left5 (x : Vec F S1x128x16x128 .f32) (r : Vec F S128x81 .f32) : Vec F S1x81x1x16x128 .f32 :=
  View.canon [⟨boxD, k0_pay6 (View.ld x boxX) (View.ld r boxR)⟩]

/-- The negative distances' block: three slices along the mode axis, the last stored first in the list. -/
def left6 (x : Vec F S1x128x16x128 .f32) (n : Vec F S3x128x81 .f32) : Vec F S1x81x3x16x128 .f32 :=
  View.canon [⟨boxE2, k0_pay16 (unitRows x) (View.ld n boxN2)⟩,
    ⟨boxE1, k0_pay14 (k0_pay11 (unitRows x) (View.ld n boxN1)) k0_pay12⟩,
    ⟨boxE0, k0_pay9 (unitRows x) (View.ld n boxN0)⟩]

/-- The scores of the distances' block. -/
def left7 (x : Vec F S1x128x16x128 .f32) (r : Vec F S128x81 .f32) : Vec F S1x81x16x128 .f32 :=
  View.canon [⟨boxS, k0_pay7 (k0_pay5 (View.ld x boxX) (View.ld r boxR))⟩]

/-- One whole-block store covers a [1, 81, 16, 128] buffer. -/
theorem coverS (p : Vec F S1x81x16x128 .f32) (y : S1x81x16x128.Idx) :
    ∃ pc ∈ ([⟨boxS, p⟩] : List (View.Piece (Elt F) S1x81x16x128 .f32)), y ∈ pc.1.set :=
  View.cover_of_tiled [⟨boxS, p⟩] S1x81x16x128.size (by rfl) y

/-- One whole-block store covers the distances' buffer. -/
theorem coverD (p : Vec F S1x81x1x16x128 .f32) (y : S1x81x1x16x128.Idx) :
    ∃ pc ∈ ([⟨boxD, p⟩] : List (View.Piece (Elt F) S1x81x1x16x128 .f32)), y ∈ pc.1.set :=
  View.cover_of_tiled [⟨boxD, p⟩] S1x81x1x16x128.size (by rfl) y

/-- The three slices along the mode axis tile the negative distances' buffer. -/
theorem coverE (p0 p1 p2 : Vec F S1x81x1x16x128 .f32) (y : S1x81x3x16x128.Idx) :
    ∃ pc ∈ ([⟨boxE2, p2⟩, ⟨boxE1, p1⟩, ⟨boxE0, p0⟩] : List (View.Piece (Elt F) S1x81x3x16x128 .f32)), y ∈ pc.1.set :=
  View.cover_of_tiled [⟨boxE2, p2⟩, ⟨boxE1, p1⟩, ⟨boxE0, p0⟩] S1x81x1x16x128.size (by rfl) y

/-! ## The body's triple -/

set_option maxHeartbeats 4000000 in
/-- The body on whole staging buffers — the three inputs' at contents x, r, n, the five outputs' at anything — runs to
    the continuation with the inputs' as they were and each output's at the pieces stored into it. -/
theorem body_runs (c : Dev nD) (E : Set ℕ) (i : grid0.Coords)
    (a2 : Memref sig .tc .vmem S1x128x16x128 .f32) (h2 : a2.IsWhole) (a3 : Memref sig .tc .vmem S128x81 .f32) (h3 : a3.IsWhole)
    (a4 : Memref sig .tc .vmem S3x128x81 .f32) (h4 : a4.IsWhole) (a5 : Memref sig .tc .vmem S1x81x16x128 .f32) (h5 : a5.IsWhole)
    (a6 : Memref sig .tc .vmem S1x81x16x128 .f32) (h6 : a6.IsWhole) (a7 : Memref sig .tc .vmem S1x81x1x16x128 .f32) (h7 : a7.IsWhole)
    (a8 : Memref sig .tc .vmem S1x81x3x16x128 .f32) (h8 : a8.IsWhole) (a9 : Memref sig .tc .vmem S1x81x16x128 .f32) (h9 : a9.IsWhole)
    (x : Vec F S1x128x16x128 .f32) (r : Vec F S128x81 .f32) (n : Vec F S3x128x81 .f32) (K : PUnit → sProp 𝕄) :
    iprop(owns (c : Thread nD τ) a2 fullShare x ∗ owns (c : Thread nD τ) a3 fullShare r ∗ owns (c : Thread nD τ) a4 fullShare n
        ∗ (∃ d, owns (c : Thread nD τ) a5 fullShare d) ∗ (∃ d, owns (c : Thread nD τ) a6 fullShare d)
        ∗ (∃ d, owns (c : Thread nD τ) a7 fullShare d) ∗ (∃ d, owns (c : Thread nD τ) a8 fullShare d)
        ∗ (∃ d, owns (c : Thread nD τ) a9 fullShare d)
        ∗ (iprop(owns (c : Thread nD τ) a2 fullShare x ∗ owns (c : Thread nD τ) a3 fullShare r ∗ owns (c : Thread nD τ) a4 fullShare n
            ∗ owns (c : Thread nD τ) a5 fullShare (left3 x r n) ∗ owns (c : Thread nD τ) a6 fullShare (left4 x n)
            ∗ owns (c : Thread nD τ) a7 fullShare (left5 x r) ∗ owns (c : Thread nD τ) a8 fullShare (left6 x n)
            ∗ owns (c : Thread nD τ) a9 fullShare (left7 x r)) -∗ K ⟨⟩))
      ⊢ wp frame (wpE (defs₀ (F := F)) Variants.none c none) E (cc0__dml_kernel i a2 h2 a3 h3 a4 h4 a5 h5 a6 h6 a7 h7 a8 h8 a9 h9) K := by
  simp only [cc0__dml_kernel_eq_skeleton]; unfold cc0__dml_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS _)
  isplitl [H6]
  · iexists _; isplitr
    swap; · iexact H6
    ipureintro
    exact View.read_writes_eq_canon _ _ _ (coverS _)
  isplitl [H7]
  · iexists _; isplitr
    swap; · iexact H7
    ipureintro
    exact View.read_writes_eq_canon _ _ _ (coverD _)
  isplitl [H8]
  · iexists _; isplitr
    swap; · iexact H8
    ipureintro
    exact View.read_writes_eq_canon _ _ _ (coverE _ _ _)
  iexists _; isplitr
  swap; · iexact H9
  ipureintro
  exact View.read_writes_eq_canon _ _ _ (coverS _)

end Cert.KernelIdeal.Grid

end
-- ==== Proof.IdealRun.lean ====
/-
  The whole grid. At every grid point each input window's buffer holds its block of the array the grid found, and the
  body leaves in each output window's buffer the pieces it stored, computed from those blocks; nothing is carried from
  one point to the next. With that as the pipeline's proof data the body's triple is the obligation at every point, the
  pipeline runs the 64 points, and the program runs to the end with its arguments unchanged.
-/
import proofs.«137945_j73349451481901_1_alg».proof.Proof.IdealBody

set_option maxRecDepth 16384

noncomputable section

namespace Cert.KernelIdeal.Grid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the grid finds them; after the body at point `t` each input's buffer at its block and each
    output's at the pieces stored from the three input blocks; the scoped rest and the generator register untouched;
    nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => left3 (blockAt m c 0 t) (blockAt m c 1 t) (blockAt m c 2 t)
    | ⟨4, _⟩ => left4 (blockAt m c 0 t) (blockAt m c 2 t)
    | ⟨5, _⟩ => left5 (blockAt m c 0 t) (blockAt m c 1 t)
    | ⟨6, _⟩ => left6 (blockAt m c 0 t) (blockAt m c 2 t)
    | ⟨7, _⟩ => left7 (blockAt m c 0 t) (blockAt m c 1 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = left3 (blockAt m c 0 t) (blockAt m c 1 t) (blockAt m c 2 t) := by dsimp only [dats]
theorem after4 (c : Dev nD) (t : Fin cfg0.N) : (dats m 0 c).after 4 t = left4 (blockAt m c 0 t) (blockAt m c 2 t) := by dsimp only [dats]
theorem after5 (c : Dev nD) (t : Fin cfg0.N) : (dats m 0 c).after 5 t = left5 (blockAt m c 0 t) (blockAt m c 1 t) := by dsimp only [dats]
theorem after6 (c : Dev nD) (t : Fin cfg0.N) : (dats m 0 c).after 6 t = left6 (blockAt m c 0 t) (blockAt m c 2 t) := by dsimp only [dats]
theorem after7 (c : Dev nD) (t : Fin cfg0.N) : (dats m 0 c).after 7 t = left7 (blockAt m c 0 t) (blockAt m c 1 t) := by dsimp only [dats]

theorem held0 (c : Dev nD) (t : Fin cfg0.N) (d) : (dats m 0 c).before 0 t d = blockAt m c 0 t :=
  held0_of m (dats m 0 c) (arrays_eq m c 0) (after0 m c) t d
theorem held1 (c : Dev nD) (t : Fin cfg0.N) (d) : (dats m 0 c).before 1 t d = blockAt m c 1 t :=
  held1_of m (dats m 0 c) (arrays_eq m c 1) (after1 m c) t d
theorem held2 (c : Dev nD) (t : Fin cfg0.N) (d) : (dats m 0 c).before 2 t d = blockAt m c 2 t :=
  held2_of m (dats m 0 c) (arrays_eq m c 2) (after2 m c) t d

/-! ## The obligation at a grid point -/

/-- What the body is called with at point `t`: the invariant, what is owed, and the eight windows' current buffers. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what is
    owed pass through unread. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [held0, held1, held2]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ _ _ _ _ _ _ _ _ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem obligation (c : Dev nD) : BodyObligation (dats (F := F) m 0 c) (defs₀ (F := F)) Variants.none () Set.univ := fun t => by
  rw [bigSep_W0, bigSep_W0]
  exact point_runs m c t

/-! ## The run and the frame -/

set_option backward.isDefEq.respectTransparency.types false in
/-- From any memory with zero counters every weakly fair execution of the program terminates, and in every final state every
    window's array holds what the proof data computes and every other unscoped buffer what the grid found. -/
theorem grid_run : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (obligation m c).loose) (hshare := fun c => (dats m 0 c).share_full fun _ => rfl)
    (howed := fun _ _ => rfl) (V := entry m) (hmain := main_upto m Variants.none) (hA := arrays_eq m) (hΦ := fun _ _ => rfl)

/-- The frame: the program runs to the end and its five arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (arrays_eq m) (grid_run m ρ)

end Cert.KernelIdeal.Grid

end
-- ==== Proof.Weights.lean ====
/-
  The two weight arrays the grid reads. Before the grid the kernel's main function normalises the class
  representatives, runs the nine small dense layers, joins and normalises the negative representatives, and transposes
  both: the transposed class representatives [128, 81] and the transposed negative representatives [3, 128, 81]. The
  reference computes the same normalised arrays by the same operations in the same order before it uses them, so what
  the grid finds is the transpose of the reference's own stage — stated here with the reference's stage functions applied
  to the kernel's parameter arrays — and, read at an index, one entry of that stage.
-/
import proofs.«137945_j73349451481901_1_alg».proof.Proof.IdealEntry
import proofs.«137945_j73349451481901_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Grid

variable (m : (ℓ : Loc nD τ sig) → Buf (Elt Ideal) ℓ)

/-- The normalised class representatives [81, 1, 128], as the reference computes them, of the kernel's parameters. -/
def reps (c : Dev nD) : (⟨3, ![81, 1, 128]⟩ : Shape).Idx → EReal :=
  Cert.ReferenceIdeal.Read.val_main_v18 (F := Ideal) (m ((c : Thread nD τ).loc main_arg1)) (m ((c : Thread nD τ).loc main_arg2))

/-- The normalised negative representatives [81, 3, 128], as the reference computes them, of the kernel's parameters. -/
def negs (c : Dev nD) : (⟨3, ![81, 3, 128]⟩ : Shape).Idx → EReal :=
  Cert.ReferenceIdeal.Read.val_main_v118 (F := Ideal) (m ((c : Thread nD τ).loc main_arg1)) (m ((c : Thread nD τ).loc main_arg2))
    (m ((c : Thread nD τ).loc main_arg3)) (m ((c : Thread nD τ).loc main_arg4))

set_option maxHeartbeats 4000000 in
/-- The grid finds the class representatives' array at the transpose of the normalised representatives. -/
theorem reps_entry (c : Dev nD) :
    (entry m c main_v111 : S128x81.Idx → EReal)
      = transpose S128x81 [1, 0] (shapeCast S81x128 (reps m c) shapeCasts_S81x1x128_S81x128) transposes_S81x128_S128x81_1_0 := by
  dsimp only [entry, stretches]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp
  rfl

set_option maxHeartbeats 4000000 in
/-- The grid finds the negative representatives' array at the normalised negative representatives with the class axis last. -/
theorem negs_entry (c : Dev nD) :
    (entry m c main_v112 : S3x128x81.Idx → EReal)
      = transpose S3x128x81 [1, 2, 0] (negs m c) transposes_S81x3x128_S3x128x81_1_2_0 := by
  dsimp only [entry, stretches]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp
  rfl

/-- Entry (channel, class) of the transposed class representatives is entry (class, 0, channel) of the normalised ones. -/
theorem reps_at (c : Dev nD) (ch : Fin 128) (o : Fin 81) :
    (entry m c main_v111 : S128x81.Idx → EReal) (ix2 ch o) = reps m c (ix3 o 0 ch) := by
  rw [reps_entry]
  refine (transpose_apply [1, 0] _ transposes_S81x128_S128x81_1_0 (ix2 ch o) (ix2 o ch)
    (fun b => by match b with | ⟨0, _⟩ => rfl | ⟨1, _⟩ => rfl)).trans ?_
  exact shapeCast_apply _ shapeCasts_S81x1x128_S81x128 (ix2 o ch) (ix3 o 0 ch) (by
    rw [Shape.rowMajor_val_three, Shape.rowMajor_val_two]
    show (o.val * 1 + 0) * 128 + ch.val = o.val * 128 + ch.val
    omega)

/-- Entry (mode, channel, class) of the transposed negative representatives is entry (class, mode, channel) of the
    normalised ones. -/
theorem negs_at (c : Dev nD) (k : Fin 3) (ch : Fin 128) (o : Fin 81) :
    (entry m c main_v112 : S3x128x81.Idx → EReal) (ix3 k ch o) = negs m c (ix3 o k ch) := by
  rw [negs_entry]
  exact transpose_apply [1, 2, 0] _ transposes_S81x3x128_S3x128x81_1_2_0 (ix3 k ch o) (ix3 o k ch)
    (fun b => by match b with | ⟨0, _⟩ => rfl | ⟨1, _⟩ => rfl | ⟨2, _⟩ => rfl)

end Cert.KernelIdeal.Bridge

end
-- ==== Proof.Spec.lean ====
/-
  The five results as functions of the three arrays they depend on, index by index, on the extended reals.

  A pixel (n, h, w) of the input carries a channel vector x[n, ·, h, w] of length 128. It is divided by its Euclidean
  length, floored at a small constant, giving a unit vector u. For a weight vector W of length 128 the distance of the
  pixel to W is  sqrt (max (2 - 2·⟨u, W⟩) 0)  — the Euclidean distance of two unit vectors. The weight vectors are the
  81 normalised class representatives R[o, 0, ·] and, per class, 3 normalised negative representatives N[o, k, ·];
  both are computed from the parameter arrays by the same host operations in the kernel and in the reference, and enter
  here as given arrays.

  From the distances: the Gaussian score  g d = exp (-(d·d)·2);  the best negative score  max over k of g (dNeg k);  the
  combined distance  dMain + β·max (2 - min over k of dNeg k) 0  and its score, normalised over the 81 classes.
-/
import Idealize.ShloMosaic.PureOps.Ideal
import Idealize.ShloMosaic.PureOps.Ideal.Laws
import Idealize.ShloMosaic.Lib.ValueIdx

noncomputable section

namespace Cert.DmlSpec

open Idealize.ShloMosaic Idealize.ShloMosaic.ValueIdx

/-- The input, [8, 128, 128, 128] = (image, channel, row, column). -/
abbrev XArr := (⟨4, ![8, 128, 128, 128]⟩ : Shape).Idx → EReal
/-- The normalised class representatives, [81, 1, 128] = (class, mode, channel). -/
abbrev RArr := (⟨3, ![81, 1, 128]⟩ : Shape).Idx → EReal
/-- The normalised negative representatives, [81, 3, 128] = (class, negative mode, channel). -/
abbrev NArr := (⟨3, ![81, 3, 128]⟩ : Shape).Idx → EReal

/-- The floor of a length: the single-precision word nearest 1e-12. -/
def eps : EReal := Ideal.ofBits .f32 0x2B8CBCCC#32
/-- The word of 2.0. -/
def two : EReal := Ideal.ofBits .f32 0x40000000#32
/-- The word nearest 0.3, the weight of the negative term. -/
def beta : EReal := Ideal.ofBits .f32 0x3E99999A#32

/-! ## One pixel: a channel vector v against weight vectors -/

/-- The floored Euclidean length of a channel vector. -/
def len (v : Fin 128 → EReal) : EReal :=
  max (Ideal.sqrt (∑ c : Fin 128, v c * v c)) eps

/-- Channel c of the vector divided by its floored length. -/
def unit (v : Fin 128 → EReal) (c : Fin 128) : EReal := Ideal.div (v c) (len v)

/-- The inner product of the unit vector with a weight vector. -/
def inner (v W : Fin 128 → EReal) : EReal := ∑ c : Fin 128, unit v c * W c

/-- The distance read off an inner product of unit vectors. -/
def ofInner (d : EReal) : EReal := Ideal.sqrt (max (two - two * d) 0)

/-- The vector's distance to a weight vector. -/
def dist (v W : Fin 128 → EReal) : EReal := ofInner (inner v W)

/-- The Gaussian score of a distance. -/
def gauss (d : EReal) : EReal := Ideal.exp (-(d * d) * two)

/-- The nearest of three distances. -/
def min3 (d0 d1 d2 : EReal) : EReal := min (min d0 d1) d2

/-- The best of three distances' scores. -/
def maxScore3 (d0 d1 d2 : EReal) : EReal := max (max (gauss d0) (gauss d1)) (gauss d2)

/-- The score of the combined distance: the distance to the representative pushed out by how near the nearest
    negative representative is. -/
def combined (d dmin : EReal) : EReal := gauss (d + beta * max (two - dmin) 0)

/-! ## The arrays -/

/-- Pixel (n, h, w)'s channel vector. -/
def pix (X : XArr) (n : Fin 8) (h w : Fin 128) : Fin 128 → EReal := fun c => X (ix4 n c h w)

/-- Distance of pixel (n, h, w) to class o's representative. -/
def dMain (X : XArr) (R : RArr) (n : Fin 8) (o : Fin 81) (h w : Fin 128) : EReal :=
  dist (pix X n h w) (fun c => R (ix3 o 0 c))

/-- Distance of pixel (n, h, w) to class o's k-th negative representative. -/
def dNeg (X : XArr) (N : NArr) (n : Fin 8) (o : Fin 81) (k : Fin 3) (h w : Fin 128) : EReal :=
  dist (pix X n h w) (fun c => N (ix3 o k c))

/-- The nearest negative representative's distance. -/
def minNeg (X : XArr) (N : NArr) (n : Fin 8) (o : Fin 81) (h w : Fin 128) : EReal :=
  min3 (dNeg X N n o 0 h w) (dNeg X N n o 1 h w) (dNeg X N n o 2 h w)

/-- The best negative score. -/
def maxNegScore (X : XArr) (N : NArr) (n : Fin 8) (o : Fin 81) (h w : Fin 128) : EReal :=
  maxScore3 (dNeg X N n o 0 h w) (dNeg X N n o 1 h w) (dNeg X N n o 2 h w)

/-- The score of the combined distance, before normalisation over the classes. -/
def prob (X : XArr) (R : RArr) (N : NArr) (n : Fin 8) (o : Fin 81) (h w : Fin 128) : EReal :=
  combined (dMain X R n o h w) (minNeg X N n o h w)

/-! ## The five results -/

/-- Result 0, [8, 81, 128, 128]: the class scores, normalised over the 81 classes. -/
def clsScore (X : XArr) (R : RArr) (N : NArr) (i : (⟨4, ![8, 81, 128, 128]⟩ : Shape).Idx) : EReal :=
  Ideal.div (prob X R N (i 0) (i 1) (i 2) (i 3)) (∑ o : Fin 81, prob X R N (i 0) o (i 2) (i 3))

/-- Result 1, [8, 81, 128, 128]: the best negative score. -/
def clsScoreNeg (X : XArr) (N : NArr) (i : (⟨4, ![8, 81, 128, 128]⟩ : Shape).Idx) : EReal :=
  maxNegScore X N (i 0) (i 1) (i 2) (i 3)

/-- Result 2, [8, 81, 1, 128, 128]: the distances to the class representatives. -/
def distances (X : XArr) (R : RArr) (i : (⟨5, ![8, 81, 1, 128, 128]⟩ : Shape).Idx) : EReal :=
  dMain X R (i 0) (i 1) (i 3) (i 4)

/-- Result 3, [8, 81, 3, 128, 128]: the distances to the negative representatives. -/
def distancesNeg (X : XArr) (N : NArr) (i : (⟨5, ![8, 81, 3, 128, 128]⟩ : Shape).Idx) : EReal :=
  dNeg X N (i 0) (i 1) (i 2) (i 3) (i 4)

/-- Result 4, [8, 81, 128, 128]: the scores of the distances to the class representatives. -/
def probsOri (X : XArr) (R : RArr) (i : (⟨4, ![8, 81, 128, 128]⟩ : Shape).Idx) : EReal :=
  gauss (dMain X R (i 0) (i 1) (i 2) (i 3))

end Cert.DmlSpec

end
-- ==== Proof.PayDist.lean ====
/-
  The kernel body's values read at an index, on the extended reals.

  One grid step holds a 16-row block of one image, x0 (0, channel, row, column), the transposed class representatives
  r (channel, class) and one slice n (0, channel, class) per negative representative. The body divides each pixel's
  channel vector by its floored Euclidean length, lays the block out as a (16·128) × 128 matrix (row h·128 + w, column
  the channel), multiplies it by a 128 × 81 weight matrix, lays the product out as (class, row, column) and takes
  sqrt (max (2 − 2·⟨u, W⟩) 0). Read at (class o, row h, column w) that is the specification's distance of the pixel
  (h, w) to column o of the weight matrix.
-/
import proofs.«137945_j73349451481901_1_alg».proof.Proof.Gen.KernelIdeal.Skeleton
import proofs.«137945_j73349451481901_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.DmlSpec

/-- The channel vector of pixel (h, w) of the block. -/
def pixB (x0 : Vec Ideal S1x128x16x128 .f32) (h : Fin 16) (w : Fin 128) : Fin 128 → EReal := fun c => x0 (ix4 0 c h w)
/-- Column o of the transposed class representatives. -/
def colR (r : Vec Ideal S128x81 .f32) (o : Fin 81) : Fin 128 → EReal := fun c => r (ix2 c o)
/-- Column o of one negative representative's slice. -/
def colN (n : Vec Ideal S1x128x81 .f32) (o : Fin 81) : Fin 128 → EReal := fun c => n (ix3 0 c o)

/-! ## The normalised block as a matrix -/

/-- The sum over the channels of the squares, read at pixel (h, w). -/
theorem sumsq_apply (y : FVec Ideal S128x16x128 .f32) (hacc : (0x00000000#32 : BitVec 32) = 0x00000000#32)
    (h : Fin 16) (w : Fin 128) :
    multiReduction (F := Ideal) .add [0] S16x128 y 0x00000000#32 reduces_S128x16x128_S16x128 (.inl rfl) hacc (ix2 h w)
      = ∑ c : Fin 128, y (ix3 c h w) := by
  refine (Ideal.multiReduction_add_single y 0x00000000#32 reduces_S128x16x128_S16x128 (.inl rfl) hacc (ix2 h w)).trans ?_
  refine Finset.sum_congr rfl fun c _ => congrArg y (funext fun a => Fin.ext ?_)
  match a with
  | ⟨0, _⟩ => rfl
  | ⟨1, _⟩ => rfl
  | ⟨2, _⟩ => rfl

/-- Entry (h·128 + w, c) of the normalised block laid out as a matrix: channel c of pixel (h, w)'s unit vector. -/
theorem pay3_apply (x0 : Vec Ideal S1x128x16x128 .f32) (h : Fin 16) (w : Fin 128) (c : Fin 128) (p : Fin 2048)
    (hp : p.val = h.val * 128 + w.val) :
    k0_pay3 (F := Ideal) x0 (ix2 p c) = unit (pixB x0 h w) c := by
  unfold k0_pay3
  refine (shapeCast_apply _ shapeCasts_S16x128x128_S2048x128 (ix2 p c) (ix3 h w c) ?_).trans ?_
  · rw [Shape.rowMajor_val_three, Shape.rowMajor_val_two]
    show (h.val * 128 + w.val) * 128 + c.val = p.val * 128 + c.val
    rw [hp]
  refine (transpose_apply [1, 2, 0] _ transposes_S128x16x128_p1_2_0_S16x128x128 (ix3 h w c) (ix3 c h w)
    (fun b => match b with | ⟨0, _⟩ => rfl | ⟨1, _⟩ => rfl | ⟨2, _⟩ => rfl)).trans ?_
  show Ideal.div (shapeCast S128x16x128 x0 shapeCasts_S1x128x16x128_S128x16x128 (ix3 c h w))
      (broadcastTo S128x16x128 _ broadcasts_S1x16x128_S128x16x128 (ix3 c h w)) = _
  rw [shapeCast_1abc_abc_apply]
  refine congrArg (Ideal.div _) ?_
  refine (broadcastTo_apply _ broadcasts_S1x16x128_S128x16x128 (ix3 c h w) (ix3 (0 : Fin 1) h w) (fun a => ?_)).trans ?_
  · match a with
    | ⟨0, _⟩ => rfl
    | ⟨1, _⟩ => rfl
    | ⟨2, _⟩ => rfl
  show max (Ideal.sqrt (shapeCast S1x16x128 _ shapeCasts_S16x128_S1x16x128 (ix3 (0 : Fin 1) h w))) (Ideal.ofBits .f32 0x2B8CBCCC#32) = _
  rw [shapeCast_ab_1ab_apply, sumsq_apply]
  refine congrArg (fun s => max (Ideal.sqrt s) (Ideal.ofBits .f32 0x2B8CBCCC#32)) ?_
  refine Finset.sum_congr rfl fun k _ => ?_
  show shapeCast S128x16x128 x0 shapeCasts_S1x128x16x128_S128x16x128 (ix3 k h w)
      * shapeCast S128x16x128 x0 shapeCasts_S1x128x16x128_S128x16x128 (ix3 k h w) = _
  rw [shapeCast_1abc_abc_apply]
  rfl

/-! ## The matrix product read at an index -/

theorem lhs_row (i : S2048x81.Idx) (q : dot_S2048x128_S128x81_S2048x81_1_0_0_1_n_n.contr.Idx) :
    (dot_S2048x128_S128x81_S2048x81_1_0_0_1_n_n.lhsIdx i q 0).val = (i 0).val := by
  unfold DotDims.lhsIdx
  rw [dif_neg (show ¬(0 : Fin S2048x128.rank) ∈ dot_S2048x128_S128x81_S2048x81_1_0_0_1_n_n.lhsBatch by decide),
    dif_pos (show (0 : Fin S2048x128.rank) ∈ dot_S2048x128_S128x81_S2048x81_1_0_0_1_n_n.lhsNonContracting by decide)]
  rfl
theorem lhs_col (i : S2048x81.Idx) (q : dot_S2048x128_S128x81_S2048x81_1_0_0_1_n_n.contr.Idx) :
    (dot_S2048x128_S128x81_S2048x81_1_0_0_1_n_n.lhsIdx i q 1).val = (q ⟨0, by decide⟩).val :=
  dot_S2048x128_S128x81_S2048x81_1_0_0_1_n_n.lhsIdx_val_of_single rfl i q
theorem rhs_row (i : S2048x81.Idx) (q : dot_S2048x128_S128x81_S2048x81_1_0_0_1_n_n.contr.Idx) :
    (dot_S2048x128_S128x81_S2048x81_1_0_0_1_n_n.rhsIdx i q 0).val = (q ⟨0, by decide⟩).val :=
  dot_S2048x128_S128x81_S2048x81_1_0_0_1_n_n.rhsIdx_val_of_single rfl i q
theorem rhs_col (i : S2048x81.Idx) (q : dot_S2048x128_S128x81_S2048x81_1_0_0_1_n_n.contr.Idx) :
    (dot_S2048x128_S128x81_S2048x81_1_0_0_1_n_n.rhsIdx i q 1).val = (i 1).val := by
  unfold DotDims.rhsIdx
  rw [dif_neg (show ¬(1 : Fin S128x81.rank) ∈ dot_S2048x128_S128x81_S2048x81_1_0_0_1_n_n.rhsBatch by decide),
    dif_pos (show (1 : Fin S128x81.rank) ∈ dot_S2048x128_S128x81_S2048x81_1_0_0_1_n_n.rhsNonContracting by decide)]
  rfl

/-- Entry (p, o) of the product into a zero accumulator: the sum over the 128 channels of row p times column o. -/
theorem matmul_apply_ix (A : FVec Ideal S2048x128 .bf16) (W : FVec Ideal S128x81 .bf16) (p : Fin 2048) (o : Fin 81) :
    matmul dot_S2048x128_S128x81_S2048x81_1_0_0_1_n_n none A W (constant (F := Ideal) S2048x81 .f32 0x00000000#32) (ix2 p o)
      = ∑ k : Fin 128, A (ix2 p k) * W (ix2 k o) := by
  refine (Ideal.matmul_constant_zero_apply dot_S2048x128_S128x81_S2048x81_1_0_0_1_n_n none A W (ix2 p o)).trans ?_
  rw [← Equiv.sum_comp (contrEquiv1 dot_S2048x128_S128x81_S2048x81_1_0_0_1_n_n 128 rfl rfl).symm]
  refine Finset.sum_congr rfl fun k _ => ?_
  have hk := contrEquiv1_symm_val dot_S2048x128_S128x81_S2048x81_1_0_0_1_n_n 128 rfl rfl k
  have el : dot_S2048x128_S128x81_S2048x81_1_0_0_1_n_n.lhsIdx (ix2 p o)
      ((contrEquiv1 dot_S2048x128_S128x81_S2048x81_1_0_0_1_n_n 128 rfl rfl).symm k) = ix2 p k :=
    funext fun a => Fin.ext (by
      match a with
      | ⟨0, _⟩ => exact lhs_row _ _
      | ⟨1, _⟩ => exact (lhs_col _ _).trans hk)
  have er : dot_S2048x128_S128x81_S2048x81_1_0_0_1_n_n.rhsIdx (ix2 p o)
      ((contrEquiv1 dot_S2048x128_S128x81_S2048x81_1_0_0_1_n_n 128 rfl rfl).symm k) = ix2 k o :=
    funext fun a => Fin.ext (by
      match a with
      | ⟨0, _⟩ => exact (rhs_row _ _).trans hk
      | ⟨1, _⟩ => exact rhs_col _ _)
  rw [el, er]

/-- The product laid out as (class, row, column): entry (o, h, w) is entry (h·128 + w, o) of the product. -/
theorem relayout_apply (M : FVec Ideal S2048x81 .f32) (o : Fin 81) (h : Fin 16) (w : Fin 128) (p : Fin 2048)
    (hp : p.val = h.val * 128 + w.val) :
    transpose S81x16x128 [2, 0, 1] (shapeCast S16x128x81 M shapeCasts_S2048x81_S16x128x81)
      transposes_S16x128x81_p2_0_1_S81x16x128 (ix3 o h w) = M (ix2 p o) := by
  refine (transpose_apply [2, 0, 1] _ transposes_S16x128x81_p2_0_1_S81x16x128 (ix3 o h w) (ix3 h w o)
    (fun b => match b with | ⟨0, _⟩ => rfl | ⟨1, _⟩ => rfl | ⟨2, _⟩ => rfl)).trans ?_
  refine shapeCast_apply M shapeCasts_S2048x81_S16x128x81 (ix3 h w o) (ix2 p o) ?_
  rw [Shape.rowMajor_val_two, Shape.rowMajor_val_three]
  show p.val * 81 + o.val = (h.val * 128 + w.val) * 81 + o.val
  rw [hp]

/-! ## The distances -/

/-- The kernel writes the distance of an inner product with the zero word for 0. -/
theorem ofInner_spelling (d : EReal) :
    Ideal.sqrt (max (Ideal.ofBits .f32 0x40000000#32 - Ideal.ofBits .f32 0x40000000#32 * d) (Ideal.ofBits .f32 0x00000000#32))
      = ofInner d := by
  rw [Ideal.ofBits_zero_f32]; rfl

/-- The distances the body computes from a normalised block A and a 128 × 81 weight matrix W. -/
def distOf (A : FVec Ideal S2048x128 .bf16) (W : FVec Ideal S128x81 .bf16) : FVec Ideal S81x16x128 .f32 :=
  sqrt (maximumf
    (subf (broadcast S81x16x128 (Scalar.ofBits .f32 0x40000000#32 : Ideal .f32))
      (mulf (broadcast S81x16x128 (Scalar.ofBits .f32 0x40000000#32 : Ideal .f32))
        (transpose S81x16x128 [2, 0, 1]
          (shapeCast S16x128x81
            (matmul dot_S2048x128_S128x81_S2048x81_1_0_0_1_n_n none A W (constant (F := Ideal) S2048x81 .f32 0x00000000#32))
            shapeCasts_S2048x81_S16x128x81)
          transposes_S16x128x81_p2_0_1_S81x16x128)))
    (broadcast S81x16x128 (Scalar.ofBits .f32 0x00000000#32 : Ideal .f32)))

/-- Read at (o, h, w): the distance of the vector in row h·128 + w of A to column o of W. -/
theorem distOf_apply (A : FVec Ideal S2048x128 .bf16) (W : FVec Ideal S128x81 .bf16) (v Wc : Fin 128 → EReal)
    (o : Fin 81) (h : Fin 16) (w : Fin 128) (p : Fin 2048) (hp : p.val = h.val * 128 + w.val)
    (hA : ∀ k : Fin 128, A (ix2 p k) = unit v k) (hW : ∀ k : Fin 128, W (ix2 k o) = Wc k) :
    distOf A W (ix3 o h w) = dist v Wc := by
  show Ideal.sqrt (max (Ideal.ofBits .f32 0x40000000#32 - Ideal.ofBits .f32 0x40000000#32 *
      (transpose S81x16x128 [2, 0, 1] (shapeCast S16x128x81 _ shapeCasts_S2048x81_S16x128x81)
        transposes_S16x128x81_p2_0_1_S81x16x128 (ix3 o h w))) (Ideal.ofBits .f32 0x00000000#32)) = _
  rw [relayout_apply _ o h w p hp, matmul_apply_ix, ofInner_spelling]
  unfold DmlSpec.dist DmlSpec.inner
  refine congrArg ofInner (Finset.sum_congr rfl fun k _ => ?_)
  rw [hA k, hW k]

/-- The row of the block's matrix that holds pixel (h, w). -/
def rowOf (h : Fin 16) (w : Fin 128) : Fin 2048 := ⟨h.val * 128 + w.val, by have := h.isLt; have := w.isLt; omega⟩

theorem pay4_eq (x0 : Vec Ideal S1x128x16x128 .f32) (r : Vec Ideal S128x81 .f32) :
    k0_pay4 (F := Ideal) x0 r
      = distOf (k0_pay3 x0) (truncf .bf16 (shapeCast S128x81 r shapeCasts_S128x81_S128x81) bitsLt_bf16_f32) := rfl
theorem pay8_eq (A : FVec Ideal S2048x128 .bf16) (n : Vec Ideal S1x128x81 .f32) :
    k0_pay8 (F := Ideal) A n
      = distOf A (truncf .bf16 (shapeCast S128x81 n shapeCasts_S1x128x81_S128x81) bitsLt_bf16_f32) := rfl
theorem pay15_eq (A : FVec Ideal S2048x128 .bf16) (n : Vec Ideal S1x128x81 .f32) :
    k0_pay15 (F := Ideal) A n
      = distOf A (truncf .bf16 (shapeCast S128x81 n shapeCasts_S1x128x81_S128x81) bitsLt_bf16_f32) := rfl
theorem pay13_eq (A : FVec Ideal S2048x128 .bf16) (n : Vec Ideal S1x128x81 .f32) :
    k0_pay13 (F := Ideal) (k0_pay11 A n) k0_pay12
      = distOf A (truncf .bf16 (shapeCast S128x81 n shapeCasts_S1x128x81_S128x81) bitsLt_bf16_f32) := rfl

/-- The distances to the class representatives. -/
theorem pay4_apply (x0 : Vec Ideal S1x128x16x128 .f32) (r : Vec Ideal S128x81 .f32) (o : Fin 81) (h : Fin 16) (w : Fin 128) :
    k0_pay4 (F := Ideal) x0 r (ix3 o h w) = dist (pixB x0 h w) (colR r o) := by
  rw [pay4_eq]
  refine distOf_apply _ _ _ _ o h w (rowOf h w) rfl (fun k => pay3_apply x0 h w k (rowOf h w) rfl) (fun k => ?_)
  show shapeCast S128x81 r shapeCasts_S128x81_S128x81 (ix2 k o) = _
  rw [shapeCast_self]
  rfl

/-- A negative representative's slice as a weight matrix. -/
theorem weightN_apply (n : Vec Ideal S1x128x81 .f32) (k : Fin 128) (o : Fin 81) :
    (truncf .bf16 (shapeCast S128x81 n shapeCasts_S1x128x81_S128x81) bitsLt_bf16_f32 : FVec Ideal S128x81 .bf16) (ix2 k o)
      = colN n o k := by
  show shapeCast S128x81 n shapeCasts_S1x128x81_S128x81 (ix2 k o) = _
  rw [shapeCast_1ab_ab_apply]
  rfl

/-- The distances to the first negative representatives … -/
theorem pay8_apply (x0 : Vec Ideal S1x128x16x128 .f32) (n : Vec Ideal S1x128x81 .f32) (o : Fin 81) (h : Fin 16) (w : Fin 128) :
    k0_pay8 (F := Ideal) (k0_pay3 x0) n (ix3 o h w) = dist (pixB x0 h w) (colN n o) := by
  rw [pay8_eq]
  exact distOf_apply _ _ _ _ o h w (rowOf h w) rfl (fun k => pay3_apply x0 h w k (rowOf h w) rfl) (fun k => weightN_apply n k o)

/-- … to the third … -/
theorem pay15_apply (x0 : Vec Ideal S1x128x16x128 .f32) (n : Vec Ideal S1x128x81 .f32) (o : Fin 81) (h : Fin 16) (w : Fin 128) :
    k0_pay15 (F := Ideal) (k0_pay3 x0) n (ix3 o h w) = dist (pixB x0 h w) (colN n o) := by
  rw [pay15_eq]
  exact distOf_apply _ _ _ _ o h w (rowOf h w) rfl (fun k => pay3_apply x0 h w k (rowOf h w) rfl) (fun k => weightN_apply n k o)

/-- … and to the second, whose maximum with zero and square root are taken one step later. -/
theorem pay13_apply (x0 : Vec Ideal S1x128x16x128 .f32) (n : Vec Ideal S1x128x81 .f32) (o : Fin 81) (h : Fin 16) (w : Fin 128) :
    k0_pay13 (F := Ideal) (k0_pay11 (k0_pay3 x0) n) k0_pay12 (ix3 o h w) = dist (pixB x0 h w) (colN n o) := by
  rw [pay13_eq]
  exact distOf_apply _ _ _ _ o h w (rowOf h w) rfl (fun k => pay3_apply x0 h w k (rowOf h w) rfl) (fun k => weightN_apply n k o)

end Cert.KernelIdeal.Pay

end
-- ==== Proof.PayScores.lean ====
/-
  The kernel body's stored values read at an index, on the extended reals: the five stores of distances and Gaussian
  scores, the best of the three negative scores, and the combined score normalised over the 81 classes.

  The body negates as 0 − y and sums over the classes without an initial value; both are the specification's
  spellings after the zero word is read as 0.
-/
import proofs.«137945_j73349451481901_1_alg».proof.Proof.PayDist

noncomputable section

namespace Cert.KernelIdeal.Pay

open Idealize.ShloMosaic Idealize.ShloMosaic.ValueIdx Cert.KernelIdeal Cert.KernelIdeal.Gen Cert.DmlSpec

/-! ## The stores' leading unit axes -/

/-- A (class, row, column) value stored as a [1, 81, 1, 16, 128] block. -/
theorem cast5_apply (y : FVec Ideal S81x16x128 .f32) (o : Fin 81) (h : Fin 16) (w : Fin 128) :
    shapeCast S1x81x1x16x128 y shapeCasts_S81x16x128_S1x81x1x16x128 (ix5 (0 : Fin 1) o (0 : Fin 1) h w) = y (ix3 o h w) :=
  shapeCast_apply y shapeCasts_S81x16x128_S1x81x1x16x128 _ _ (by
    rw [Shape.rowMajor_val_three, Shape.rowMajor_val_five]
    show (o.val * 16 + h.val) * 128 + w.val = (((0 * 81 + o.val) * 1 + 0) * 16 + h.val) * 128 + w.val
    omega)

/-- A (class, row, column) value stored as a [1, 81, 16, 128] block. -/
theorem cast4_apply (y : FVec Ideal S81x16x128 .f32) (o : Fin 81) (h : Fin 16) (w : Fin 128) :
    shapeCast S1x81x16x128 y shapeCasts_S81x16x128_S1x81x16x128 (ix4 (0 : Fin 1) o h w) = y (ix3 o h w) :=
  shapeCast_abc_1abc_apply y shapeCasts_S81x16x128_S1x81x16x128 0 o h w

/-! ## The Gaussian score in the kernel's spelling -/

theorem gauss_spelling (d : EReal) :
    Ideal.exp ((Ideal.ofBits .f32 0x00000000#32 - d * d) * Ideal.ofBits .f32 0x40000000#32) = gauss d := by
  rw [Ideal.ofBits_zero_f32, zero_sub]; rfl

/-- The score of the distances to the class representatives. -/
theorem pay5_apply (x0 : Vec Ideal S1x128x16x128 .f32) (r : Vec Ideal S128x81 .f32) (i : S81x16x128.Idx) :
    k0_pay5 (F := Ideal) x0 r i = gauss (k0_pay4 (F := Ideal) x0 r i) :=
  gauss_spelling (k0_pay4 (F := Ideal) x0 r i)

/-- The score of the distances to the first negative representatives. -/
theorem pay10_apply (A : FVec Ideal S2048x128 .bf16) (n : Vec Ideal S1x128x81 .f32) (i : S81x16x128.Idx) :
    k0_pay10 (F := Ideal) A n i = gauss (k0_pay8 (F := Ideal) A n i) :=
  gauss_spelling (k0_pay8 (F := Ideal) A n i)

/-- The best of the three negative scores, over the first score and the other two distances. -/
theorem pay17_apply (A : FVec Ideal S2048x128 .bf16) (v59 v69 v70 : FVec Ideal S81x16x128 .f32) (n : Vec Ideal S1x128x81 .f32)
    (i : S81x16x128.Idx) :
    k0_pay17 (F := Ideal) A v59 v69 v70 n i
      = max (max (v59 i) (gauss (k0_pay13 (F := Ideal) v69 v70 i))) (gauss (k0_pay15 (F := Ideal) A n i)) := by
  rw [← gauss_spelling, ← gauss_spelling]
  rfl

/-- The nearest of the three negative distances. -/
theorem pay18_apply (A : FVec Ideal S2048x128 .bf16) (v50 v69 v70 : FVec Ideal S81x16x128 .f32) (n : Vec Ideal S1x128x81 .f32)
    (i : S81x16x128.Idx) :
    k0_pay18 (F := Ideal) A v50 v69 v70 n i
      = min3 (v50 i) (k0_pay13 (F := Ideal) v69 v70 i) (k0_pay15 (F := Ideal) A n i) := rfl

/-! ## The five stores -/

theorem pay6_apply (x0 : Vec Ideal S1x128x16x128 .f32) (r : Vec Ideal S128x81 .f32) (o : Fin 81) (h : Fin 16) (w : Fin 128) :
    k0_pay6 (F := Ideal) x0 r (ix5 (0 : Fin 1) o (0 : Fin 1) h w) = dist (pixB x0 h w) (colR r o) := by
  exact (cast5_apply (k0_pay4 (F := Ideal) x0 r) o h w).trans (pay4_apply x0 r o h w)

theorem pay9_apply (x0 : Vec Ideal S1x128x16x128 .f32) (n : Vec Ideal S1x128x81 .f32) (o : Fin 81) (h : Fin 16) (w : Fin 128) :
    k0_pay9 (F := Ideal) (k0_pay3 x0) n (ix5 (0 : Fin 1) o (0 : Fin 1) h w) = dist (pixB x0 h w) (colN n o) := by
  exact (cast5_apply (k0_pay8 (F := Ideal) (k0_pay3 x0) n) o h w).trans (pay8_apply x0 n o h w)

theorem pay14_apply (x0 : Vec Ideal S1x128x16x128 .f32) (n : Vec Ideal S1x128x81 .f32) (o : Fin 81) (h : Fin 16) (w : Fin 128) :
    k0_pay14 (F := Ideal) (k0_pay11 (k0_pay3 x0) n) k0_pay12 (ix5 (0 : Fin 1) o (0 : Fin 1) h w) = dist (pixB x0 h w) (colN n o) := by
  exact (cast5_apply (k0_pay13 (F := Ideal) (k0_pay11 (k0_pay3 x0) n) k0_pay12) o h w).trans (pay13_apply x0 n o h w)

theorem pay16_apply (x0 : Vec Ideal S1x128x16x128 .f32) (n : Vec Ideal S1x128x81 .f32) (o : Fin 81) (h : Fin 16) (w : Fin 128) :
    k0_pay16 (F := Ideal) (k0_pay3 x0) n (ix5 (0 : Fin 1) o (0 : Fin 1) h w) = dist (pixB x0 h w) (colN n o) := by
  exact (cast5_apply (k0_pay15 (F := Ideal) (k0_pay3 x0) n) o h w).trans (pay15_apply x0 n o h w)

theorem pay7_apply (x0 : Vec Ideal S1x128x16x128 .f32) (r : Vec Ideal S128x81 .f32) (o : Fin 81) (h : Fin 16) (w : Fin 128) :
    k0_pay7 (F := Ideal) (k0_pay5 x0 r) (ix4 (0 : Fin 1) o h w) = gauss (dist (pixB x0 h w) (colR r o)) := by
  exact (cast4_apply (k0_pay5 (F := Ideal) x0 r) o h w).trans
    ((pay5_apply x0 r (ix3 o h w)).trans (congrArg gauss (pay4_apply x0 r o h w)))

/-! ## The best negative score -/

theorem pay1_apply (x0 : Vec Ideal S1x128x16x128 .f32) (n0 n1 n2 : Vec Ideal S1x128x81 .f32) (o : Fin 81) (h : Fin 16) (w : Fin 128) :
    k0_pay1 (F := Ideal) (k0_pay17 (k0_pay3 x0) (k0_pay10 (k0_pay3 x0) n0) (k0_pay11 (k0_pay3 x0) n1) k0_pay12 n2) (ix4 (0 : Fin 1) o h w)
      = maxScore3 (dist (pixB x0 h w) (colN n0 o)) (dist (pixB x0 h w) (colN n1 o)) (dist (pixB x0 h w) (colN n2 o)) := by
  refine (cast4_apply (k0_pay17 (F := Ideal) (k0_pay3 x0) (k0_pay10 (k0_pay3 x0) n0) (k0_pay11 (k0_pay3 x0) n1) k0_pay12 n2)
    o h w).trans ?_
  rw [pay17_apply, pay10_apply, pay8_apply, pay13_apply, pay15_apply]
  rfl

/-! ## The combined score, normalised over the classes -/

/-- The sum over the classes, read at pixel (h, w). -/
theorem sumcls_apply (y : FVec Ideal S81x16x128 .f32) (hacc : (0x00000000#32 : BitVec 32) = 0x00000000#32)
    (h : Fin 16) (w : Fin 128) :
    multiReduction (F := Ideal) .add [0] S16x128 y 0x00000000#32 reduces_S81x16x128_S16x128 (.inl rfl) hacc (ix2 h w)
      = ∑ o : Fin 81, y (ix3 o h w) := by
  refine (Ideal.multiReduction_add_single y 0x00000000#32 reduces_S81x16x128_S16x128 (.inl rfl) hacc (ix2 h w)).trans ?_
  refine Finset.sum_congr rfl fun c _ => congrArg y (funext fun a => Fin.ext ?_)
  match a with
  | ⟨0, _⟩ => rfl
  | ⟨1, _⟩ => rfl
  | ⟨2, _⟩ => rfl

/-- The score of the combined distance in the kernel's spelling. -/
theorem combined_spelling (d dmin : EReal) :
    Ideal.exp ((Ideal.ofBits .f32 0x00000000#32
        - (d + Ideal.ofBits .f32 0x3E99999A#32 * max (Ideal.ofBits .f32 0x40000000#32 - dmin) (Ideal.ofBits .f32 0x00000000#32))
          * (d + Ideal.ofBits .f32 0x3E99999A#32 * max (Ideal.ofBits .f32 0x40000000#32 - dmin) (Ideal.ofBits .f32 0x00000000#32)))
        * Ideal.ofBits .f32 0x40000000#32)
      = combined d dmin := by
  rw [gauss_spelling, Ideal.ofBits_zero_f32]; rfl

/-- The scores of the combined distances, before normalisation. -/
def scoreOf (v25 v107 : FVec Ideal S81x16x128 .f32) : FVec Ideal S81x16x128 .f32 :=
  fun i => combined (v25 i) (v107 i)

/-- The normalised score over any distances and nearest negative distances. -/
theorem pay2_apply (v25 v107 : FVec Ideal S81x16x128 .f32) (o : Fin 81) (h : Fin 16) (w : Fin 128) :
    k0_pay2 (F := Ideal) v25 v107 (ix4 (0 : Fin 1) o h w)
      = Ideal.div (scoreOf v25 v107 (ix3 o h w)) (∑ o' : Fin 81, scoreOf v25 v107 (ix3 o' h w)) := by
  have hs : ∀ i : S81x16x128.Idx,
      exp (mulf (subf (broadcast S81x16x128 (Scalar.ofBits .f32 0x00000000#32 : Ideal .f32))
        (mulf
          (addf v25 (mulf (broadcast S81x16x128 (Scalar.ofBits .f32 0x3E99999A#32 : Ideal .f32))
            (maximumf (subf (broadcast S81x16x128 (Scalar.ofBits .f32 0x40000000#32 : Ideal .f32)) v107)
              (broadcast S81x16x128 (Scalar.ofBits .f32 0x00000000#32 : Ideal .f32)))))
          (addf v25 (mulf (broadcast S81x16x128 (Scalar.ofBits .f32 0x3E99999A#32 : Ideal .f32))
            (maximumf (subf (broadcast S81x16x128 (Scalar.ofBits .f32 0x40000000#32 : Ideal .f32)) v107)
              (broadcast S81x16x128 (Scalar.ofBits .f32 0x00000000#32 : Ideal .f32)))))))
        (broadcast S81x16x128 (Scalar.ofBits .f32 0x40000000#32 : Ideal .f32))) i = scoreOf v25 v107 i :=
    fun i => combined_spelling (v25 i) (v107 i)
  unfold k0_pay2
  refine (cast4_apply _ o h w).trans ?_
  show Ideal.div (_ : EReal) (broadcastTo S81x16x128 _ broadcasts_S1x16x128_S81x16x128 (ix3 o h w)) = _
  rw [hs]
  refine congrArg (Ideal.div _) ?_
  refine (broadcastTo_apply _ broadcasts_S1x16x128_S81x16x128 (ix3 o h w) (ix3 (0 : Fin 1) h w) (fun a => ?_)).trans ?_
  · match a with
    | ⟨0, _⟩ => rfl
    | ⟨1, _⟩ => rfl
    | ⟨2, _⟩ => rfl
  rw [shapeCast_ab_1ab_apply, sumcls_apply]
  exact Finset.sum_congr rfl fun o' _ => hs _

/-- The class scores of one pixel. -/
theorem pay2_spec (x0 : Vec Ideal S1x128x16x128 .f32) (r : Vec Ideal S128x81 .f32) (n0 n1 n2 : Vec Ideal S1x128x81 .f32)
    (o : Fin 81) (h : Fin 16) (w : Fin 128) :
    k0_pay2 (F := Ideal) (k0_pay4 x0 r)
        (k0_pay18 (k0_pay3 x0) (k0_pay8 (k0_pay3 x0) n0) (k0_pay11 (k0_pay3 x0) n1) k0_pay12 n2) (ix4 (0 : Fin 1) o h w)
      = Ideal.div
          (combined (dist (pixB x0 h w) (colR r o))
            (min3 (dist (pixB x0 h w) (colN n0 o)) (dist (pixB x0 h w) (colN n1 o)) (dist (pixB x0 h w) (colN n2 o))))
          (∑ o' : Fin 81, combined (dist (pixB x0 h w) (colR r o'))
            (min3 (dist (pixB x0 h w) (colN n0 o')) (dist (pixB x0 h w) (colN n1 o')) (dist (pixB x0 h w) (colN n2 o')))) := by
  have hq : ∀ o' : Fin 81,
      scoreOf (k0_pay4 (F := Ideal) x0 r)
          (k0_pay18 (F := Ideal) (k0_pay3 x0) (k0_pay8 (k0_pay3 x0) n0) (k0_pay11 (k0_pay3 x0) n1) k0_pay12 n2) (ix3 o' h w)
        = combined (dist (pixB x0 h w) (colR r o'))
            (min3 (dist (pixB x0 h w) (colN n0 o')) (dist (pixB x0 h w) (colN n1 o')) (dist (pixB x0 h w) (colN n2 o'))) := by
    intro o'
    unfold scoreOf
    rw [pay18_apply, pay4_apply, pay8_apply, pay13_apply, pay15_apply]
  rw [pay2_apply, hq]
  exact congrArg (Ideal.div _) (Finset.sum_congr rfl fun o' _ => hq o')

end Cert.KernelIdeal.Pay

end
-- ==== Proof.Place.lean ====
/-
  From blocks to arrays, first part: where the blocks sit. The grid is 8 images × 8 row-tiles of 16 rows. At the point
  of image n and row-tile q the input window's block is image n, every channel, rows 16·q … 16·q + 15, every column; the
  two weight windows' blocks are their whole arrays at every point; each four-axis output window's block is image n,
  every class, the same 16 rows, every column; each five-axis output window's block is image n, every class, every
  mode, the same 16 rows, every column. These are decided once over the 64 points. From them: the three input blocks
  read at an index in terms of the arrays, and every index of every output array lies in some point's block.
-/
import proofs.«137945_j73349451481901_1_alg».proof.Proof.IdealRun
import proofs.«137945_j73349451481901_1_alg».proof.Proof.Weights
import proofs.«137945_j73349451481901_1_alg».proof.Proof.PayScores

set_option maxRecDepth 16384

noncomputable section

namespace Cert.KernelIdeal.Place

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Grid Cert.KernelIdeal.Bridge Cert.KernelIdeal.Pay Cert.DmlSpec

variable (m : (ℓ : Loc nD τ sig) → Buf (Elt Ideal) ℓ)

/-! ## The index maps over the grid -/

/-- The input window's block index: (image, 0, row-tile, 0), both below 8. -/
theorem at0 : ∀ t : Fin cfg0.N, win0_0.index t (0 : Fin 4) < 8 ∧ win0_0.index t (1 : Fin 4) = 0
    ∧ win0_0.index t (2 : Fin 4) < 8 ∧ win0_0.index t (3 : Fin 4) = 0 :=
  (by decide +kernel : ∀ t : Fin grid0.N, _)

/-- The weight windows' block indices are zero. -/
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 3) = 0 ∧ win0_2.index t (1 : Fin 3) = 0 ∧ win0_2.index t (2 : Fin 3) = 0 :=
  (by decide +kernel : ∀ t : Fin grid0.N, _)

/-- The four-axis output windows move with the input window. -/
theorem at3 : ∀ t : Fin cfg0.N, win0_3.index t (0 : Fin 4) = win0_0.index t (0 : Fin 4) ∧ win0_3.index t (1 : Fin 4) = 0
    ∧ win0_3.index t (2 : Fin 4) = win0_0.index t (2 : Fin 4) ∧ win0_3.index t (3 : Fin 4) = 0 :=
  (by decide +kernel : ∀ t : Fin grid0.N, _)
theorem at4 : ∀ t : Fin cfg0.N, win0_4.index t (0 : Fin 4) = win0_0.index t (0 : Fin 4) ∧ win0_4.index t (1 : Fin 4) = 0
    ∧ win0_4.index t (2 : Fin 4) = win0_0.index t (2 : Fin 4) ∧ win0_4.index t (3 : Fin 4) = 0 :=
  (by decide +kernel : ∀ t : Fin grid0.N, _)
theorem at7 : ∀ t : Fin cfg0.N, win0_7.index t (0 : Fin 4) = win0_0.index t (0 : Fin 4) ∧ win0_7.index t (1 : Fin 4) = 0
    ∧ win0_7.index t (2 : Fin 4) = win0_0.index t (2 : Fin 4) ∧ win0_7.index t (3 : Fin 4) = 0 :=
  (by decide +kernel : ∀ t : Fin grid0.N, _)

/-- The five-axis output windows move with it too, the row-tile on their fourth axis. -/
theorem at5 : ∀ t : Fin cfg0.N, win0_5.index t (0 : Fin 5) = win0_0.index t (0 : Fin 4) ∧ win0_5.index t (1 : Fin 5) = 0
    ∧ win0_5.index t (2 : Fin 5) = 0 ∧ win0_5.index t (3 : Fin 5) = win0_0.index t (2 : Fin 4) ∧ win0_5.index t (4 : Fin 5) = 0 :=
  (by decide +kernel : ∀ t : Fin grid0.N, _)
theorem at6 : ∀ t : Fin cfg0.N, win0_6.index t (0 : Fin 5) = win0_0.index t (0 : Fin 4) ∧ win0_6.index t (1 : Fin 5) = 0
    ∧ win0_6.index t (2 : Fin 5) = 0 ∧ win0_6.index t (3 : Fin 5) = win0_0.index t (2 : Fin 4) ∧ win0_6.index t (4 : Fin 5) = 0 :=
  (by decide +kernel : ∀ t : Fin grid0.N, _)

/-- Every (image, row-tile) pair is some point's. -/
theorem onto : ∀ (q0 q2 : Fin 8), ∃ t : Fin cfg0.N, win0_0.index t (0 : Fin 4) = q0.val ∧ win0_0.index t (2 : Fin 4) = q2.val :=
  (by decide +kernel : ∀ (q0 q2 : Fin 8), ∃ t : Fin grid0.N, win0_0.index t (0 : Fin 4) = q0.val ∧ win0_0.index t (2 : Fin 4) = q2.val)

/-! ## The input blocks read at an index -/

/-- The input, as launched. -/
abbrev inp (c : Dev nD) : XArr := m ((c : Thread nD τ).loc main_arg0)

/-- Entry (0, channel, row, column) of the input block at a point is the input at (image, channel, 16·tile + row, column). -/
theorem blockX (c : Dev nD) (t : Fin cfg0.N) (ch : Fin 128) (h : Fin 16) (w : Fin 128) (n : Fin 8) (hh w' : Fin 128)
    (hn : n.val = win0_0.index t (0 : Fin 4)) (hhh : hh.val = win0_0.index t (2 : Fin 4) * 16 + h.val) (hw : w'.val = w.val) :
    blockAt m c 0 t (ix4 0 ch h w) = inp m c (ix4 n ch hh w') := by
  show entry m c main_arg0 (((cfg0.win 0).blk t).view.emb (ix4 0 ch h w)) = _
  rw [entry_arg0]
  refine congrArg _ (funext fun a => Fin.ext ?_)
  obtain ⟨f0, f1, f2, f3⟩ := at0 t
  match a with
  | ⟨0, _⟩ => show win0_0.index t (0 : Fin 4) * 1 + 1 * 0 = n.val; omega
  | ⟨1, _⟩ => show win0_0.index t (1 : Fin 4) * 128 + 1 * ch.val = ch.val; omega
  | ⟨2, _⟩ => show win0_0.index t (2 : Fin 4) * 16 + 1 * h.val = hh.val; omega
  | ⟨3, _⟩ => show win0_0.index t (3 : Fin 4) * 128 + 1 * w.val = w'.val; omega

/-- So the block's pixel (row, column) is the input's pixel (image, 16·tile + row, column). -/
theorem pixel_eq (c : Dev nD) (t : Fin cfg0.N) (h : Fin 16) (w : Fin 128) (n : Fin 8) (hh w' : Fin 128)
    (hn : n.val = win0_0.index t (0 : Fin 4)) (hhh : hh.val = win0_0.index t (2 : Fin 4) * 16 + h.val) (hw : w'.val = w.val) :
    pixB (blockAt m c 0 t) h w = pix (inp m c) n hh w' :=
  funext fun ch => blockX m c t ch h w n hh w' hn hhh hw

/-- The class representatives' block is the whole transposed array: column `o` is representative `o`. -/
theorem column_eq (c : Dev nD) (t : Fin cfg0.N) (o o' : Fin 81) (ho : o'.val = o.val) :
    colR (blockAt m c 1 t) o = fun ch => reps m c (ix3 o' 0 ch) := by
  obtain rfl : o = o' := Fin.ext ho.symm
  funext ch
  show entry m c main_v111 (((cfg0.win 1).blk t).view.emb (ix2 ch o)) = _
  have he : ((cfg0.win 1).blk t).view.emb (ix2 ch o) = ix2 ch o := by
    funext a; apply Fin.ext
    obtain ⟨f0, f1⟩ := at1 t
    match a with
    | ⟨0, _⟩ => show win0_1.index t (0 : Fin 2) * 128 + 1 * ch.val = ch.val; omega
    | ⟨1, _⟩ => show win0_1.index t (1 : Fin 2) * 81 + 1 * o.val = o.val; omega
  rw [he]
  exact reps_at m c ch o

/-- Slice 0 of the negative representatives' block, column `o`, is negative representative (o, 0). -/
theorem neg_column0 (c : Dev nD) (t : Fin cfg0.N) (o o' : Fin 81) (k' : Fin 3) (ho : o'.val = o.val) (hk : k'.val = 0) :
    colN (View.ld (blockAt m c 2 t) boxN0) o = fun ch => negs m c (ix3 o' k' ch) := by
  obtain rfl : o = o' := Fin.ext ho.symm
  obtain rfl : k' = (0 : Fin 3) := Fin.ext hk
  funext ch
  show entry m c main_v112 (((cfg0.win 2).blk t).view.emb (boxN0.emb (ix3 0 ch o))) = _
  have hb : boxN0.emb (ix3 0 ch o) = ix3 (0 : Fin 3) ch o := by
    funext a; apply Fin.ext
    match a with
    | ⟨0, _⟩ => show 0 + 1 * 0 = 0; rfl
    | ⟨1, _⟩ => show 0 + 1 * ch.val = ch.val; omega
    | ⟨2, _⟩ => show 0 + 1 * o.val = o.val; omega
  rw [hb]
  have he : ((cfg0.win 2).blk t).view.emb (ix3 (0 : Fin 3) ch o) = ix3 (0 : Fin 3) ch o := by
    funext a; apply Fin.ext
    obtain ⟨f0, f1, f2⟩ := at2 t
    match a with
    | ⟨0, _⟩ => show win0_2.index t (0 : Fin 3) * 3 + 1 * 0 = 0; omega
    | ⟨1, _⟩ => show win0_2.index t (1 : Fin 3) * 128 + 1 * ch.val = ch.val; omega
    | ⟨2, _⟩ => show win0_2.index t (2 : Fin 3) * 81 + 1 * o.val = o.val; omega
  rw [he]
  exact negs_at m c (0 : Fin 3) ch o

/-- Slice 1 of the negative representatives' block, column `o`, is negative representative (o, 1). -/
theorem neg_column1 (c : Dev nD) (t : Fin cfg0.N) (o o' : Fin 81) (k' : Fin 3) (ho : o'.val = o.val) (hk : k'.val = 1) :
    colN (View.ld (blockAt m c 2 t) boxN1) o = fun ch => negs m c (ix3 o' k' ch) := by
  obtain rfl : o = o' := Fin.ext ho.symm
  obtain rfl : k' = (1 : Fin 3) := Fin.ext hk
  funext ch
  show entry m c main_v112 (((cfg0.win 2).blk t).view.emb (boxN1.emb (ix3 0 ch o))) = _
  have hb : boxN1.emb (ix3 0 ch o) = ix3 (1 : Fin 3) ch o := by
    funext a; apply Fin.ext
    match a with
    | ⟨0, _⟩ => show 1 + 1 * 0 = 1; rfl
    | ⟨1, _⟩ => show 0 + 1 * ch.val = ch.val; omega
    | ⟨2, _⟩ => show 0 + 1 * o.val = o.val; omega
  rw [hb]
  have he : ((cfg0.win 2).blk t).view.emb (ix3 (1 : Fin 3) ch o) = ix3 (1 : Fin 3) ch o := by
    funext a; apply Fin.ext
    obtain ⟨f0, f1, f2⟩ := at2 t
    match a with
    | ⟨0, _⟩ => show win0_2.index t (0 : Fin 3) * 3 + 1 * 1 = 1; omega
    | ⟨1, _⟩ => show win0_2.index t (1 : Fin 3) * 128 + 1 * ch.val = ch.val; omega
    | ⟨2, _⟩ => show win0_2.index t (2 : Fin 3) * 81 + 1 * o.val = o.val; omega
  rw [he]
  exact negs_at m c (1 : Fin 3) ch o

/-- Slice 2 of the negative representatives' block, column `o`, is negative representative (o, 2). -/
theorem neg_column2 (c : Dev nD) (t : Fin cfg0.N) (o o' : Fin 81) (k' : Fin 3) (ho : o'.val = o.val) (hk : k'.val = 2) :
    colN (View.ld (blockAt m c 2 t) boxN2) o = fun ch => negs m c (ix3 o' k' ch) := by
  obtain rfl : o = o' := Fin.ext ho.symm
  obtain rfl : k' = (2 : Fin 3) := Fin.ext hk
  funext ch
  show entry m c main_v112 (((cfg0.win 2).blk t).view.emb (boxN2.emb (ix3 0 ch o))) = _
  have hb : boxN2.emb (ix3 0 ch o) = ix3 (2 : Fin 3) ch o := by
    funext a; apply Fin.ext
    match a with
    | ⟨0, _⟩ => show 2 + 1 * 0 = 2; rfl
    | ⟨1, _⟩ => show 0 + 1 * ch.val = ch.val; omega
    | ⟨2, _⟩ => show 0 + 1 * o.val = o.val; omega
  rw [hb]
  have he : ((cfg0.win 2).blk t).view.emb (ix3 (2 : Fin 3) ch o) = ix3 (2 : Fin 3) ch o := by
    funext a; apply Fin.ext
    obtain ⟨f0, f1, f2⟩ := at2 t
    match a with
    | ⟨0, _⟩ => show win0_2.index t (0 : Fin 3) * 3 + 1 * 2 = 2; omega
    | ⟨1, _⟩ => show win0_2.index t (1 : Fin 3) * 128 + 1 * ch.val = ch.val; omega
    | ⟨2, _⟩ => show win0_2.index t (2 : Fin 3) * 81 + 1 * o.val = o.val; omega
  rw [he]
  exact negs_at m c (2 : Fin 3) ch o

end Cert.KernelIdeal.Place

end
-- ==== Proof.Arrays.lean ====
/-
  From blocks to arrays, second part. For each of the five output windows: what a grid point writes back is that
  point's block of the result's function of the three arrays (the payload lemmas read each stored value at an index,
  the placement lemmas say which pixel and which representatives the block's entries belong to); the 64 blocks cover
  the array; so after the run the array is the function, everywhere. Last, the kernel's run restated with the five
  result arrays named and the five arguments unchanged.
-/
import proofs.«137945_j73349451481901_1_alg».proof.Proof.Place

set_option maxRecDepth 16384

noncomputable section

namespace Cert.KernelIdeal.Place

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Grid Cert.KernelIdeal.Bridge Cert.KernelIdeal.Pay Cert.DmlSpec

variable (m : (ℓ : Loc nD τ sig) → Buf (Elt Ideal) ℓ)

theorem z2 : (![0, 0] : Fin 2 → Nat) = fun _ => 0 := funext fun a => by fin_cases a <;> rfl
theorem z4 : (![0, 0, 0, 0] : Fin 4 → Nat) = fun _ => 0 := funext fun a => by fin_cases a <;> rfl
theorem z5 : (![0, 0, 0, 0, 0] : Fin 5 → Nat) = fun _ => 0 := funext fun a => by fin_cases a <;> rfl

theorem maxScore3_congr {a a' b b' d d' : EReal} (ha : a = a') (hb : b = b') (hd : d = d') : maxScore3 a b d = maxScore3 a' b' d' := by
  subst ha hb hd; rfl
theorem min3_congr {a a' b b' d d' : EReal} (ha : a = a') (hb : b = b') (hd : d = d') : min3 a b d = min3 a' b' d' := by
  subst ha hb hd; rfl
theorem combined_congr {a a' b b' : EReal} (ha : a = a') (hb : b = b') : combined a b = combined a' b' := by
  subst ha hb; rfl

/-! ## The four-axis windows: where their blocks sit -/

/-- An index of the array is in point `t`'s block of window 3 iff each coordinate is in the block's range on its axis. -/
theorem mem3 (t : Fin cfg0.N) (i : S8x81x128x128.Idx) :
    i ∈ ((cfg0.win 3).blk t).view.set ↔ ∀ a : Fin 4, win0_3.index t a * S1x81x16x128.size a ≤ (i a).val ∧ (i a).val < win0_3.index t a * S1x81x16x128.size a + S1x81x16x128.size a := by
  show i ∈ ((View.whole main_v113_0).slice (win0_3.rect t)).set ↔ _
  rw [View.set_slice_whole, Rect.mem_set_unit]
  exact Iff.rfl

/-- Every index of the array is in the block of the point of its image and its row's tile. -/
theorem covered3 (i : S8x81x128x128.Idx) : ∃ t : Fin cfg0.N, (cfg0.win 3).flush t = true ∧ i ∈ ((cfg0.win 3).blk t).view.set := by
  have h0 : (i 0).val < 8 := (i 0).isLt
  have h1 : (i 1).val < 81 := (i 1).isLt
  have h2 : (i 2).val < 128 := (i 2).isLt
  have h3 : (i 3).val < 128 := (i 3).isLt
  obtain ⟨t, q0, q2⟩ := onto ⟨(i 0).val, h0⟩ ⟨(i 2).val / 16, by omega⟩
  have q0' : win0_0.index t (0 : Fin 4) = (i 0).val := q0
  have q2' : win0_0.index t (2 : Fin 4) = (i 2).val / 16 := q2
  refine ⟨t, flush0_3 t, ?_⟩
  rw [mem3]
  obtain ⟨g0, g1, g2, g3⟩ := at3 t
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 81 ≤ (i 1).val ∧ (i 1).val < win0_3.index t (1 : Fin 4) * 81 + 81; omega
  | ⟨2, _⟩ => show win0_3.index t (2 : Fin 4) * 16 ≤ (i 2).val ∧ (i 2).val < win0_3.index t (2 : Fin 4) * 16 + 16; omega
  | ⟨3, _⟩ => show win0_3.index t (3 : Fin 4) * 128 ≤ (i 3).val ∧ (i 3).val < win0_3.index t (3 : Fin 4) * 128 + 128; omega

/-- Where entry (0, class, row, column) of window 3's block at a point sits in the array. -/
theorem pos3 (t : Fin cfg0.N) (o : Fin 81) (h : Fin 16) (w : Fin 128) :
    ((((cfg0.win 3).blk t).view.emb (ix4 0 o h w)) 0).val = win0_0.index t (0 : Fin 4)
    ∧ ((((cfg0.win 3).blk t).view.emb (ix4 0 o h w)) 1).val = o.val
    ∧ ((((cfg0.win 3).blk t).view.emb (ix4 0 o h w)) 2).val = win0_0.index t (2 : Fin 4) * 16 + h.val
    ∧ ((((cfg0.win 3).blk t).view.emb (ix4 0 o h w)) 3).val = w.val := by
  obtain ⟨g0, g1, g2, g3⟩ := at3 t
  refine ⟨?_, ?_, ?_, ?_⟩
  · show win0_3.index t (0 : Fin 4) * 1 + 1 * 0 = _; omega
  · show win0_3.index t (1 : Fin 4) * 81 + 1 * o.val = _; omega
  · show win0_3.index t (2 : Fin 4) * 16 + 1 * h.val = _; omega
  · show win0_3.index t (3 : Fin 4) * 128 + 1 * w.val = _; omega

/-- An index of the array is in point `t`'s block of window 4 iff each coordinate is in the block's range on its axis. -/
theorem mem4 (t : Fin cfg0.N) (i : S8x81x128x128.Idx) :
    i ∈ ((cfg0.win 4).blk t).view.set ↔ ∀ a : Fin 4, win0_4.index t a * S1x81x16x128.size a ≤ (i a).val ∧ (i a).val < win0_4.index t a * S1x81x16x128.size a + S1x81x16x128.size a := by
  show i ∈ ((View.whole main_v113_1).slice (win0_4.rect t)).set ↔ _
  rw [View.set_slice_whole, Rect.mem_set_unit]
  exact Iff.rfl

/-- Every index of the array is in the block of the point of its image and its row's tile. -/
theorem covered4 (i : S8x81x128x128.Idx) : ∃ t : Fin cfg0.N, (cfg0.win 4).flush t = true ∧ i ∈ ((cfg0.win 4).blk t).view.set := by
  have h0 : (i 0).val < 8 := (i 0).isLt
  have h1 : (i 1).val < 81 := (i 1).isLt
  have h2 : (i 2).val < 128 := (i 2).isLt
  have h3 : (i 3).val < 128 := (i 3).isLt
  obtain ⟨t, q0, q2⟩ := onto ⟨(i 0).val, h0⟩ ⟨(i 2).val / 16, by omega⟩
  have q0' : win0_0.index t (0 : Fin 4) = (i 0).val := q0
  have q2' : win0_0.index t (2 : Fin 4) = (i 2).val / 16 := q2
  refine ⟨t, flush0_4 t, ?_⟩
  rw [mem4]
  obtain ⟨g0, g1, g2, g3⟩ := at4 t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 81 ≤ (i 1).val ∧ (i 1).val < win0_4.index t (1 : Fin 4) * 81 + 81; omega
  | ⟨2, _⟩ => show win0_4.index t (2 : Fin 4) * 16 ≤ (i 2).val ∧ (i 2).val < win0_4.index t (2 : Fin 4) * 16 + 16; omega
  | ⟨3, _⟩ => show win0_4.index t (3 : Fin 4) * 128 ≤ (i 3).val ∧ (i 3).val < win0_4.index t (3 : Fin 4) * 128 + 128; omega

/-- Where entry (0, class, row, column) of window 4's block at a point sits in the array. -/
theorem pos4 (t : Fin cfg0.N) (o : Fin 81) (h : Fin 16) (w : Fin 128) :
    ((((cfg0.win 4).blk t).view.emb (ix4 0 o h w)) 0).val = win0_0.index t (0 : Fin 4)
    ∧ ((((cfg0.win 4).blk t).view.emb (ix4 0 o h w)) 1).val = o.val
    ∧ ((((cfg0.win 4).blk t).view.emb (ix4 0 o h w)) 2).val = win0_0.index t (2 : Fin 4) * 16 + h.val
    ∧ ((((cfg0.win 4).blk t).view.emb (ix4 0 o h w)) 3).val = w.val := by
  obtain ⟨g0, g1, g2, g3⟩ := at4 t
  refine ⟨?_, ?_, ?_, ?_⟩
  · show win0_4.index t (0 : Fin 4) * 1 + 1 * 0 = _; omega
  · show win0_4.index t (1 : Fin 4) * 81 + 1 * o.val = _; omega
  · show win0_4.index t (2 : Fin 4) * 16 + 1 * h.val = _; omega
  · show win0_4.index t (3 : Fin 4) * 128 + 1 * w.val = _; omega

/-- An index of the array is in point `t`'s block of window 7 iff each coordinate is in the block's range on its axis. -/
theorem mem7 (t : Fin cfg0.N) (i : S8x81x128x128.Idx) :
    i ∈ ((cfg0.win 7).blk t).view.set ↔ ∀ a : Fin 4, win0_7.index t a * S1x81x16x128.size a ≤ (i a).val ∧ (i a).val < win0_7.index t a * S1x81x16x128.size a + S1x81x16x128.size a := by
  show i ∈ ((View.whole main_v113_4).slice (win0_7.rect t)).set ↔ _
  rw [View.set_slice_whole, Rect.mem_set_unit]
  exact Iff.rfl

/-- Every index of the array is in the block of the point of its image and its row's tile. -/
theorem covered7 (i : S8x81x128x128.Idx) : ∃ t : Fin cfg0.N, (cfg0.win 7).flush t = true ∧ i ∈ ((cfg0.win 7).blk t).view.set := by
  have h0 : (i 0).val < 8 := (i 0).isLt
  have h1 : (i 1).val < 81 := (i 1).isLt
  have h2 : (i 2).val < 128 := (i 2).isLt
  have h3 : (i 3).val < 128 := (i 3).isLt
  obtain ⟨t, q0, q2⟩ := onto ⟨(i 0).val, h0⟩ ⟨(i 2).val / 16, by omega⟩
  have q0' : win0_0.index t (0 : Fin 4) = (i 0).val := q0
  have q2' : win0_0.index t (2 : Fin 4) = (i 2).val / 16 := q2
  refine ⟨t, flush0_7 t, ?_⟩
  rw [mem7]
  obtain ⟨g0, g1, g2, g3⟩ := at7 t
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 81 ≤ (i 1).val ∧ (i 1).val < win0_7.index t (1 : Fin 4) * 81 + 81; omega
  | ⟨2, _⟩ => show win0_7.index t (2 : Fin 4) * 16 ≤ (i 2).val ∧ (i 2).val < win0_7.index t (2 : Fin 4) * 16 + 16; omega
  | ⟨3, _⟩ => show win0_7.index t (3 : Fin 4) * 128 ≤ (i 3).val ∧ (i 3).val < win0_7.index t (3 : Fin 4) * 128 + 128; omega

/-- Where entry (0, class, row, column) of window 7's block at a point sits in the array. -/
theorem pos7 (t : Fin cfg0.N) (o : Fin 81) (h : Fin 16) (w : Fin 128) :
    ((((cfg0.win 7).blk t).view.emb (ix4 0 o h w)) 0).val = win0_0.index t (0 : Fin 4)
    ∧ ((((cfg0.win 7).blk t).view.emb (ix4 0 o h w)) 1).val = o.val
    ∧ ((((cfg0.win 7).blk t).view.emb (ix4 0 o h w)) 2).val = win0_0.index t (2 : Fin 4) * 16 + h.val
    ∧ ((((cfg0.win 7).blk t).view.emb (ix4 0 o h w)) 3).val = w.val := by
  obtain ⟨g0, g1, g2, g3⟩ := at7 t
  refine ⟨?_, ?_, ?_, ?_⟩
  · show win0_7.index t (0 : Fin 4) * 1 + 1 * 0 = _; omega
  · show win0_7.index t (1 : Fin 4) * 81 + 1 * o.val = _; omega
  · show win0_7.index t (2 : Fin 4) * 16 + 1 * h.val = _; omega
  · show win0_7.index t (3 : Fin 4) * 128 + 1 * w.val = _; omega

/-! ## The five-axis windows: where their blocks sit -/

/-- An index of the array is in point `t`'s block of window 5 iff each coordinate is in the block's range on its axis. -/
theorem mem5 (t : Fin cfg0.N) (i : S8x81x1x128x128.Idx) :
    i ∈ ((cfg0.win 5).blk t).view.set ↔ ∀ a : Fin 5, win0_5.index t a * S1x81x1x16x128.size a ≤ (i a).val ∧ (i a).val < win0_5.index t a * S1x81x1x16x128.size a + S1x81x1x16x128.size a := by
  show i ∈ ((View.whole main_v113_2).slice (win0_5.rect t)).set ↔ _
  rw [View.set_slice_whole, Rect.mem_set_unit]
  exact Iff.rfl

/-- Every index of the array is in the block of the point of its image and its row's tile. -/
theorem covered5 (i : S8x81x1x128x128.Idx) : ∃ t : Fin cfg0.N, (cfg0.win 5).flush t = true ∧ i ∈ ((cfg0.win 5).blk t).view.set := by
  have h0 : (i 0).val < 8 := (i 0).isLt
  have h1 : (i 1).val < 81 := (i 1).isLt
  have h2 : (i 2).val < 1 := (i 2).isLt
  have h3 : (i 3).val < 128 := (i 3).isLt
  have h4 : (i 4).val < 128 := (i 4).isLt
  obtain ⟨t, q0, q2⟩ := onto ⟨(i 0).val, h0⟩ ⟨(i 3).val / 16, by omega⟩
  have q0' : win0_0.index t (0 : Fin 4) = (i 0).val := q0
  have q2' : win0_0.index t (2 : Fin 4) = (i 3).val / 16 := q2
  refine ⟨t, flush0_5 t, ?_⟩
  rw [mem5]
  obtain ⟨g0, g1, g2, g3, g4⟩ := at5 t
  intro a
  match a with
  | ⟨0, _⟩ => show win0_5.index t (0 : Fin 5) * 1 ≤ (i 0).val ∧ (i 0).val < win0_5.index t (0 : Fin 5) * 1 + 1; omega
  | ⟨1, _⟩ => show win0_5.index t (1 : Fin 5) * 81 ≤ (i 1).val ∧ (i 1).val < win0_5.index t (1 : Fin 5) * 81 + 81; omega
  | ⟨2, _⟩ => show win0_5.index t (2 : Fin 5) * 1 ≤ (i 2).val ∧ (i 2).val < win0_5.index t (2 : Fin 5) * 1 + 1; omega
  | ⟨3, _⟩ => show win0_5.index t (3 : Fin 5) * 16 ≤ (i 3).val ∧ (i 3).val < win0_5.index t (3 : Fin 5) * 16 + 16; omega
  | ⟨4, _⟩ => show win0_5.index t (4 : Fin 5) * 128 ≤ (i 4).val ∧ (i 4).val < win0_5.index t (4 : Fin 5) * 128 + 128; omega

/-- An index of the array is in point `t`'s block of window 6 iff each coordinate is in the block's range on its axis. -/
theorem mem6 (t : Fin cfg0.N) (i : S8x81x3x128x128.Idx) :
    i ∈ ((cfg0.win 6).blk t).view.set ↔ ∀ a : Fin 5, win0_6.index t a * S1x81x3x16x128.size a ≤ (i a).val ∧ (i a).val < win0_6.index t a * S1x81x3x16x128.size a + S1x81x3x16x128.size a := by
  show i ∈ ((View.whole main_v113_3).slice (win0_6.rect t)).set ↔ _
  rw [View.set_slice_whole, Rect.mem_set_unit]
  exact Iff.rfl

/-- Every index of the array is in the block of the point of its image and its row's tile. -/
theorem covered6 (i : S8x81x3x128x128.Idx) : ∃ t : Fin cfg0.N, (cfg0.win 6).flush t = true ∧ i ∈ ((cfg0.win 6).blk t).view.set := by
  have h0 : (i 0).val < 8 := (i 0).isLt
  have h1 : (i 1).val < 81 := (i 1).isLt
  have h2 : (i 2).val < 3 := (i 2).isLt
  have h3 : (i 3).val < 128 := (i 3).isLt
  have h4 : (i 4).val < 128 := (i 4).isLt
  obtain ⟨t, q0, q2⟩ := onto ⟨(i 0).val, h0⟩ ⟨(i 3).val / 16, by omega⟩
  have q0' : win0_0.index t (0 : Fin 4) = (i 0).val := q0
  have q2' : win0_0.index t (2 : Fin 4) = (i 3).val / 16 := q2
  refine ⟨t, flush0_6 t, ?_⟩
  rw [mem6]
  obtain ⟨g0, g1, g2, g3, g4⟩ := at6 t
  intro a
  match a with
  | ⟨0, _⟩ => show win0_6.index t (0 : Fin 5) * 1 ≤ (i 0).val ∧ (i 0).val < win0_6.index t (0 : Fin 5) * 1 + 1; omega
  | ⟨1, _⟩ => show win0_6.index t (1 : Fin 5) * 81 ≤ (i 1).val ∧ (i 1).val < win0_6.index t (1 : Fin 5) * 81 + 81; omega
  | ⟨2, _⟩ => show win0_6.index t (2 : Fin 5) * 3 ≤ (i 2).val ∧ (i 2).val < win0_6.index t (2 : Fin 5) * 3 + 3; omega
  | ⟨3, _⟩ => show win0_6.index t (3 : Fin 5) * 16 ≤ (i 3).val ∧ (i 3).val < win0_6.index t (3 : Fin 5) * 16 + 16; omega
  | ⟨4, _⟩ => show win0_6.index t (4 : Fin 5) * 128 ≤ (i 4).val ∧ (i 4).val < win0_6.index t (4 : Fin 5) * 128 + 128; omega

/-! ## What each point writes back -/

/-- Window 7: the scores of the distances to the class representatives. -/
theorem flushed7 (c : Dev nD) (t : Fin cfg0.N) :
    (dats m 0 c).flushed 7 t = ((cfg0.win 7).blk t).view.read (Elt Ideal) (fun i => probsOri (inp m c) (reps m c) i) := by
  show (cfg0.win 7).cut (grid0.coords t) ((dats m 0 c).after 7 t) = _
  rw [after7]
  unfold left7
  rw [View.canon_unit_zero z4]
  simp only [View.ld_unit_zero (S := S1x128x16x128) z4, View.ld_unit_zero (S := S128x81) z2]
  funext j
  obtain ⟨a0, o, h, w, rfl⟩ : ∃ (a0 : Fin 1) (o : Fin 81) (h : Fin 16) (w : Fin 128), j = ix4 a0 o h w := ⟨j 0, j 1, j 2, j 3, eq_ix4 j⟩
  obtain rfl : a0 = 0 := Subsingleton.elim _ _
  show k0_pay7 (k0_pay5 (blockAt m c 0 t) (blockAt m c 1 t)) (ix4 0 o h w) = probsOri (inp m c) (reps m c) (((cfg0.win 7).blk t).view.emb (ix4 0 o h w))
  refine (pay7_apply (blockAt m c 0 t) (blockAt m c 1 t) o h w).trans ?_
  obtain ⟨e0, e1, e2, e3⟩ := pos7 t o h w
  exact congrArg gauss (congrArg₂ dist (pixel_eq m c t h w _ _ _ e0 e2 e3) (column_eq m c t o _ e1))

/-- Window 5: the distances to the class representatives. -/
theorem flushed5 (c : Dev nD) (t : Fin cfg0.N) :
    (dats m 0 c).flushed 5 t = ((cfg0.win 5).blk t).view.read (Elt Ideal) (fun i => distances (inp m c) (reps m c) i) := by
  show (cfg0.win 5).cut (grid0.coords t) ((dats m 0 c).after 5 t) = _
  rw [after5]
  unfold left5
  rw [View.canon_unit_zero z5]
  simp only [View.ld_unit_zero (S := S1x128x16x128) z4, View.ld_unit_zero (S := S128x81) z2]
  funext j
  obtain ⟨a0, o, a2, h, w, rfl⟩ : ∃ (a0 : Fin 1) (o : Fin 81) (a2 : Fin 1) (h : Fin 16) (w : Fin 128), j = ix5 a0 o a2 h w := ⟨j 0, j 1, j 2, j 3, j 4, eq_ix5 j⟩
  obtain rfl : a0 = 0 := Subsingleton.elim _ _
  obtain rfl : a2 = 0 := Subsingleton.elim _ _
  show k0_pay6 (blockAt m c 0 t) (blockAt m c 1 t) (ix5 0 o 0 h w) = distances (inp m c) (reps m c) (((cfg0.win 5).blk t).view.emb (ix5 0 o 0 h w))
  refine (pay6_apply (blockAt m c 0 t) (blockAt m c 1 t) o h w).trans ?_
  obtain ⟨g0, g1, g2, g3, g4⟩ := at5 t
  exact congrArg₂ dist
    (pixel_eq m c t h w _ _ _
      (show win0_5.index t (0 : Fin 5) * 1 + 1 * 0 = _ by omega)
      (show win0_5.index t (3 : Fin 5) * 16 + 1 * h.val = _ by omega)
      (show win0_5.index t (4 : Fin 5) * 128 + 1 * w.val = _ by omega))
    (column_eq m c t o _ (show win0_5.index t (1 : Fin 5) * 81 + 1 * o.val = _ by omega))

/-- Window 4: the best negative score. -/
theorem flushed4 (c : Dev nD) (t : Fin cfg0.N) :
    (dats m 0 c).flushed 4 t = ((cfg0.win 4).blk t).view.read (Elt Ideal) (fun i => clsScoreNeg (inp m c) (negs m c) i) := by
  show (cfg0.win 4).cut (grid0.coords t) ((dats m 0 c).after 4 t) = _
  rw [after4]
  unfold left4 unitRows
  rw [View.canon_unit_zero z4]
  simp only [View.ld_unit_zero (S := S1x128x16x128) z4]
  funext j
  obtain ⟨a0, o, h, w, rfl⟩ : ∃ (a0 : Fin 1) (o : Fin 81) (h : Fin 16) (w : Fin 128), j = ix4 a0 o h w := ⟨j 0, j 1, j 2, j 3, eq_ix4 j⟩
  obtain rfl : a0 = 0 := Subsingleton.elim _ _
  show k0_pay1 (k0_pay17 (k0_pay3 (blockAt m c 0 t)) (k0_pay10 (k0_pay3 (blockAt m c 0 t)) (View.ld (blockAt m c 2 t) boxN0)) (k0_pay11 (k0_pay3 (blockAt m c 0 t)) (View.ld (blockAt m c 2 t) boxN1)) k0_pay12 (View.ld (blockAt m c 2 t) boxN2)) (ix4 0 o h w)
    = clsScoreNeg (inp m c) (negs m c) (((cfg0.win 4).blk t).view.emb (ix4 0 o h w))
  refine (pay1_apply (blockAt m c 0 t) (View.ld (blockAt m c 2 t) boxN0) (View.ld (blockAt m c 2 t) boxN1) (View.ld (blockAt m c 2 t) boxN2) o h w).trans ?_
  obtain ⟨e0, e1, e2, e3⟩ := pos4 t o h w
  have hp := pixel_eq m c t h w _ _ _ e0 e2 e3
  exact maxScore3_congr (congrArg₂ dist hp (neg_column0 m c t o _ 0 e1 rfl)) (congrArg₂ dist hp (neg_column1 m c t o _ 1 e1 rfl))
    (congrArg₂ dist hp (neg_column2 m c t o _ 2 e1 rfl))

/-- Window 3: the class scores, normalised over the classes. -/
theorem flushed3 (c : Dev nD) (t : Fin cfg0.N) :
    (dats m 0 c).flushed 3 t = ((cfg0.win 3).blk t).view.read (Elt Ideal) (fun i => clsScore (inp m c) (reps m c) (negs m c) i) := by
  show (cfg0.win 3).cut (grid0.coords t) ((dats m 0 c).after 3 t) = _
  rw [after3]
  unfold left3 unitRows
  rw [View.canon_unit_zero z4]
  simp only [View.ld_unit_zero (S := S1x128x16x128) z4, View.ld_unit_zero (S := S128x81) z2]
  funext j
  obtain ⟨a0, o, h, w, rfl⟩ : ∃ (a0 : Fin 1) (o : Fin 81) (h : Fin 16) (w : Fin 128), j = ix4 a0 o h w := ⟨j 0, j 1, j 2, j 3, eq_ix4 j⟩
  obtain rfl : a0 = 0 := Subsingleton.elim _ _
  show k0_pay2 (k0_pay4 (blockAt m c 0 t) (blockAt m c 1 t)) (k0_pay18 (k0_pay3 (blockAt m c 0 t)) (k0_pay8 (k0_pay3 (blockAt m c 0 t)) (View.ld (blockAt m c 2 t) boxN0)) (k0_pay11 (k0_pay3 (blockAt m c 0 t)) (View.ld (blockAt m c 2 t) boxN1)) k0_pay12 (View.ld (blockAt m c 2 t) boxN2)) (ix4 0 o h w)
    = clsScore (inp m c) (reps m c) (negs m c) (((cfg0.win 3).blk t).view.emb (ix4 0 o h w))
  refine (pay2_spec (blockAt m c 0 t) (blockAt m c 1 t) (View.ld (blockAt m c 2 t) boxN0) (View.ld (blockAt m c 2 t) boxN1) (View.ld (blockAt m c 2 t) boxN2) o h w).trans ?_
  obtain ⟨e0, e1, e2, e3⟩ := pos3 t o h w
  have hp := pixel_eq m c t h w _ _ _ e0 e2 e3
  have key : ∀ (o1 o2 : Fin 81), o2.val = o1.val →
      combined (dist (pixB (blockAt m c 0 t) h w) (colR (blockAt m c 1 t) o1))
          (min3 (dist (pixB (blockAt m c 0 t) h w) (colN (View.ld (blockAt m c 2 t) boxN0) o1)) (dist (pixB (blockAt m c 0 t) h w) (colN (View.ld (blockAt m c 2 t) boxN1) o1)) (dist (pixB (blockAt m c 0 t) h w) (colN (View.ld (blockAt m c 2 t) boxN2) o1)))
        = prob (inp m c) (reps m c) (negs m c) ((((cfg0.win 3).blk t).view.emb (ix4 0 o h w)) 0) o2
            ((((cfg0.win 3).blk t).view.emb (ix4 0 o h w)) 2) ((((cfg0.win 3).blk t).view.emb (ix4 0 o h w)) 3) := fun o1 o2 ho =>
    combined_congr (congrArg₂ dist hp (column_eq m c t o1 o2 ho))
      (min3_congr (congrArg₂ dist hp (neg_column0 m c t o1 o2 0 ho rfl)) (congrArg₂ dist hp (neg_column1 m c t o1 o2 1 ho rfl))
        (congrArg₂ dist hp (neg_column2 m c t o1 o2 2 ho rfl)))
  exact congrArg₂ Ideal.div (key o _ e1) (Finset.sum_congr rfl fun o' _ => key o' o' rfl)

/-- Window 6: the distances to the negative representatives, stored as three slices along the mode axis. -/
theorem flushed6 (c : Dev nD) (t : Fin cfg0.N) :
    (dats m 0 c).flushed 6 t = ((cfg0.win 6).blk t).view.read (Elt Ideal) (fun i => distancesNeg (inp m c) (negs m c) i) := by
  show (cfg0.win 6).cut (grid0.coords t) ((dats m 0 c).after 6 t) = _
  rw [after6]
  unfold left6 unitRows
  simp only [View.ld_unit_zero (S := S1x128x16x128) z4]
  funext j
  show View.canon ([⟨boxE2, k0_pay16 (k0_pay3 (blockAt m c 0 t)) (View.ld (blockAt m c 2 t) boxN2)⟩, ⟨boxE1, k0_pay14 (k0_pay11 (k0_pay3 (blockAt m c 0 t)) (View.ld (blockAt m c 2 t) boxN1)) k0_pay12⟩,
      ⟨boxE0, k0_pay9 (k0_pay3 (blockAt m c 0 t)) (View.ld (blockAt m c 2 t) boxN0)⟩] : List (View.Piece (Elt Ideal) S1x81x3x16x128 .f32)) j = distancesNeg (inp m c) (negs m c) (((cfg0.win 6).blk t).view.emb j)
  refine View.canon_apply_of_pieces (show S1x81x3x16x128.Idx → Elt Ideal .f32 from fun y => distancesNeg (inp m c) (negs m c) (((cfg0.win 6).blk t).view.emb y)) _ ?_ j (coverE _ _ _ j)
  intro p hp x
  simp only [List.mem_cons, List.not_mem_nil, or_false] at hp
  rcases hp with rfl | rfl | rfl
  · obtain ⟨a0, o, a2, h, w, rfl⟩ : ∃ (a0 : Fin 1) (o : Fin 81) (a2 : Fin 1) (h : Fin 16) (w : Fin 128), x = ix5 a0 o a2 h w := ⟨x 0, x 1, x 2, x 3, x 4, eq_ix5 x⟩
    obtain rfl : a0 = 0 := Subsingleton.elim _ _
    obtain rfl : a2 = 0 := Subsingleton.elim _ _
    refine (pay16_apply (blockAt m c 0 t) (View.ld (blockAt m c 2 t) boxN2) o h w).trans ?_
    obtain ⟨g0, g1, g2, g3, g4⟩ := at6 t
    exact congrArg₂ dist
      (pixel_eq m c t h w _ _ _
        (show win0_6.index t (0 : Fin 5) * 1 + 1 * (0 + 1 * 0) = _ by omega)
        (show win0_6.index t (3 : Fin 5) * 16 + 1 * (0 + 1 * h.val) = _ by omega)
        (show win0_6.index t (4 : Fin 5) * 128 + 1 * (0 + 1 * w.val) = _ by omega))
      (neg_column2 m c t o _ _
        (show win0_6.index t (1 : Fin 5) * 81 + 1 * (0 + 1 * o.val) = _ by omega)
        (show win0_6.index t (2 : Fin 5) * 3 + 1 * (2 + 1 * 0) = _ by omega))
  · obtain ⟨a0, o, a2, h, w, rfl⟩ : ∃ (a0 : Fin 1) (o : Fin 81) (a2 : Fin 1) (h : Fin 16) (w : Fin 128), x = ix5 a0 o a2 h w := ⟨x 0, x 1, x 2, x 3, x 4, eq_ix5 x⟩
    obtain rfl : a0 = 0 := Subsingleton.elim _ _
    obtain rfl : a2 = 0 := Subsingleton.elim _ _
    refine (pay14_apply (blockAt m c 0 t) (View.ld (blockAt m c 2 t) boxN1) o h w).trans ?_
    obtain ⟨g0, g1, g2, g3, g4⟩ := at6 t
    exact congrArg₂ dist
      (pixel_eq m c t h w _ _ _
        (show win0_6.index t (0 : Fin 5) * 1 + 1 * (0 + 1 * 0) = _ by omega)
        (show win0_6.index t (3 : Fin 5) * 16 + 1 * (0 + 1 * h.val) = _ by omega)
        (show win0_6.index t (4 : Fin 5) * 128 + 1 * (0 + 1 * w.val) = _ by omega))
      (neg_column1 m c t o _ _
        (show win0_6.index t (1 : Fin 5) * 81 + 1 * (0 + 1 * o.val) = _ by omega)
        (show win0_6.index t (2 : Fin 5) * 3 + 1 * (1 + 1 * 0) = _ by omega))
  · obtain ⟨a0, o, a2, h, w, rfl⟩ : ∃ (a0 : Fin 1) (o : Fin 81) (a2 : Fin 1) (h : Fin 16) (w : Fin 128), x = ix5 a0 o a2 h w := ⟨x 0, x 1, x 2, x 3, x 4, eq_ix5 x⟩
    obtain rfl : a0 = 0 := Subsingleton.elim _ _
    obtain rfl : a2 = 0 := Subsingleton.elim _ _
    refine (pay9_apply (blockAt m c 0 t) (View.ld (blockAt m c 2 t) boxN0) o h w).trans ?_
    obtain ⟨g0, g1, g2, g3, g4⟩ := at6 t
    exact congrArg₂ dist
      (pixel_eq m c t h w _ _ _
        (show win0_6.index t (0 : Fin 5) * 1 + 1 * (0 + 1 * 0) = _ by omega)
        (show win0_6.index t (3 : Fin 5) * 16 + 1 * (0 + 1 * h.val) = _ by omega)
        (show win0_6.index t (4 : Fin 5) * 128 + 1 * (0 + 1 * w.val) = _ by omega))
      (neg_column0 m c t o _ _
        (show win0_6.index t (1 : Fin 5) * 81 + 1 * (0 + 1 * o.val) = _ by omega)
        (show win0_6.index t (2 : Fin 5) * 3 + 1 * (0 + 1 * 0) = _ by omega))

/-! ## The arrays after the run -/

theorem final3 (c : Dev nD) : (dats m 0 c).arrAt 3 cfg0.N = fun i => clsScore (inp m c) (reps m c) (negs m c) i :=
  (dats m 0 c).arrAt_eq_of_cover 3 _ (fun t _ => flushed3 m c t) covered3
theorem final4 (c : Dev nD) : (dats m 0 c).arrAt 4 cfg0.N = fun i => clsScoreNeg (inp m c) (negs m c) i :=
  (dats m 0 c).arrAt_eq_of_cover 4 _ (fun t _ => flushed4 m c t) covered4
theorem final5 (c : Dev nD) : (dats m 0 c).arrAt 5 cfg0.N = fun i => distances (inp m c) (reps m c) i :=
  (dats m 0 c).arrAt_eq_of_cover 5 _ (fun t _ => flushed5 m c t) covered5
theorem final6 (c : Dev nD) : (dats m 0 c).arrAt 6 cfg0.N = fun i => distancesNeg (inp m c) (negs m c) i :=
  (dats m 0 c).arrAt_eq_of_cover 6 _ (fun t _ => flushed6 m c t) covered6
theorem final7 (c : Dev nD) : (dats m 0 c).arrAt 7 cfg0.N = fun i => probsOri (inp m c) (reps m c) i :=
  (dats m 0 c).arrAt_eq_of_cover 7 _ (fun t _ => flushed7 m c t) covered7

/-! ## The kernel's run, read -/

/-- Every weakly fair execution of the idealized kernel terminates with each result array at its function of the input and
    the two normalised weight arrays, and the five arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v113_0) = (fun i => clsScore (inp m c) (reps m c) (negs m c) i)
      ∧ r.2.mem ((c.tc : Thread nD τ).loc main_v113_1) = (fun i => clsScoreNeg (inp m c) (negs m c) i)
      ∧ r.2.mem ((c.tc : Thread nD τ).loc main_v113_2) = (fun i => distances (inp m c) (reps m c) i)
      ∧ r.2.mem ((c.tc : Thread nD τ).loc main_v113_3) = (fun i => distancesNeg (inp m c) (negs m c) i)
      ∧ r.2.mem ((c.tc : Thread nD τ).loc main_v113_4) = (fun i => probsOri (inp m c) (reps m c) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 3).trans (final3 m c), ((h c).1 4).trans (final4 m c), ((h c).1 5).trans (final5 m c),
      ((h c).1 6).trans (final6 m c), ((h c).1 7).trans (final7 m c),
      (((h c).1 0).trans (((dats m 0 c).arrAt_in 0 rfl _).trans (arrays_eq m c 0))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c)⟩)
    (grid_run m ρ)

end Cert.KernelIdeal.Place

end
-- ==== Proof.RefDist.lean ====
import proofs.«137945_j73349451481901_1_alg».proof.Proof.Gen.ReferenceIdeal.Read
import proofs.«137945_j73349451481901_1_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.DmlSpec

/-- The reference's normalised input at (n, c, h, w) is channel c of pixel (n, h, w)'s unit vector. -/
theorem unit_apply (x0 : (⟨S8x128x128x128, .f32⟩ : BufTy).Contents (Elt Ideal)) (n : Fin 8) (c h w : Fin 128) :
    Read.val_main_v7 (F := Ideal) x0 (ix4 n c h w) = unit (pix x0 n h w) c := by
  rw [Read.val_main_v7_apply, Read.val_main_v6_apply, Read.val_main_v5_apply, Read.val_main_v3_apply,
    Read.val_main_v2_apply, Read.val_main_v1_apply, Read.val_main_v4_apply, Read.val_main_cst_0_apply,
    Read.val_main_cst_apply]
  have e : ∀ k : Fin 128, Read.idx_main_v1 (Read.idx_main_v2 (Read.idx_main_v6 (ix4 n c h w))) k = ix4 n k h w :=
    fun k => funext fun a => Fin.ext (by match a with | ⟨0, _⟩ => rfl | ⟨1, _⟩ => rfl | ⟨2, _⟩ => rfl | ⟨3, _⟩ => rfl)
  simp only [Read.val_main_v0_apply, e, Ideal.hostDivf_def, Ideal.maximumf_def, Ideal.hostUnary_sqrt_def,
    Ideal.mulf_def, Ideal.ofBits_def, Ideal.ofBits_zero_f32, zero_add]
  rfl

/-- The contraction of the class representatives with the normalised input over the channels, transposed to
    (image, class, mode, row, column), is the inner product of the pixel's unit vector with the representative. -/
theorem dotMain_apply (x0 : (⟨S8x128x128x128, .f32⟩ : BufTy).Contents (Elt Ideal))
    (x1 x2 : (⟨S10368, .f32⟩ : BufTy).Contents (Elt Ideal)) (n : Fin 8) (o : Fin 81) (h w : Fin 128) :
    Read.val_main_v120 (F := Ideal) x0 x1 x2 (ix5 n o (0 : Fin 1) h w)
      = inner (pix x0 n h w) (fun c => Read.val_main_v18 (F := Ideal) x1 x2 (ix3 o 0 c)) := by
  rw [Read.val_main_v120_apply, Read.val_main_v119_apply]
  refine Finset.sum_congr rfl fun k _ => ?_
  have el : Read.lidx_main_v119 (Read.idx_main_v120 (ix5 n o (0 : Fin 1) h w)) k = ix3 o 0 k :=
    funext fun a => Fin.ext (by match a with | ⟨0, _⟩ => rfl | ⟨1, _⟩ => rfl | ⟨2, _⟩ => rfl)
  have er : Read.idx_main_v8 (Read.ridx_main_v119 (Read.idx_main_v120 (ix5 n o (0 : Fin 1) h w)) k) = ix4 n k h w :=
    funext fun a => Fin.ext (by match a with | ⟨0, _⟩ => rfl | ⟨1, _⟩ => rfl | ⟨2, _⟩ => rfl | ⟨3, _⟩ => rfl)
  rw [Read.val_main_v8_apply, el, er, unit_apply]
  exact mul_comm _ _

/-- The same contraction with the negative representatives. -/
theorem dotNeg_apply (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) (n : Fin 8) (o : Fin 81) (k : Fin 3) (h w : Fin 128) :
    Read.val_main_v128 (F := Ideal) x0 x1 x2 x3 x4 (ix5 n o k h w)
      = inner (pix x0 n h w) (fun c => Read.val_main_v118 (F := Ideal) x1 x2 x3 x4 (ix3 o k c)) := by
  rw [Read.val_main_v128_apply, Read.val_main_v127_apply]
  refine Finset.sum_congr rfl fun q _ => ?_
  have el : Read.lidx_main_v127 (Read.idx_main_v128 (ix5 n o k h w)) q = ix3 o k q :=
    funext fun a => Fin.ext (by match a with | ⟨0, _⟩ => rfl | ⟨1, _⟩ => rfl | ⟨2, _⟩ => rfl)
  have er : Read.idx_main_v8 (Read.ridx_main_v127 (Read.idx_main_v128 (ix5 n o k h w)) q) = ix4 n q h w :=
    funext fun a => Fin.ext (by match a with | ⟨0, _⟩ => rfl | ⟨1, _⟩ => rfl | ⟨2, _⟩ => rfl | ⟨3, _⟩ => rfl)
  rw [Read.val_main_v8_apply, el, er, unit_apply]
  exact mul_comm _ _

/-- Result 2 of the reference, at an index given by its coordinates. -/
theorem distances_ix (x0 : (⟨S8x128x128x128, .f32⟩ : BufTy).Contents (Elt Ideal))
    (x1 x2 : (⟨S10368, .f32⟩ : BufTy).Contents (Elt Ideal)) (n : Fin 8) (o : Fin 81) (h w : Fin 128) :
    Read.val_main_v126 (F := Ideal) x0 x1 x2 (ix5 n o (0 : Fin 1) h w)
      = dMain x0 (Read.val_main_v18 (F := Ideal) x1 x2) n o h w := by
  rw [Read.val_main_v126_apply, Read.val_main_v125_apply, Read.val_main_v124_apply, Read.val_main_v123_apply,
    Read.val_main_cst_6_apply, Read.val_main_v122_apply, Read.val_main_v121_apply, Read.val_main_cst_5_apply,
    Read.val_main_call6_v0_apply, Read.val_main_call6_cst_apply, dotMain_apply]
  simp only [Ideal.maximumf_def, Ideal.hostUnary_sqrt_def, Ideal.mulf_def, Ideal.subf_def, Ideal.ofBits_def,
    Ideal.ofBits_zero_f32]
  rfl

/-- Result 3 of the reference, at an index given by its coordinates. -/
theorem distancesNeg_ix (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) (n : Fin 8) (o : Fin 81) (k : Fin 3) (h w : Fin 128) :
    Read.val_main_v134 (F := Ideal) x0 x1 x2 x3 x4 (ix5 n o k h w)
      = dNeg x0 (Read.val_main_v118 (F := Ideal) x1 x2 x3 x4) n o k h w := by
  rw [Read.val_main_v134_apply, Read.val_main_v133_apply, Read.val_main_v132_apply, Read.val_main_v131_apply,
    Read.val_main_cst_8_apply, Read.val_main_v130_apply, Read.val_main_v129_apply, Read.val_main_cst_7_apply,
    Read.val_main_call7_v0_apply, Read.val_main_call7_cst_apply, dotNeg_apply]
  simp only [Ideal.maximumf_def, Ideal.hostUnary_sqrt_def, Ideal.mulf_def, Ideal.subf_def, Ideal.ofBits_def,
    Ideal.ofBits_zero_f32]
  rfl

/-- Result 2 of the reference is the distances to the class representatives. -/
theorem distances_apply (x0 : (⟨S8x128x128x128, .f32⟩ : BufTy).Contents (Elt Ideal))
    (x1 x2 : (⟨S10368, .f32⟩ : BufTy).Contents (Elt Ideal)) (i : S8x81x1x128x128.Idx) :
    Read.val_main_v126 (F := Ideal) x0 x1 x2 i = distances x0 (Read.val_main_v18 (F := Ideal) x1 x2) i := by
  obtain ⟨n, o, z, h, w, rfl⟩ : ∃ (n : Fin 8) (o : Fin 81) (z : Fin 1) (h w : Fin 128), i = ix5 n o z h w :=
    ⟨i 0, i 1, i 2, i 3, i 4, eq_ix5 i⟩
  obtain rfl : z = 0 := Subsingleton.elim _ _
  exact distances_ix x0 x1 x2 n o h w

/-- Result 3 of the reference is the distances to the negative representatives. -/
theorem distancesNeg_apply (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) (i : S8x81x3x128x128.Idx) :
    Read.val_main_v134 (F := Ideal) x0 x1 x2 x3 x4 i
      = distancesNeg x0 (Read.val_main_v118 (F := Ideal) x1 x2 x3 x4) i := by
  obtain ⟨n, o, k, h, w, rfl⟩ : ∃ (n : Fin 8) (o : Fin 81) (k : Fin 3) (h w : Fin 128), i = ix5 n o k h w :=
    ⟨i 0, i 1, i 2, i 3, i 4, eq_ix5 i⟩
  exact distancesNeg_ix x0 x1 x2 x3 x4 n o k h w

end Cert.ReferenceIdeal.RefValue

end
-- ==== Proof.RefScores.lean ====
import proofs.«137945_j73349451481901_1_alg».proof.Proof.RefDist
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.DmlSpec

/-! ## Folds over one and over three modes -/

/-- A fold over the one-element index set is the operation applied once. -/
theorem fold_univ_fin1 {α : Type} (f : α → α → α) [Std.Commutative f] [Std.Associative f] (b : α) (g : Fin 1 → α) :
    (Finset.univ : Finset (Fin 1)).fold f b g = f (g 0) b := by
  simp only [Finset.univ_unique, Finset.fold_singleton]
  rfl

/-- A fold over three elements, written out. -/
theorem fold_univ_fin3 {α : Type} (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

/-- The word of −∞ is the least extended real. -/
theorem negInf_eq_bot : Ideal.ofBits .f32 0xFF800000#32 = (⊥ : EReal) := by
  simp [Ideal.ofBits, Ideal.ieee]

/-- The word of +∞ is the greatest extended real. -/
theorem posInf_eq_top : Ideal.ofBits .f32 0x7F800000#32 = (⊤ : EReal) := by
  simp [Ideal.ofBits, Ideal.ieee]

/-- The index (n, o, h, w) with coordinate k inserted on the single-mode axis. -/
theorem lift1_ix (hr : S8x81x1x128x128.Reduces [2] S8x81x128x128) (n : Fin 8) (o : Fin 81) (h w : Fin 128)
    (k : Fin (S8x81x1x128x128.size 2)) :
    hr.lift (ix4 n o h w) k = ix5 n o (⟨k.val, k.isLt⟩ : Fin 1) h w := by
  funext c; apply Fin.ext
  fin_cases c <;> rfl

/-- The index (n, o, h, w) with coordinate k inserted on the three-mode axis. -/
theorem lift3_ix (hr : S8x81x3x128x128.Reduces [2] S8x81x128x128) (n : Fin 8) (o : Fin 81) (h w : Fin 128)
    (k : Fin (S8x81x3x128x128.size 2)) :
    hr.lift (ix4 n o h w) k = ix5 n o (⟨k.val, k.isLt⟩ : Fin 3) h w := by
  funext c; apply Fin.ext
  fin_cases c <;> rfl

/-- From −∞ the maximum over the single mode is the value at that mode. -/
theorem reduceMax1_apply (y : S8x81x1x128x128.Idx → Ideal .f32) (n : Fin 8) (o : Fin 81) (h w : Fin 128) :
    Host.reduce FloatOps.maximumf y (Read.val_main_cst_12 (F := Ideal)) reducesTo_S8x81x1x128x128_S8x81x128x128_d2 h_S_
      (ix4 n o h w) = y (ix5 n o (0 : Fin 1) h w) := by
  have hr : S8x81x1x128x128.Reduces [2] S8x81x128x128 := by decide
  rw [Host.reduce_eq_fold_single FloatOps.maximumf y _ reducesTo_S8x81x1x128x128_S8x81x128x128_d2 hr h_S_]
  have hf : (y ∘ hr.lift (ix4 n o h w)) = fun k : Fin 1 => y (ix5 n o (⟨k.val, k.isLt⟩ : Fin 1) h w) :=
    funext fun k => congrArg y (lift1_ix hr n o h w k)
  refine (congrArg (fun f => Finset.fold FloatOps.maximumf _ f (Finset.univ : Finset (Fin 1))) hf).trans ?_
  rw [fold_univ_fin1, Read.val_main_cst_12_apply]
  simp only [Ideal.maximumf_def, Ideal.ofBits_def, negInf_eq_bot, max_bot_right]

/-- From −∞ the maximum over the three modes is the maximum of the three values. -/
theorem reduceMax3_apply (y : S8x81x3x128x128.Idx → Ideal .f32) (n : Fin 8) (o : Fin 81) (h w : Fin 128) :
    Host.reduce FloatOps.maximumf y (Read.val_main_cst_10 (F := Ideal)) reducesTo_S8x81x3x128x128_S8x81x128x128_d2 h_S_
      (ix4 n o h w)
      = max (max (y (ix5 n o (0 : Fin 3) h w)) (y (ix5 n o (1 : Fin 3) h w))) (y (ix5 n o (2 : Fin 3) h w)) := by
  have hr : S8x81x3x128x128.Reduces [2] S8x81x128x128 := by decide
  rw [Host.reduce_eq_fold_single FloatOps.maximumf y _ reducesTo_S8x81x3x128x128_S8x81x128x128_d2 hr h_S_]
  have hf : (y ∘ hr.lift (ix4 n o h w)) = fun k : Fin 3 => y (ix5 n o (⟨k.val, k.isLt⟩ : Fin 3) h w) :=
    funext fun k => congrArg y (lift3_ix hr n o h w k)
  refine (congrArg (fun f => Finset.fold FloatOps.maximumf _ f (Finset.univ : Finset (Fin 3))) hf).trans ?_
  rw [fold_univ_fin3, Read.val_main_cst_10_apply]
  simp only [Ideal.maximumf_def, Ideal.ofBits_def, negInf_eq_bot, max_bot_right]
  exact (max_assoc _ _ _).symm

/-- From +∞ the minimum over the three modes is the minimum of the three values. -/
theorem reduceMin3_apply (y : S8x81x3x128x128.Idx → Ideal .f32) (n : Fin 8) (o : Fin 81) (h w : Fin 128) :
    Host.reduce FloatOps.minimumf y (Read.val_main_cst_13 (F := Ideal)) reducesTo_S8x81x3x128x128_S8x81x128x128_d2 h_S_
      (ix4 n o h w)
      = min (min (y (ix5 n o (0 : Fin 3) h w)) (y (ix5 n o (1 : Fin 3) h w))) (y (ix5 n o (2 : Fin 3) h w)) := by
  have hr : S8x81x3x128x128.Reduces [2] S8x81x128x128 := by decide
  rw [Host.reduce_eq_fold_single FloatOps.minimumf y _ reducesTo_S8x81x3x128x128_S8x81x128x128_d2 hr h_S_]
  have hf : (y ∘ hr.lift (ix4 n o h w)) = fun k : Fin 3 => y (ix5 n o (⟨k.val, k.isLt⟩ : Fin 3) h w) :=
    funext fun k => congrArg y (lift3_ix hr n o h w k)
  refine (congrArg (fun f => Finset.fold FloatOps.minimumf _ f (Finset.univ : Finset (Fin 3))) hf).trans ?_
  rw [fold_univ_fin3, Read.val_main_cst_13_apply]
  simp only [Ideal.minimumf_def, Ideal.ofBits_def, posInf_eq_top, min_top_right]
  exact (min_assoc _ _ _).symm

/-! ## The three score results -/

/-- The score of a distance, as the reference computes it: square, negate, double, exponentiate. -/
theorem gauss_eq (d : EReal) : Ideal.exp (-(d * d) * Ideal.ofBits .f32 0x40000000#32) = gauss d := rfl

/-- Result 4 of the reference, at an index given by its coordinates. -/
theorem probsOri_ix (x0 : (⟨S8x128x128x128, .f32⟩ : BufTy).Contents (Elt Ideal))
    (x1 x2 : (⟨S10368, .f32⟩ : BufTy).Contents (Elt Ideal)) (n : Fin 8) (o : Fin 81) (h w : Fin 128) :
    Read.val_main_v146 (F := Ideal) x0 x1 x2 (ix4 n o h w)
      = gauss (dMain x0 (Read.val_main_v18 (F := Ideal) x1 x2) n o h w) := by
  unfold Read.val_main_v146
  refine (reduceMax1_apply _ n o h w).trans ?_
  rw [Read.val_main_v145_apply, Read.val_main_v144_apply, Read.val_main_v143_apply, Read.val_main_cst_11_apply,
    Read.val_main_v142_apply, Read.val_main_v141_apply, distances_ix]
  simp only [Ideal.hostUnary_exp_def, Ideal.mulf_def, Ideal.hostNegf_def, Ideal.negf_def, Ideal.ofBits_def]
  rfl

/-- The score of the distance to a negative representative, at an index given by its coordinates. -/
theorem scoreNeg_ix (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) (n : Fin 8) (o : Fin 81) (k : Fin 3) (h w : Fin 128) :
    Read.val_main_v139 (F := Ideal) x0 x1 x2 x3 x4 (ix5 n o k h w)
      = gauss (dNeg x0 (Read.val_main_v118 (F := Ideal) x1 x2 x3 x4) n o k h w) := by
  rw [Read.val_main_v139_apply, Read.val_main_v138_apply, Read.val_main_v137_apply, Read.val_main_cst_9_apply,
    Read.val_main_v136_apply, Read.val_main_v135_apply, distancesNeg_ix]
  simp only [Ideal.hostUnary_exp_def, Ideal.mulf_def, Ideal.hostNegf_def, Ideal.negf_def, Ideal.ofBits_def]
  rfl

/-- Result 1 of the reference, at an index given by its coordinates. -/
theorem clsScoreNeg_ix (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) (n : Fin 8) (o : Fin 81) (h w : Fin 128) :
    Read.val_main_v140 (F := Ideal) x0 x1 x2 x3 x4 (ix4 n o h w)
      = maxNegScore x0 (Read.val_main_v118 (F := Ideal) x1 x2 x3 x4) n o h w := by
  unfold Read.val_main_v140
  refine (reduceMax3_apply _ n o h w).trans ?_
  rw [scoreNeg_ix, scoreNeg_ix, scoreNeg_ix]
  rfl

/-- The nearest negative representative's distance, as the reference's minimum over the three modes. -/
theorem minNeg_ix (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) (n : Fin 8) (o : Fin 81) (h w : Fin 128) :
    Read.val_main_v147 (F := Ideal) x0 x1 x2 x3 x4 (ix4 n o h w)
      = minNeg x0 (Read.val_main_v118 (F := Ideal) x1 x2 x3 x4) n o h w := by
  unfold Read.val_main_v147
  refine (reduceMin3_apply _ n o h w).trans ?_
  rw [distancesNeg_ix, distancesNeg_ix, distancesNeg_ix]
  rfl

/-- The combined score before normalisation: the reference's sum over the single mode. -/
theorem prob_ix (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) (n : Fin 8) (o : Fin 81) (h w : Fin 128) :
    Read.val_main_v160 (F := Ideal) x0 x1 x2 x3 x4 (ix4 n o h w)
      = prob x0 (Read.val_main_v18 (F := Ideal) x1 x2) (Read.val_main_v118 (F := Ideal) x1 x2 x3 x4) n o h w := by
  have e0 : Read.idx_main_v160 (ix4 n o h w) (0 : Fin 1) = ix5 n o (0 : Fin 1) h w :=
    funext fun a => Fin.ext (by match a with | ⟨0, _⟩ => rfl | ⟨1, _⟩ => rfl | ⟨2, _⟩ => rfl | ⟨3, _⟩ => rfl | ⟨4, _⟩ => rfl)
  have e1 : Read.idx_main_v148 (ix5 n o (0 : Fin 1) h w) = ix4 n o h w :=
    funext fun a => Fin.ext (by match a with | ⟨0, _⟩ => rfl | ⟨1, _⟩ => rfl | ⟨2, _⟩ => rfl | ⟨3, _⟩ => rfl)
  rw [Read.val_main_v160_apply, Read.val_main_cst_17_apply, Fin.sum_univ_one, e0,
    Read.val_main_v159_apply, Read.val_main_v158_apply, Read.val_main_v157_apply, Read.val_main_cst_16_apply,
    Read.val_main_v156_apply, Read.val_main_v155_apply, Read.val_main_v154_apply, distances_ix,
    Read.val_main_v153_apply, Read.val_main_v152_apply, Read.val_main_cst_15_apply, Read.val_main_v151_apply,
    Read.val_main_v150_apply, Read.val_main_v149_apply, Read.val_main_cst_14_apply, Read.val_main_v148_apply, e1,
    minNeg_ix, Read.val_main_call8_v0_apply, Read.val_main_call8_cst_apply]
  simp only [Ideal.hostUnary_exp_def, Ideal.mulf_def, Ideal.addf_def, Ideal.subf_def, Ideal.maximumf_def,
    Ideal.hostNegf_def, Ideal.negf_def, Ideal.ofBits_def, Ideal.ofBits_zero_f32, zero_add]
  rfl

/-- Result 0 of the reference, at an index given by its coordinates. -/
theorem clsScore_ix (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) (n : Fin 8) (o : Fin 81) (h w : Fin 128) :
    Read.val_main_v164 (F := Ideal) x0 x1 x2 x3 x4 (ix4 n o h w)
      = Ideal.div (prob x0 (Read.val_main_v18 (F := Ideal) x1 x2) (Read.val_main_v118 (F := Ideal) x1 x2 x3 x4) n o h w)
          (∑ o' : Fin 81, prob x0 (Read.val_main_v18 (F := Ideal) x1 x2) (Read.val_main_v118 (F := Ideal) x1 x2 x3 x4) n o' h w) := by
  have e : ∀ k : Fin 81, Read.idx_main_v161 (Read.idx_main_v162 (Read.idx_main_v163 (ix4 n o h w))) k = ix4 n k h w :=
    fun k => funext fun a => Fin.ext (by match a with | ⟨0, _⟩ => rfl | ⟨1, _⟩ => rfl | ⟨2, _⟩ => rfl | ⟨3, _⟩ => rfl)
  rw [Read.val_main_v164_apply, Read.val_main_v163_apply, Read.val_main_v162_apply, Read.val_main_v161_apply,
    Read.val_main_cst_18_apply, prob_ix]
  simp only [e, prob_ix, Ideal.hostDivf_def, Ideal.ofBits_def, Ideal.ofBits_zero_f32, zero_add]

/-! ## The five results at every index -/

/-- Result 4 of the reference is the scores of the distances to the class representatives. -/
theorem probsOri_apply (x0 : (⟨S8x128x128x128, .f32⟩ : BufTy).Contents (Elt Ideal))
    (x1 x2 : (⟨S10368, .f32⟩ : BufTy).Contents (Elt Ideal)) (i : S8x81x128x128.Idx) :
    Read.val_main_v146 (F := Ideal) x0 x1 x2 i = probsOri x0 (Read.val_main_v18 (F := Ideal) x1 x2) i := by
  obtain ⟨n, o, h, w, rfl⟩ : ∃ (n : Fin 8) (o : Fin 81) (h w : Fin 128), i = ix4 n o h w :=
    ⟨i 0, i 1, i 2, i 3, eq_ix4 i⟩
  exact probsOri_ix x0 x1 x2 n o h w

/-- Result 1 of the reference is the best negative score. -/
theorem clsScoreNeg_apply (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) (i : S8x81x128x128.Idx) :
    Read.val_main_v140 (F := Ideal) x0 x1 x2 x3 x4 i
      = clsScoreNeg x0 (Read.val_main_v118 (F := Ideal) x1 x2 x3 x4) i := by
  obtain ⟨n, o, h, w, rfl⟩ : ∃ (n : Fin 8) (o : Fin 81) (h w : Fin 128), i = ix4 n o h w :=
    ⟨i 0, i 1, i 2, i 3, eq_ix4 i⟩
  exact clsScoreNeg_ix x0 x1 x2 x3 x4 n o h w

/-- Result 0 of the reference is the class scores normalised over the classes. -/
theorem clsScore_apply (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) (i : S8x81x128x128.Idx) :
    Read.val_main_v164 (F := Ideal) x0 x1 x2 x3 x4 i
      = clsScore x0 (Read.val_main_v18 (F := Ideal) x1 x2) (Read.val_main_v118 (F := Ideal) x1 x2 x3 x4) i := by
  obtain ⟨n, o, h, w, rfl⟩ : ∃ (n : Fin 8) (o : Fin 81) (h w : Fin 128), i = ix4 n o h w :=
    ⟨i 0, i 1, i 2, i 3, eq_ix4 i⟩
  exact clsScore_ix x0 x1 x2 x3 x4 n o h w

end Cert.ReferenceIdeal.RefValue

end
-- ==== Proof.RefRead.lean ====
import proofs.«137945_j73349451481901_1_alg».proof.Proof.RefScores

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.DmlSpec

/-! ## The five results as whole arrays

Each of the reference's five results, as a function of its index, is the specification's function of the input x0,
the normalised class representatives R and the normalised negative representatives N, where R and N are the two
arrays the reference computes from its parameter arrays. -/

/-- Result 0: the class scores. -/
theorem clsScore_eq (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) :
    Read.val_main_v164 (F := Ideal) x0 x1 x2 x3 x4 = fun i => clsScore x0 (Read.val_main_v18 (F := Ideal) x1 x2) (Read.val_main_v118 (F := Ideal) x1 x2 x3 x4) i :=
  funext fun i => clsScore_apply x0 x1 x2 x3 x4 i

/-- Result 1: the best negative score. -/
theorem clsScoreNeg_eq (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) :
    Read.val_main_v140 (F := Ideal) x0 x1 x2 x3 x4 = fun i => clsScoreNeg x0 (Read.val_main_v118 (F := Ideal) x1 x2 x3 x4) i :=
  funext fun i => clsScoreNeg_apply x0 x1 x2 x3 x4 i

/-- Result 2: the distances to the class representatives. -/
theorem distances_eq (x0 : (⟨S8x128x128x128, .f32⟩ : BufTy).Contents (Elt Ideal))
    (x1 x2 : (⟨S10368, .f32⟩ : BufTy).Contents (Elt Ideal)) :
    Read.val_main_v126 (F := Ideal) x0 x1 x2 = fun i => distances x0 (Read.val_main_v18 (F := Ideal) x1 x2) i :=
  funext fun i => distances_apply x0 x1 x2 i

/-- Result 3: the distances to the negative representatives. -/
theorem distancesNeg_eq (x0 : (⟨S8x128x128x128, .f32⟩ : BufTy).Contents (Elt Ideal))
    (x1 x2 : (⟨S10368, .f32⟩ : BufTy).Contents (Elt Ideal)) (x3 : (⟨S3x3x128x128, .f32⟩ : BufTy).Contents (Elt Ideal))
    (x4 : (⟨S3x3x128, .f32⟩ : BufTy).Contents (Elt Ideal)) :
    Read.val_main_v134 (F := Ideal) x0 x1 x2 x3 x4 = fun i => distancesNeg x0 (Read.val_main_v118 (F := Ideal) x1 x2 x3 x4) i :=
  funext fun i => distancesNeg_apply x0 x1 x2 x3 x4 i

/-- Result 4: the scores of the distances to the class representatives. -/
theorem probsOri_eq (x0 : (⟨S8x128x128x128, .f32⟩ : BufTy).Contents (Elt Ideal))
    (x1 x2 : (⟨S10368, .f32⟩ : BufTy).Contents (Elt Ideal)) :
    Read.val_main_v146 (F := Ideal) x0 x1 x2 = fun i => probsOri x0 (Read.val_main_v18 (F := Ideal) x1 x2) i :=
  funext fun i => probsOri_apply x0 x1 x2 i

/-! ## The same, for the terms the reference's run states, over a memory and a device -/

/-- Result 0 of the run. -/
theorem res_clsScore (m : (ℓ : Loc nD τ sig) → Buf (Elt Ideal) ℓ) (c : Dev nD) :
    Cert.ReferenceIdeal.Value.res_main_v164 m c
      = fun i => clsScore (m ((c.tc : Thread nD τ).loc main_arg0)) (Read.val_main_v18 (F := Ideal) (m ((c.tc : Thread nD τ).loc main_arg1)) (m ((c.tc : Thread nD τ).loc main_arg2)))
          (Read.val_main_v118 (F := Ideal) (m ((c.tc : Thread nD τ).loc main_arg1)) (m ((c.tc : Thread nD τ).loc main_arg2)) (m ((c.tc : Thread nD τ).loc main_arg3)) (m ((c.tc : Thread nD τ).loc main_arg4))) i :=
  (Read.val_main_v164_eq m c).trans (clsScore_eq _ _ _ _ _)

/-- Result 1 of the run. -/
theorem res_clsScoreNeg (m : (ℓ : Loc nD τ sig) → Buf (Elt Ideal) ℓ) (c : Dev nD) :
    Cert.ReferenceIdeal.Value.res_main_v140 m c
      = fun i => clsScoreNeg (m ((c.tc : Thread nD τ).loc main_arg0))
          (Read.val_main_v118 (F := Ideal) (m ((c.tc : Thread nD τ).loc main_arg1)) (m ((c.tc : Thread nD τ).loc main_arg2)) (m ((c.tc : Thread nD τ).loc main_arg3)) (m ((c.tc : Thread nD τ).loc main_arg4))) i :=
  (Read.val_main_v140_eq m c).trans (clsScoreNeg_eq _ _ _ _ _)

/-- Result 3 of the run. -/
theorem res_distancesNeg (m : (ℓ : Loc nD τ sig) → Buf (Elt Ideal) ℓ) (c : Dev nD) :
    Cert.ReferenceIdeal.Value.res_main_v134 m c
      = fun i => distancesNeg (m ((c.tc : Thread nD τ).loc main_arg0))
          (Read.val_main_v118 (F := Ideal) (m ((c.tc : Thread nD τ).loc main_arg1)) (m ((c.tc : Thread nD τ).loc main_arg2)) (m ((c.tc : Thread nD τ).loc main_arg3)) (m ((c.tc : Thread nD τ).loc main_arg4))) i :=
  (Read.val_main_v134_eq m c).trans (distancesNeg_eq _ _ _ _ _)

/-- Result 2 of the run: the term the run states for it, over a memory and a device. -/
theorem res_distances (m : (ℓ : Loc nD τ sig) → Buf (Elt Ideal) ℓ) (c : Dev nD) :
    (Host.sqrt (maximumf (subf (broadcastInDim S8x81x1x128x128 ![] bcast_S_S8x81x1x128x128 (constant S_ .f32 0x40000000#32)) (mulf (broadcastInDim S8x81x1x128x128 ![] bcast_S_S8x81x1x128x128 (constant S_ .f32 0x40000000#32)) (transpose S8x81x1x128x128 [2, 0, 1, 3, 4] (Host.dotGeneral dot_S81x1x128_S8x128x128x128_S81x1x8x128x128_2_3_01_012_n_n none (Host.divf (shapeCast _ (addf (m ((c.tc : Thread nD τ).loc main_arg1)) (m ((c.tc : Thread nD τ).loc main_arg2))) shapeCasts_S10368_S81x1x128) (broadcastInDim S81x1x128 ![0, 1, 2] bcast_S81x1x1_S81x1x128_0_1_2 (maximumf (Host.sqrt (broadcastInDim S81x1x1 ![0, 1] bcast_S81x1_S81x1x1_0_1 (Host.reduceAdd (mulf (shapeCast _ (addf (m ((c.tc : Thread nD τ).loc main_arg1)) (m ((c.tc : Thread nD τ).loc main_arg2))) shapeCasts_S10368_S81x1x128) (shapeCast _ (addf (m ((c.tc : Thread nD τ).loc main_arg1)) (m ((c.tc : Thread nD τ).loc main_arg2))) shapeCasts_S10368_S81x1x128)) (constant S_ .f32 0x00000000#32) reducesTo_S81x1x128_S81x1_d2 h_S_))) (broadcastInDim S81x1x1 ![] bcast_S_S81x1x1 (constant S_ .f32 0x2B8CBCCC#32))))) (transpose S8x128x128x128 [0, 2, 3, 1] (Host.divf (m ((c.tc : Thread nD τ).loc main_arg0)) (broadcastInDim S8x128x128x128 ![0, 1, 2, 3] bcast_S8x1x128x128_S8x128x128x128_0_1_2_3 (maximumf (Host.sqrt (broadcastInDim S8x1x128x128 ![0, 2, 3] bcast_S8x128x128_S8x1x128x128_0_2_3 (Host.reduceAdd (mulf (m ((c.tc : Thread nD τ).loc main_arg0)) (m ((c.tc : Thread nD τ).loc main_arg0))) (constant S_ .f32 0x00000000#32) reducesTo_S8x128x128x128_S8x128x128_d1 h_S_))) (broadcastInDim S8x1x128x128 ![] bcast_S_S8x1x128x128 (constant S_ .f32 0x2B8CBCCC#32))))) transposes_S8x128x128x128_S8x128x128x128_0_2_3_1)) transposes_S81x1x8x128x128_S8x81x1x128x128_2_0_1_3_4))) (broadcastInDim S8x81x1x128x128 ![] bcast_S_S8x81x1x128x128 (constant S_ .f32 0x00000000#32))) : FVec Ideal S8x81x1x128x128 .f32)
      = fun i => distances (m ((c.tc : Thread nD τ).loc main_arg0)) (Read.val_main_v18 (F := Ideal) (m ((c.tc : Thread nD τ).loc main_arg1)) (m ((c.tc : Thread nD τ).loc main_arg2))) i :=
  (Read.val_main_v126_eq (F := Ideal) _ _ _).trans (distances_eq _ _ _)

/-- Result 4 of the run: the term the run states for it, over a memory and a device. -/
theorem res_probsOri (m : (ℓ : Loc nD τ sig) → Buf (Elt Ideal) ℓ) (c : Dev nD) :
    (Host.reduce FloatOps.maximumf (Host.exp (mulf (Host.negf (mulf (Host.sqrt (maximumf (subf (broadcastInDim S8x81x1x128x128 ![] bcast_S_S8x81x1x128x128 (constant S_ .f32 0x40000000#32)) (mulf (broadcastInDim S8x81x1x128x128 ![] bcast_S_S8x81x1x128x128 (constant S_ .f32 0x40000000#32)) (transpose S8x81x1x128x128 [2, 0, 1, 3, 4] (Host.dotGeneral dot_S81x1x128_S8x128x128x128_S81x1x8x128x128_2_3_01_012_n_n none (Host.divf (shapeCast _ (addf (m ((c.tc : Thread nD τ).loc main_arg1)) (m ((c.tc : Thread nD τ).loc main_arg2))) shapeCasts_S10368_S81x1x128) (broadcastInDim S81x1x128 ![0, 1, 2] bcast_S81x1x1_S81x1x128_0_1_2 (maximumf (Host.sqrt (broadcastInDim S81x1x1 ![0, 1] bcast_S81x1_S81x1x1_0_1 (Host.reduceAdd (mulf (shapeCast _ (addf (m ((c.tc : Thread nD τ).loc main_arg1)) (m ((c.tc : Thread nD τ).loc main_arg2))) shapeCasts_S10368_S81x1x128) (shapeCast _ (addf (m ((c.tc : Thread nD τ).loc main_arg1)) (m ((c.tc : Thread nD τ).loc main_arg2))) shapeCasts_S10368_S81x1x128)) (constant S_ .f32 0x00000000#32) reducesTo_S81x1x128_S81x1_d2 h_S_))) (broadcastInDim S81x1x1 ![] bcast_S_S81x1x1 (constant S_ .f32 0x2B8CBCCC#32))))) (transpose S8x128x128x128 [0, 2, 3, 1] (Host.divf (m ((c.tc : Thread nD τ).loc main_arg0)) (broadcastInDim S8x128x128x128 ![0, 1, 2, 3] bcast_S8x1x128x128_S8x128x128x128_0_1_2_3 (maximumf (Host.sqrt (broadcastInDim S8x1x128x128 ![0, 2, 3] bcast_S8x128x128_S8x1x128x128_0_2_3 (Host.reduceAdd (mulf (m ((c.tc : Thread nD τ).loc main_arg0)) (m ((c.tc : Thread nD τ).loc main_arg0))) (constant S_ .f32 0x00000000#32) reducesTo_S8x128x128x128_S8x128x128_d1 h_S_))) (broadcastInDim S8x1x128x128 ![] bcast_S_S8x1x128x128 (constant S_ .f32 0x2B8CBCCC#32))))) transposes_S8x128x128x128_S8x128x128x128_0_2_3_1)) transposes_S81x1x8x128x128_S8x81x1x128x128_2_0_1_3_4))) (broadcastInDim S8x81x1x128x128 ![] bcast_S_S8x81x1x128x128 (constant S_ .f32 0x00000000#32)))) (Host.sqrt (maximumf (subf (broadcastInDim S8x81x1x128x128 ![] bcast_S_S8x81x1x128x128 (constant S_ .f32 0x40000000#32)) (mulf (broadcastInDim S8x81x1x128x128 ![] bcast_S_S8x81x1x128x128 (constant S_ .f32 0x40000000#32)) (transpose S8x81x1x128x128 [2, 0, 1, 3, 4] (Host.dotGeneral dot_S81x1x128_S8x128x128x128_S81x1x8x128x128_2_3_01_012_n_n none (Host.divf (shapeCast _ (addf (m ((c.tc : Thread nD τ).loc main_arg1)) (m ((c.tc : Thread nD τ).loc main_arg2))) shapeCasts_S10368_S81x1x128) (broadcastInDim S81x1x128 ![0, 1, 2] bcast_S81x1x1_S81x1x128_0_1_2 (maximumf (Host.sqrt (broadcastInDim S81x1x1 ![0, 1] bcast_S81x1_S81x1x1_0_1 (Host.reduceAdd (mulf (shapeCast _ (addf (m ((c.tc : Thread nD τ).loc main_arg1)) (m ((c.tc : Thread nD τ).loc main_arg2))) shapeCasts_S10368_S81x1x128) (shapeCast _ (addf (m ((c.tc : Thread nD τ).loc main_arg1)) (m ((c.tc : Thread nD τ).loc main_arg2))) shapeCasts_S10368_S81x1x128)) (constant S_ .f32 0x00000000#32) reducesTo_S81x1x128_S81x1_d2 h_S_))) (broadcastInDim S81x1x1 ![] bcast_S_S81x1x1 (constant S_ .f32 0x2B8CBCCC#32))))) (transpose S8x128x128x128 [0, 2, 3, 1] (Host.divf (m ((c.tc : Thread nD τ).loc main_arg0)) (broadcastInDim S8x128x128x128 ![0, 1, 2, 3] bcast_S8x1x128x128_S8x128x128x128_0_1_2_3 (maximumf (Host.sqrt (broadcastInDim S8x1x128x128 ![0, 2, 3] bcast_S8x128x128_S8x1x128x128_0_2_3 (Host.reduceAdd (mulf (m ((c.tc : Thread nD τ).loc main_arg0)) (m ((c.tc : Thread nD τ).loc main_arg0))) (constant S_ .f32 0x00000000#32) reducesTo_S8x128x128x128_S8x128x128_d1 h_S_))) (broadcastInDim S8x1x128x128 ![] bcast_S_S8x1x128x128 (constant S_ .f32 0x2B8CBCCC#32))))) transposes_S8x128x128x128_S8x128x128x128_0_2_3_1)) transposes_S81x1x8x128x128_S8x81x1x128x128_2_0_1_3_4))) (broadcastInDim S8x81x1x128x128 ![] bcast_S_S8x81x1x128x128 (constant S_ .f32 0x00000000#32)))))) (broadcastInDim S8x81x1x128x128 ![] bcast_S_S8x81x1x128x128 (constant S_ .f32 0x40000000#32)))) (constant S_ .f32 0xFF800000#32) reducesTo_S8x81x1x128x128_S8x81x128x128_d2 h_S_ : FVec Ideal S8x81x128x128 .f32)
      = fun i => probsOri (m ((c.tc : Thread nD τ).loc main_arg0)) (Read.val_main_v18 (F := Ideal) (m ((c.tc : Thread nD τ).loc main_arg1)) (m ((c.tc : Thread nD τ).loc main_arg2))) i :=
  (Read.val_main_v146_eq (F := Ideal) _ _ _).trans (probsOri_eq _ _ _)

end Cert.ReferenceIdeal.RefValue

end
-- ==== Proof.lean ====
/-
  The certificate. Kernel and reference compute, for every pixel of an [8, 128, 128, 128] input, the Euclidean distances
  between the pixel's normalised channel vector and 81 normalised class representatives and 3 × 81 normalised negative
  representatives, and from them four score arrays; the reference does it with whole-array host operations, the kernel
  per image and 16-row tile on a grid of 64 points, with the representatives computed by host operations before the grid.

  The three frames: each kernel program is its host prelude and then the grid; at every grid point the body reads whole
  blocks and overwrites each output block whole, so the grid runs to the end, and no host operation or block write-back
  touches an argument array (the word-level and the idealized kernel by the same text at their two instances). The
  reference is a straight line of host operations, and its frame is its run with the results dropped.

  The idealization rewrote nothing, so its conjunct is trivial.

  Equality at the ideal instance: the kernel's five result arrays, read off its run block by block, and the reference's
  five results, read operation by operation, are the same five functions of the input and of the two normalised
  representative arrays — the latter computed by the same host operations in both programs. Sums are taken in different
  groupings and the matrix products with their factors in the other order; on the extended reals neither matters, and no
  step needs the inputs to be finite.
-/
import proofs.«137945_j73349451481901_1_alg».proof.Defs
import proofs.«137945_j73349451481901_1_alg».proof.Proof.Gen.Kernel
import proofs.«137945_j73349451481901_1_alg».proof.Proof.Gen.Kernel.Skeleton
import proofs.«137945_j73349451481901_1_alg».proof.Proof.Gen.Kernel.Launch
import proofs.«137945_j73349451481901_1_alg».proof.Proof.Gen.Kernel.Points
import proofs.«137945_j73349451481901_1_alg».proof.Proof.Gen.KernelIdeal
import proofs.«137945_j73349451481901_1_alg».proof.Proof.Gen.KernelIdeal.Skeleton
import proofs.«137945_j73349451481901_1_alg».proof.Proof.Gen.KernelIdeal.Launch
import proofs.«137945_j73349451481901_1_alg».proof.Proof.Gen.KernelIdeal.Points
import proofs.«137945_j73349451481901_1_alg».proof.Proof.Gen.ReferenceIdeal
import proofs.«137945_j73349451481901_1_alg».proof.Proof.Gen.ReferenceIdeal.Run
import proofs.«137945_j73349451481901_1_alg».proof.Proof.Gen.ReferenceIdeal.Read
import proofs.«137945_j73349451481901_1_alg».proof.Proof.Gen.Pre_finite_inputs
import proofs.«137945_j73349451481901_1_alg».proof.Proof.BitsRun
import proofs.«137945_j73349451481901_1_alg».proof.Proof.Arrays
import proofs.«137945_j73349451481901_1_alg».proof.Proof.RefRead
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Grid.frame m ρ

/-- The idealized kernel runs and leaves its arguments unchanged. -/
theorem frame_ideal : Cert.frame_KernelIdeal := fun m ρ _ => Cert.KernelIdeal.Grid.frame m ρ

/-- The reference runs and leaves its arguments unchanged: its run, the five results dropped. -/
theorem frame_reference : Cert.frame_ReferenceIdeal := fun m ρ _ =>
  (θ_run Cert.ReferenceIdeal.defs _ _).mono (fun _ h c => (h c).2.2.2.2.2) (Cert.ReferenceIdeal.Value.run (F := Ideal) m ρ)

/-- Nothing was rewritten by the idealization. -/
theorem preserves : Cert.preserves_Kernel_KernelIdeal := trivial

/-- From memories agreeing on the arguments both idealized programs run, and result by result they end at the same
    function of the input and the two normalised representative arrays. -/
theorem algebraic : Cert.algebraic_KernelIdeal_ReferenceIdeal := by
  intro m ρ m' ρ' _ hagree
  refine ⟨_, _, _, _, _, Cert.KernelIdeal.Place.kernel_run m ρ, ?_⟩
  refine (θ_run Cert.ReferenceIdeal.defs _ _).mono (fun _ h c => ?_) (Cert.ReferenceIdeal.Value.run (F := Ideal) m' ρ')
  obtain ⟨r0, r1, r2, r3, r4, a0, a1, a2, a3, a4⟩ := h c
  obtain ⟨g0, g1, g2, g3, g4⟩ := hagree c
  refine ⟨r0.trans ?_, r1.trans ?_, r2.trans ?_, r3.trans ?_, r4.trans ?_, a0, a1, a2, a3, a4⟩
  · rw [Cert.ReferenceIdeal.RefValue.res_clsScore m' c, g0, g1, g2, g3, g4]; rfl
  · rw [Cert.ReferenceIdeal.RefValue.res_clsScoreNeg m' c, g0, g1, g2, g3, g4]; rfl
  · refine (Cert.ReferenceIdeal.RefValue.res_distances m' c).trans ?_
    rw [g0, g1, g2]; rfl
  · rw [Cert.ReferenceIdeal.RefValue.res_distancesNeg m' c, g0, g1, g2, g3, g4]; rfl
  · refine (Cert.ReferenceIdeal.RefValue.res_probsOri m' c).trans ?_
    rw [g0, g1, g2]; rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
